-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  IdealRules.named_const.Statement Cert.KernelIdeal.κ "inv_100" .f32 0x3C23D70A#32 ((1 / 100 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v57_0)) (v1 : (c : Dev Cert.KernelIdeal.nD) → Buf (Elt Ideal) ((c.tc : Thread Cert.KernelIdeal.nD Cert.KernelIdeal.τ).loc Cert.KernelIdeal.main_v57_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57_0) = v0 c
          ∧ r.2.mem ((c.tc : Thread Cert.KernelIdeal.nD Cert.KernelIdeal.τ).loc Cert.KernelIdeal.main_v57_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S20000x3 : Shape := ⟨2, ![20000, 3]⟩
abbrev S2x640000 : Shape := ⟨2, ![2, 640000]⟩
abbrev S640000x16 : Shape := ⟨2, ![640000, 16]⟩
abbrev S20000 : Shape := ⟨1, ![20000]⟩
abbrev S273x128 : Shape := ⟨2, ![273, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S20000x3 : S_.BroadcastsInDim S20000x3 (![] : Fin 0 → Fin S20000x3.rank)
  reducesTo_S20000x3_S_d0_1 : S20000x3.ReducesTo [0, 1] S_
  bcast_S_S640000x16 : S_.BroadcastsInDim S640000x16 (![] : Fin 0 → Fin S640000x16.rank)
  reducesTo_S640000x16_S_d0_1 : S640000x16.ReducesTo [0, 1] S_
  bcast_S_S273x128 : S_.BroadcastsInDim S273x128 (![] : Fin 0 → Fin S273x128.rank)
  reducesTo_S273x128_S_d0_1 : S273x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_

variable [Facts]

def fn_part4 {F : FTy → Type} [FloatOps F] (main_arg16 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg13 : FVec F S256x128 .f32) (main_arg14 : FVec F S128 .f32) (main_arg15 : FVec F S128x128 .f32) (main_arg16 : FVec F S128 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S256x128 .f32 := Host.absf main_arg13
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_v63 main_v67

def fn_part2 {F : FTy → Type} [FloatOps F] (main_arg9 : FVec F S128x128 .f32) (main_arg10 : FVec F S128 .f32) (main_arg11 : FVec F S128x1 .f32) (main_arg12 : FVec F S1 .f32) (main_arg13 : FVec F S256x128 .f32) (main_arg14 : FVec F S128 .f32) (main_arg15 : FVec F S128x128 .f32) (main_arg16 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg11
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_arg13 main_arg14 main_arg15 main_arg16 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x1 .f32) (main_arg12 : FVec F S1 .f32) (main_arg13 : FVec F S256x128 .f32) (main_arg14 : FVec F S128 .f32) (main_arg15 : FVec F S128x128 .f32) (main_arg16 : FVec F S128 .f32) (main_v13 : IVec S_ 1) (main_v16 : IVec S273x128 1) : IVec S_ 1 :=
  let main_c_5 : IVec S_ 1 := constantI S_ 1 1#1
  let main_v17 : IVec S_ 1 := (fun x v => Host.reduce IntOp.andi x v reducesTo_S273x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S20000x128 .f32) (main_arg1 : FVec F S20000x3 .f32) (main_arg2 : IVec S2x640000 32) (main_arg3 : FVec F S640000x16 .f32) (main_arg4 : IVec S20000 1) (main_arg5 : FVec F S273x128 .f32) (main_arg6 : FVec F S128 .f32) (main_arg7 : FVec F S128x128 .f32) (main_arg8 : FVec F S128 .f32) (main_arg9 : FVec F S128x128 .f32) (main_arg10 : FVec F S128 .f32) (main_arg11 : FVec F S128x1 .f32) (main_arg12 : FVec F S1 .f32) (main_arg13 : FVec F S256x128 .f32) (main_arg14 : FVec F S128 .f32) (main_arg15 : FVec F S128x128 .f32) (main_arg16 : FVec F S128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S20000x3 .f32 := Host.absf main_arg1
  let main_cst_0 : FVec F S_ .f32 := constant S_ .f32 0x7F800000#32
  let main_v5 : FVec F S20000x3 .f32 := broadcastInDim S20000x3 ![] bcast_S_S20000x3 main_cst_0
  let main_v6 : IVec S20000x3 1 := cmpf .olt main_v4 main_v5
  let main_c_1 : IVec S_ 1 := constantI S_ 1 1#1
  let main_v7 : IVec S_ 1 := (fun x v => Host.reduce IntOp.andi x v reducesTo_S20000x3_S_d0_1 h_S_) main_v6 main_c_1
  let main_v8 : IVec S_ 1 := andi main_v3 main_v7
  let main_v9 : FVec F S640000x16 .f32 := Host.absf main_arg3
  let main_cst_2 : FVec F S_ .f32 := constant S_ .f32 0x7F800000#32
  let main_v10 : FVec F S640000x16 .f32 := broadcastInDim S640000x16 ![] bcast_S_S640000x16 main_cst_2
  let main_v11 : IVec S640000x16 1 := cmpf .olt main_v9 main_v10
  let main_c_3 : IVec S_ 1 := constantI S_ 1 1#1
  let main_v12 : IVec S_ 1 := (fun x v => Host.reduce IntOp.andi x v reducesTo_S640000x16_S_d0_1 h_S_) main_v11 main_c_3
  let main_v13 : IVec S_ 1 := andi main_v8 main_v12
  let main_v14 : FVec F S273x128 .f32 := Host.absf main_arg5
  let main_cst_4 : FVec F S_ .f32 := constant S_ .f32 0x7F800000#32
  let main_v15 : FVec F S273x128 .f32 := broadcastInDim S273x128 ![] bcast_S_S273x128 main_cst_4
  let main_v16 : IVec S273x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S20000x128 : Shape := ⟨2, ![20000, 128]⟩
abbrev S20000x3 : Shape := ⟨2, ![20000, 3]⟩
abbrev S2x640000 : Shape := ⟨2, ![2, 640000]⟩
abbrev S640000x16 : Shape := ⟨2, ![640000, 16]⟩
abbrev S20000 : Shape := ⟨1, ![20000]⟩
abbrev S273x128 : Shape := ⟨2, ![273, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S640000x3 : Shape := ⟨2, ![640000, 3]⟩
abbrev S1x128 : Shape := ⟨2, ![1, 128]⟩
abbrev S16x128 : Shape := ⟨2, ![16, 128]⟩
abbrev S1x1 : Shape := ⟨2, ![1, 1]⟩
abbrev S5120x128 : Shape := ⟨2, ![5120, 128]⟩
abbrev S5120x3 : Shape := ⟨2, ![5120, 3]⟩
abbrev S5120x16 : Shape := ⟨2, ![5120, 16]⟩
abbrev S5120 : Shape := ⟨1, ![5120]⟩
abbrev S5120x1 : Shape := ⟨2, ![5120, 1]⟩
abbrev S20000x1 : Shape := ⟨2, ![20000, 1]⟩
abbrev S2000x128 : Shape := ⟨2, ![2000, 128]⟩
abbrev S2000x3 : Shape := ⟨2, ![2000, 3]⟩
abbrev S2000x1 : Shape := ⟨2, ![2000, 1]⟩

abbrev nBuf : Space → Nat
  | .hbm => 87
  | .vmem => 42
  | .smem => 0
  | _ => 0

abbrev bufTy : (tb : Table) → Fin (tcTables nBuf tb) → BufTy
  | .hbm, ⟨0, _⟩ => ⟨S20000x128, .f32⟩
  | .hbm, ⟨1, _⟩ => ⟨S20000x3, .f32⟩
  | .hbm, ⟨2, _⟩ => ⟨S2x640000, .i32⟩
  | .hbm, ⟨3, _⟩ => ⟨S640000x16, .f32⟩
  | .hbm, ⟨4, _⟩ => ⟨S20000, .i1⟩
  | .hbm, ⟨5, _⟩ => ⟨S273x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S256x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S1x640000, .i32⟩
  | .hbm, ⟨18, _⟩ => ⟨S640000, .i32⟩
  | .hbm, ⟨19, _⟩ => ⟨S1x640000, .i32⟩
  | .hbm, ⟨20, _⟩ => ⟨S640000, .i32⟩
  | .hbm, ⟨21, _⟩ => ⟨S20000x128, .bf16⟩
  | .hbm, ⟨22, _⟩ => ⟨S_, .i32⟩
  | .hbm, ⟨23, _⟩ => ⟨S640000, .i32⟩
  | .hbm, ⟨24, _⟩ => ⟨S640000, .i1⟩
  | .hbm, ⟨25, _⟩ => ⟨S_, .i32⟩
  | .hbm, ⟨26, _⟩ => ⟨S640000, .i32⟩
  | .hbm, ⟨27, _⟩ => ⟨S640000, .i32⟩
  | .hbm, ⟨28, _⟩ => ⟨S640000, .i32⟩
  | .hbm, ⟨29, _⟩ => ⟨S640000x1, .i32⟩
  | .hbm, ⟨30, _⟩ => ⟨S640000x128, .bf16⟩
  | .hbm, ⟨31, _⟩ => ⟨S_, .i32⟩
  | .hbm, ⟨32, _⟩ => ⟨S640000, .i32⟩
  | .hbm, ⟨33, _⟩ => ⟨S640000, .i1⟩
  | .hbm, ⟨34, _⟩ => ⟨S_, .i32⟩
  | .hbm, ⟨35, _⟩ => ⟨S640000, .i32⟩
  | .hbm, ⟨36, _⟩ => ⟨S640000, .i32⟩
  | .hbm, ⟨37, _⟩ => ⟨S640000, .i32⟩
  | .hbm, ⟨38, _⟩ => ⟨S640000x1, .i32⟩
  | .hbm, ⟨39, _⟩ => ⟨S640000x128, .bf16⟩
  | .hbm, ⟨40, _⟩ => ⟨S_, .i32⟩
  | .hbm, ⟨41, _⟩ => ⟨S640000, .i32⟩
  | .hbm, ⟨42, _⟩ => ⟨S640000, .i1⟩
  | .hbm, ⟨43, _⟩ => ⟨S_, .i32⟩
  | .hbm, ⟨44, _⟩ => ⟨S640000, .i32⟩
  | .hbm, ⟨45, _⟩ => ⟨S640000, .i32⟩
  | .hbm, ⟨46, _⟩ => ⟨S640000, .i32⟩
  | .hbm, ⟨47, _⟩ => ⟨S640000x1, .i32⟩
  | .hbm, ⟨48, _⟩ => ⟨S640000x3, .f32⟩
  | .hbm, ⟨49, _⟩ => ⟨S_, .i32⟩
  | .hbm, ⟨50, _⟩ => ⟨S640000, .i32⟩
  | .hbm, ⟨51, _⟩ => ⟨S640000, .i1⟩
  | .hbm, ⟨52, _⟩ => ⟨S_, .i32⟩
  | .hbm, ⟨53, _⟩ => ⟨S640000, .i32⟩
  | .hbm, ⟨54, _⟩ => ⟨S640000, .i32⟩
  | .hbm, ⟨55, _⟩ => ⟨S640000, .i32⟩
  | .hbm, ⟨56, _⟩ => ⟨S640000x1, .i32⟩
  | .hbm, ⟨57, _⟩ => ⟨S640000x3, .f32⟩
  | .hbm, ⟨58, _⟩ => ⟨S640000x3, .f32⟩
  | .hbm, ⟨59, _⟩ => ⟨S128x128, .f32⟩
  | .hbm, ⟨60, _⟩ => ⟨S128x128, .f32⟩
  | .hbm, ⟨61, _⟩ => ⟨S1x128, .f32⟩
  | .hbm, ⟨62, _⟩ => ⟨S16x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S1x1, .f32⟩
  | .hbm, ⟨67, _⟩ => ⟨S640000x128, .bf16⟩
  | .hbm, ⟨68, _⟩ => ⟨S640000x3, .f32⟩
  | .hbm, ⟨69, _⟩ => ⟨S_, .f32⟩
  | .hbm, ⟨70, _⟩ => ⟨S20000x3, .f32⟩
  | .hbm, ⟨71, _⟩ => ⟨S640000x1, .i32⟩
  | .hbm, ⟨72, _⟩ => ⟨S20000x3, .f32⟩
  | .hbm, ⟨73, _⟩ => ⟨S640000x128, .f32⟩
  | .hbm, ⟨74, _⟩ => ⟨S_, .f32⟩
  | .hbm, ⟨75, _⟩ => ⟨S20000x128, .f32⟩
  | .hbm, ⟨76, _⟩ => ⟨S640000x1, .i32⟩
  | .hbm, ⟨77, _⟩ => ⟨S20000x128, .f32⟩
  | .hbm, ⟨78, _⟩ => ⟨S20000, .i1⟩
  | .hbm, ⟨79, _⟩ => ⟨S20000, .f32⟩
  | .hbm, ⟨80, _⟩ => ⟨S20000x1, .f32⟩
  | .hbm, ⟨81, _⟩ => ⟨S128x128, .f32⟩
  | .hbm, ⟨82, _⟩ => ⟨S128x128, .f32⟩
  | .hbm, ⟨83, _⟩ => ⟨S1x128, .f32⟩
  | .hbm, ⟨84, _⟩ => ⟨S1x128, .f32⟩
  | .hbm, ⟨85, _⟩ => ⟨S20000x128, .f32⟩
  | .hbm, ⟨86, _⟩ => ⟨S20000x3, .f32⟩
  | .local _ .vmem, ⟨0, _⟩ => ⟨S5120x128, .bf16⟩
  | .local _ .vmem, ⟨1, _⟩ => ⟨S5120x128, .bf16⟩
  | .local _ .vmem, ⟨2, _⟩ => ⟨S5120x128, .bf16⟩
  | .local _ .vmem, ⟨3, _⟩ => ⟨S5120x128, .bf16⟩
  | .local _ .vmem, ⟨4, _⟩ => ⟨S5120x3, .f32⟩
  | .local _ .vmem, ⟨5, _⟩ => ⟨S5120x3, .f32⟩
  | .local _ .vmem, ⟨6, _⟩ => ⟨S5120x16, .f32⟩
  | .local _ .vmem, ⟨7, _⟩ => ⟨S5120x16, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S16x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S1x128, .f32⟩
  | .local _ .vmem, ⟨17, _⟩ => ⟨S128x1, .f32⟩
  | .local _ .vmem, ⟨18, _⟩ => ⟨S1x1, .f32⟩
  | .local _ .vmem, ⟨19, _⟩ => ⟨S5120x128, .bf16⟩
  | .local _ .vmem, ⟨20, _⟩ => ⟨S5120x128, .bf16⟩
  | .local _ .vmem, ⟨21, _⟩ => ⟨S5120x3, .f32⟩
  | .local _ .vmem, ⟨22, _⟩ => ⟨S5120x3, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x3, .f32⟩
  | .local _ .vmem, ⟨28, _⟩ => ⟨S2000x3, .f32⟩
  | .local _ .vmem, ⟨29, _⟩ => ⟨S2000x3, .f32⟩
  | .local _ .vmem, ⟨30, _⟩ => ⟨S2000x3, .f32⟩
  | .local _ .vmem, ⟨31, _⟩ => ⟨S2000x1, .f32⟩
  | .local _ .vmem, ⟨32, _⟩ => ⟨S2000x1, .f32⟩
  | .local _ .vmem, ⟨33, _⟩ => ⟨S128x128, .f32⟩
  | .local _ .vmem, ⟨34, _⟩ => ⟨S128x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | .local _ .vmem, ⟨40, _⟩ => ⟨S2000x3, .f32⟩
  | .local _ .vmem, ⟨41, _⟩ => ⟨S2000x3, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c_1 : Ref sig .tc := ⟨.hbm, 31, rfl⟩
abbrev main_v12 : Ref sig .tc := ⟨.hbm, 32, rfl⟩
abbrev main_v13 : Ref sig .tc := ⟨.hbm, 33, rfl⟩
abbrev main_c_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_3 : Ref sig .tc := ⟨.hbm, 40, rfl⟩
abbrev main_v19 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_c_6 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42_0 : Ref sig .tc := ⟨.hbm, 67, rfl⟩
abbrev main_v42_1 : Ref sig .tc := ⟨.hbm, 68, rfl⟩
abbrev main_cst : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_7 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57_0 : Ref sig .tc := ⟨.hbm, 85, rfl⟩
abbrev main_v57_1 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc1_stg0_0 : Ref sig .tc := ⟨.vmem, 23, rfl⟩
abbrev cc1_stg0_1 : Ref sig .tc := ⟨.vmem, 24, rfl⟩
abbrev cc1_stg1_0 : Ref sig .tc := ⟨.vmem, 25, rfl⟩
abbrev cc1_stg1_1 : Ref sig .tc := ⟨.vmem, 26, rfl⟩
abbrev cc1_stg2_0 : Ref sig .tc := ⟨.vmem, 27, rfl⟩
abbrev cc1_stg2_1 : Ref sig .tc := ⟨.vmem, 28, rfl⟩
abbrev cc1_stg3_0 : Ref sig .tc := ⟨.vmem, 29, rfl⟩
abbrev cc1_stg3_1 : Ref sig .tc := ⟨.vmem, 30, rfl⟩
abbrev cc1_stg4_0 : Ref sig .tc := ⟨.vmem, 31, rfl⟩
abbrev cc1_stg4_1 : Ref sig .tc := ⟨.vmem, 32, rfl⟩
abbrev cc1_stg5_0 : Ref sig .tc := ⟨.vmem, 33, rfl⟩
abbrev cc1_stg6_0 : Ref sig .tc := ⟨.vmem, 34, rfl⟩
abbrev cc1_stg7_0 : Ref sig .tc := ⟨.vmem, 35, rfl⟩
abbrev cc1_stg8_0 : Ref sig .tc := ⟨.vmem, 36, rfl⟩
abbrev cc1_stg9_0 : Ref sig .tc := ⟨.vmem, 37, rfl⟩
abbrev cc1_stg10_0 : Ref sig .tc := ⟨.vmem, 38, rfl⟩
abbrev cc1_stg10_1 : Ref sig .tc := ⟨.vmem, 39, rfl⟩
abbrev cc1_stg11_0 : Ref sig .tc := ⟨.vmem, 40, rfl⟩
abbrev cc1_stg11_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc1_sem0_0 : DmaSem sig := 23
abbrev cc1_sem0_1 : DmaSem sig := 24
abbrev cc1_sem1_0 : DmaSem sig := 25
abbrev cc1_sem1_1 : DmaSem sig := 26
abbrev cc1_sem2_0 : DmaSem sig := 27
abbrev cc1_sem2_1 : DmaSem sig := 28
abbrev cc1_sem3_0 : DmaSem sig := 29
abbrev cc1_sem3_1 : DmaSem sig := 30
abbrev cc1_sem4_0 : DmaSem sig := 31
abbrev cc1_sem4_1 : DmaSem sig := 32
abbrev cc1_sem5_0 : DmaSem sig := 33
abbrev cc1_sem6_0 : DmaSem sig := 34
abbrev cc1_sem7_0 : DmaSem sig := 35
abbrev cc1_sem8_0 : DmaSem sig := 36
abbrev cc1_sem9_0 : DmaSem sig := 37
abbrev cc1_sem10_0 : DmaSem sig := 38
abbrev cc1_sem10_1 : DmaSem sig := 39
abbrev cc1_sem11_0 : DmaSem sig := 40
abbrev cc1_sem11_1 : DmaSem sig := 41

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5120x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5120x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5120x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5120x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S5120x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S5120x3 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S2000x3 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bitsLt_bf16_f32 : FTy.bits .bf16 < FTy.bits .f32
  bcast_S_S640000 : S_.BroadcastsInDim S640000 (![] : Fin 0 → Fin S640000.rank)
  bcast_S640000_S640000x1_0 : S640000.BroadcastsInDim S640000x1 (![0] : Fin 1 → Fin S640000x1.rank)
  slices_S273x128_S128x128_0_0 : S273x128.Slices ![0, 0] S128x128
  slices_S273x128_S128x128_128_0 : S273x128.Slices ![128, 0] S128x128
  slices_S273x128_S1x128_256_0 : S273x128.Slices ![256, 0] S1x128
  slices_S273x128_S16x128_257_0 : S273x128.Slices ![257, 0] S16x128
  shapeCasts_S128_S1x128 : S128.ShapeCasts S1x128
  shapeCasts_S1_S1x1 : S1.ShapeCasts S1x1
  inb_S5120x128_S5120x128_0_0 : ∀ a, (![0, 0] : Fin 2 → Nat) a + S5120x128.size a ≤ S5120x128.size a
  h_S5120x128 : 0 < S5120x128.numel
  shapeCasts_S5120x128_S5120x128 : S5120x128.ShapeCasts S5120x128
  inb_S5120x3_S5120x3_0_0 : ∀ a, (![0, 0] : Fin 2 → Nat) a + S5120x3.size a ≤ S5120x3.size a
  h_S5120x3 : 0 < S5120x3.numel
  shapeCasts_S5120x3_S5120x3 : S5120x3.ShapeCasts S5120x3
  inb_S5120x16_S5120x16_0_0 : ∀ a, (![0, 0] : Fin 2 → Nat) a + S5120x16.size a ≤ S5120x16.size a
  h_S5120x16 : 0 < S5120x16.numel
  reduces_S5120x3_S5120 : S5120x3.Reduces [1] S5120
  shapeCasts_S5120_S5120x1 : S5120.ShapeCasts S5120x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  broadcasts_S5120x1_S5120x128 : S5120x1.Broadcasts S5120x128
  broadcasts_S1x128_S5120x128 : S1x128.Broadcasts S5120x128
  packedbf16_S5120x128_S5120x128_0_0 : (Rect.unit (s := S5120x128) ![0, 0] S5120x128.size inb_S5120x128_S5120x128_0_0).PackedRows (EltTy.packing .bf16)
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5120x1 : S1x1.Broadcasts S5120x1
  broadcasts_S5120x1_S5120x3 : S5120x1.Broadcasts S5120x3
  bcast_S_S20000x3 : S_.BroadcastsInDim S20000x3 (![] : Fin 0 → Fin S20000x3.rank)
  bcast_S_S20000x128 : S_.BroadcastsInDim S20000x128 (![] : Fin 0 → Fin S20000x128.rank)
  bcast_S20000_S20000x1_0 : S20000.BroadcastsInDim S20000x1 (![0] : Fin 1 → Fin S20000x1.rank)
  slices_S256x128_S128x128_0_0 : S256x128.Slices ![0, 0] S128x128
  slices_S256x128_S128x128_128_0 : S256x128.Slices ![128, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x3 : S2000x1.Broadcasts S2000x3
  gather_S20000x128_S640000x1_S640000x128_1_0_n_n_0_1_1128_wf : GatherDims.WF S20000x128 S640000x1 S640000x128 [1] [0] [] [0] [] 1 ![1, 128]
  gather_S20000x3_S640000x1_S640000x3_1_0_n_n_0_1_13_wf : GatherDims.WF S20000x3 S640000x1 S640000x3 [1] [0] [] [0] [] 1 ![1, 3]
  dot_S5120x128_S128x128_S5120x128_1_0_0_1_n_n_wf : DotDims.WF S5120x128 S128x128 S5120x128 [1] [0] [0] [1] [] []
  dot_S5120x16_S16x128_S5120x128_1_0_0_1_n_n_wf : DotDims.WF S5120x16 S16x128 S5120x128 [1] [0] [0] [1] [] []
  dot_S5120x128_S128x1_S5120x1_1_0_0_1_n_n_wf : DotDims.WF S5120x128 S128x1 S5120x1 [1] [0] [0] [1] [] []
  scatter_S20000x3_S640000x1_S640000x3_1_0_0_1_wf : ScatterDims.WF S20000x3 S640000x1 S640000x3 [1] [0] [0] 1
  scatter_S20000x128_S640000x1_S640000x128_1_0_0_1_wf : ScatterDims.WF S20000x128 S640000x1 S640000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5120x128.size a ≤ S640000x128.size a
  hwx0_0 : ∀ i : grid0.Coords, EltTy.bits .bf16 = 32 ∨ (Rect.block (s := S640000x128) S5120x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5120x128.size a ≤ S640000x128.size a
  hwx0_1 : ∀ i : grid0.Coords, EltTy.bits .bf16 = 32 ∨ (Rect.block (s := S640000x128) S5120x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5120x3.size a ≤ S640000x3.size a
  hwx0_2 : ∀ i : grid0.Coords, EltTy.bits .f32 = 32 ∨ (Rect.block (s := S640000x3) S5120x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5120x16.size a ≤ S640000x16.size a
  hwx0_3 : ∀ i : grid0.Coords, EltTy.bits .f32 = 32 ∨ (Rect.block (s := S640000x16) S5120x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x128.size a ≤ S16x128.size a
  hwx0_7 : ∀ i : grid0.Coords, EltTy.bits .f32 = 32 ∨ (Rect.block (s := S16x128) S16x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x1.size a ≤ S128x1.size a
  hwx0_13 : ∀ i : grid0.Coords, EltTy.bits .f32 = 32 ∨ (Rect.block (s := S128x1) S128x1.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1.size a ≤ S1x1.size a
  hwx0_14 : ∀ i : grid0.Coords, EltTy.bits .f32 = 32 ∨ (Rect.block (s := S1x1) S1x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S5120x128.size a ≤ S640000x128.size a
  hwx0_15 : ∀ i : grid0.Coords, EltTy.bits .bf16 = 32 ∨ (Rect.block (s := S640000x128) S5120x128.size (cc0_transform_15 i) (hinb0_15 i)).WholeWords (EltTy.packing .bf16)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S5120x3.size a ≤ S640000x3.size a
  hwx0_16 : ∀ i : grid0.Coords, EltTy.bits .f32 = 32 ∨ (Rect.block (s := S640000x3) S5120x3.size (cc0_transform_16 i) (hinb0_16 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S20000x128.size a
  hwx1_1 : ∀ i : grid1.Coords, EltTy.bits .f32 = 32 ∨ (Rect.block (s := S20000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x3.size a ≤ S20000x3.size a
  hwx1_2 : ∀ i : grid1.Coords, EltTy.bits .f32 = 32 ∨ (Rect.block (s := S20000x3) S2000x3.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x3.size a ≤ S20000x3.size a
  hwx1_3 : ∀ i : grid1.Coords, EltTy.bits .f32 = 32 ∨ (Rect.block (s := S20000x3) S2000x3.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S20000x1.size a
  hwx1_4 : ∀ i : grid1.Coords, EltTy.bits .f32 = 32 ∨ (Rect.block (s := S20000x1) S2000x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x128.size a ≤ S20000x128.size a
  hwx1_10 : ∀ i : grid1.Coords, EltTy.bits .f32 = 32 ∨ (Rect.block (s := S20000x128) S2000x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x3.size a ≤ S20000x3.size a
  hwx1_11 : ∀ i : grid1.Coords, EltTy.bits .f32 = 32 ∨ (Rect.block (s := S20000x3) S2000x3.size (cc1_transform_11 i) (hinb1_11 i)).WholeWords (EltTy.packing .f32)

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def gather_S20000x3_S640000x1_S640000x3_1_0_n_n_0_1_13 : GatherDims S20000x3 S640000x1 S640000x3 where
  offsetDims := [1]
  collapsedSliceDims := [0]
  operandBatchingDims := []
  startIndicesBatchingDims := []
  startIndexMap := [0]
  indexVectorDim := 1
  sliceSizes := ![1, 3]
  wf := gather_S20000x3_S640000x1_S640000x3_1_0_n_n_0_1_13_wf
def dot_S5120x128_S128x128_S5120x128_1_0_0_1_n_n : DotDims S5120x128 S128x128 S5120x128 where
  lhsContracting := [1]
  rhsContracting := [0]
  lhsNonContracting := [0]
  rhsNonContracting := [1]
  lhsBatch := []
  rhsBatch := []
  wf := dot_S5120x128_S128x128_S5120x128_1_0_0_1_n_n_wf
def dot_S5120x16_S16x128_S5120x128_1_0_0_1_n_n : DotDims S5120x16 S16x128 S5120x128 where
  lhsContracting := [1]
  rhsContracting := [0]
  lhsNonContracting := [0]
  rhsNonContracting := [1]
  lhsBatch := []
  rhsBatch := []
  wf := dot_S5120x16_S16x128_S5120x128_1_0_0_1_n_n_wf
def dot_S5120x128_S128x1_S5120x1_1_0_0_1_n_n : DotDims S5120x128 S128x1 S5120x1 where
  lhsContracting := [1]
  rhsContracting := [0]
  lhsNonContracting := [0]
  rhsNonContracting := [1]
  lhsBatch := []
  rhsBatch := []
  wf := dot_S5120x128_S128x1_S5120x1_1_0_0_1_n_n_wf
def scatter_S20000x3_S640000x1_S640000x3_1_0_0_1 : ScatterDims S20000x3 S640000x1 S640000x3 where
  updateWindowDims := [1]
  insertedWindowDims := [0]
  scatterDimsToOperandDims := [0]
  indexVectorDim := 1
  wf := scatter_S20000x3_S640000x1_S640000x3_1_0_0_1_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v11) S5120x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5120x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5120x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S5120x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v34) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v37) S16x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v38) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v39) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v40) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg11) S128x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v41) S1x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v42_0) S5120x128.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v42_1) S5120x3.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S2000x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S2000x3.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v52) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v53) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v54) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v55) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg15) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v56) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v57_0) S2000x128.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v57_1) S2000x3.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S20000x128 : Shape := ⟨2, ![20000, 128]⟩
abbrev S20000x3 : Shape := ⟨2, ![20000, 3]⟩
abbrev S2x640000 : Shape := ⟨2, ![2, 640000]⟩
abbrev S640000x16 : Shape := ⟨2, ![640000, 16]⟩
abbrev S20000 : Shape := ⟨1, ![20000]⟩
abbrev S273x128 : Shape := ⟨2, ![273, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x3 : Shape := ⟨2, ![640000, 3]⟩
abbrev S640000x128 : Shape := ⟨2, ![640000, 128]⟩
abbrev S640000x273 : Shape := ⟨2, ![640000, 273]⟩
abbrev S1x128 : Shape := ⟨2, ![1, 128]⟩
abbrev S1x1 : Shape := ⟨2, ![1, 1]⟩
abbrev S20000x1 : Shape := ⟨2, ![20000, 1]⟩
abbrev S20000x256 : Shape := ⟨2, ![20000, 256]⟩

abbrev nBuf : Space → Nat
  | .hbm => 145
  | .vmem => 0
  | .smem => 0
  | _ => 0

abbrev hbmTy0_0 (i : Nat) : BufTy := match i % 128 with
  | 0 => ⟨S20000x128, .f32⟩
  | 1 => ⟨S20000x3, .f32⟩
  | 2 => ⟨S2x640000, .i32⟩
  | 3 => ⟨S640000x16, .f32⟩
  | 4 => ⟨S20000, .i1⟩
  | 5 => ⟨S273x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x1, .f32⟩
  | 12 => ⟨S1, .f32⟩
  | 13 => ⟨S256x128, .f32⟩
  | 14 => ⟨S128, .f32⟩
  | 15 => ⟨S128x128, .f32⟩
  | 16 => ⟨S128, .f32⟩
  | 17 => ⟨S1x640000, .i32⟩
  | 18 => ⟨S640000, .i32⟩
  | 19 => ⟨S1x640000, .i32⟩
  | 20 => ⟨S640000, .i32⟩
  | 21 => ⟨S_, .i32⟩
  | 22 => ⟨S640000, .i32⟩
  | 23 => ⟨S640000, .i1⟩
  | 24 => ⟨S_, .i32⟩
  | 25 => ⟨S640000, .i32⟩
  | 26 => ⟨S640000, .i32⟩
  | 27 => ⟨S640000, .i32⟩
  | 28 => ⟨S640000x1, .i32⟩
  | 29 => ⟨S640000x3, .f32⟩
  | 30 => ⟨S_, .i32⟩
  | 31 => ⟨S640000, .i32⟩
  | 32 => ⟨S640000, .i1⟩
  | 33 => ⟨S_, .i32⟩
  | 34 => ⟨S640000, .i32⟩
  | 35 => ⟨S640000, .i32⟩
  | 36 => ⟨S640000, .i32⟩
  | 37 => ⟨S640000x1, .i32⟩
  | 38 => ⟨S640000x3, .f32⟩
  | 39 => ⟨S640000x3, .f32⟩
  | 40 => ⟨S640000x3, .f32⟩
  | 41 => ⟨S_, .f32⟩
  | 42 => ⟨S640000, .f32⟩
  | 43 => ⟨S640000x1, .f32⟩
  | 44 => ⟨S_, .f32⟩
  | 45 => ⟨S640000x1, .f32⟩
  | 46 => ⟨S640000x1, .f32⟩
  | 47 => ⟨S_, .i32⟩
  | 48 => ⟨S640000, .i32⟩
  | 49 => ⟨S640000, .i1⟩
  | 50 => ⟨S_, .i32⟩
  | 51 => ⟨S640000, .i32⟩
  | 52 => ⟨S640000, .i32⟩
  | 53 => ⟨S640000, .i32⟩
  | 54 => ⟨S640000x1, .i32⟩
  | 55 => ⟨S640000x128, .f32⟩
  | 56 => ⟨S_, .i32⟩
  | 57 => ⟨S640000, .i32⟩
  | 58 => ⟨S640000, .i1⟩
  | 59 => ⟨S_, .i32⟩
  | 60 => ⟨S640000, .i32⟩
  | 61 => ⟨S640000, .i32⟩
  | 62 => ⟨S640000, .i32⟩
  | 63 => ⟨S640000x1, .i32⟩
  | 64 => ⟨S640000x128, .f32⟩
  | 65 => ⟨S640000x273, .f32⟩
  | 66 => ⟨S640000x128, .f32⟩
  | 67 => ⟨S1x128, .f32⟩
  | 68 => ⟨S640000x128, .f32⟩
  | 69 => ⟨S640000x128, .f32⟩
  | 70 => ⟨S640000x128, .f32⟩
  | 71 => ⟨S640000x128, .f32⟩
  | 72 => ⟨S_, .f32⟩
  | 73 => ⟨S640000x128, .f32⟩
  | 74 => ⟨S640000x128, .f32⟩
  | 75 => ⟨S_, .f32⟩
  | 76 => ⟨S640000x128, .f32⟩
  | 77 => ⟨S640000x128, .f32⟩
  | 78 => ⟨S640000x128, .f32⟩
  | 79 => ⟨S640000x128, .f32⟩
  | 80 => ⟨S1x128, .f32⟩
  | 81 => ⟨S640000x128, .f32⟩
  | 82 => ⟨S640000x128, .f32⟩
  | 83 => ⟨S640000x128, .f32⟩
  | 84 => ⟨S640000x128, .f32⟩
  | 85 => ⟨S_, .f32⟩
  | 86 => ⟨S640000x128, .f32⟩
  | 87 => ⟨S640000x128, .f32⟩
  | 88 => ⟨S_, .f32⟩
  | 89 => ⟨S640000x128, .f32⟩
  | 90 => ⟨S640000x128, .f32⟩
  | 91 => ⟨S640000x128, .f32⟩
  | 92 => ⟨S640000x128, .f32⟩
  | 93 => ⟨S1x128, .f32⟩
  | 94 => ⟨S640000x128, .f32⟩
  | 95 => ⟨S640000x128, .f32⟩
  | 96 => ⟨S640000x128, .f32⟩
  | 97 => ⟨S640000x128, .f32⟩
  | 98 => ⟨S_, .f32⟩
  | 99 => ⟨S640000x128, .f32⟩
  | 100 => ⟨S640000x128, .f32⟩
  | 101 => ⟨S_, .f32⟩
  | 102 => ⟨S640000x128, .f32⟩
  | 103 => ⟨S640000x128, .f32⟩
  | 104 => ⟨S640000x128, .f32⟩
  | 105 => ⟨S640000x1, .f32⟩
  | 106 => ⟨S1x1, .f32⟩
  | 107 => ⟨S640000x1, .f32⟩
  | 108 => ⟨S640000x1, .f32⟩
  | 109 => ⟨S640000x1, .f32⟩
  | 110 => ⟨S640000x3, .f32⟩
  | 111 => ⟨S640000x3, .f32⟩
  | 112 => ⟨S_, .f32⟩
  | 113 => ⟨S20000x3, .f32⟩
  | 114 => ⟨S640000x1, .i32⟩
  | 115 => ⟨S20000x3, .f32⟩
  | 116 => ⟨S20000, .i1⟩
  | 117 => ⟨S20000, .f32⟩
  | 118 => ⟨S20000x1, .f32⟩
  | 119 => ⟨S20000x3, .f32⟩
  | 120 => ⟨S20000x3, .f32⟩
  | 121 => ⟨S_, .f32⟩
  | 122 => ⟨S20000x128, .f32⟩
  | 123 => ⟨S640000x1, .i32⟩
  | 124 => ⟨S20000x128, .f32⟩
  | 125 => ⟨S20000x256, .f32⟩
  | 126 => ⟨S20000x128, .f32⟩
  | 127 => ⟨S1x128, .f32⟩
  | _ => ⟨S20000x128, .f32⟩

abbrev hbmTy0_1 (i : Nat) : BufTy := match i % 128 with
  | 0 => ⟨S20000x128, .f32⟩
  | 1 => ⟨S20000x128, .f32⟩
  | 2 => ⟨S20000x128, .f32⟩
  | 3 => ⟨S20000x128, .f32⟩
  | 4 => ⟨S_, .f32⟩
  | 5 => ⟨S20000x128, .f32⟩
  | 6 => ⟨S20000x128, .f32⟩
  | 7 => ⟨S_, .f32⟩
  | 8 => ⟨S20000x128, .f32⟩
  | 9 => ⟨S20000x128, .f32⟩
  | 10 => ⟨S20000x128, .f32⟩
  | 11 => ⟨S20000x128, .f32⟩
  | 12 => ⟨S20000x128, .f32⟩
  | 13 => ⟨S1x128, .f32⟩
  | 14 => ⟨S20000x128, .f32⟩
  | 15 => ⟨S20000x128, .f32⟩
  | 16 => ⟨S20000x3, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_c_4 : Ref sig .tc := ⟨.hbm, 47, rfl⟩
abbrev main_v24 : Ref sig .tc := ⟨.hbm, 48, rfl⟩
abbrev main_v25 : Ref sig .tc := ⟨.hbm, 49, rfl⟩
abbrev main_c_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_call0_v0 : Ref sig .tc := ⟨.hbm, 70, rfl⟩
abbrev main_call0_v1 : Ref sig .tc := ⟨.hbm, 71, rfl⟩
abbrev main_call0_cst : Ref sig .tc := ⟨.hbm, 72, rfl⟩
abbrev main_call0_v2 : Ref sig .tc := ⟨.hbm, 73, rfl⟩
abbrev main_call0_v3 : Ref sig .tc := ⟨.hbm, 74, rfl⟩
abbrev main_call0_cst_0 : Ref sig .tc := ⟨.hbm, 75, rfl⟩
abbrev main_call0_v4 : Ref sig .tc := ⟨.hbm, 76, rfl⟩
abbrev main_call0_v5 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_call1_v0 : Ref sig .tc := ⟨.hbm, 83, rfl⟩
abbrev main_call1_v1 : Ref sig .tc := ⟨.hbm, 84, rfl⟩
abbrev main_call1_cst : Ref sig .tc := ⟨.hbm, 85, rfl⟩
abbrev main_call1_v2 : Ref sig .tc := ⟨.hbm, 86, rfl⟩
abbrev main_call1_v3 : Ref sig .tc := ⟨.hbm, 87, rfl⟩
abbrev main_call1_cst_0 : Ref sig .tc := ⟨.hbm, 88, rfl⟩
abbrev main_call1_v4 : Ref sig .tc := ⟨.hbm, 89, rfl⟩
abbrev main_call1_v5 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_call2_v0 : Ref sig .tc := ⟨.hbm, 96, rfl⟩
abbrev main_call2_v1 : Ref sig .tc := ⟨.hbm, 97, rfl⟩
abbrev main_call2_cst : Ref sig .tc := ⟨.hbm, 98, rfl⟩
abbrev main_call2_v2 : Ref sig .tc := ⟨.hbm, 99, rfl⟩
abbrev main_call2_v3 : Ref sig .tc := ⟨.hbm, 100, rfl⟩
abbrev main_call2_cst_0 : Ref sig .tc := ⟨.hbm, 101, rfl⟩
abbrev main_call2_v4 : Ref sig .tc := ⟨.hbm, 102, rfl⟩
abbrev main_call2_v5 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_cst_8 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_cst_9 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_call3_v0 : Ref sig .tc := ⟨.hbm, 130, rfl⟩
abbrev main_call3_v1 : Ref sig .tc := ⟨.hbm, 131, rfl⟩
abbrev main_call3_cst : Ref sig .tc := ⟨.hbm, 132, rfl⟩
abbrev main_call3_v2 : Ref sig .tc := ⟨.hbm, 133, rfl⟩
abbrev main_call3_v3 : Ref sig .tc := ⟨.hbm, 134, rfl⟩
abbrev main_call3_cst_0 : Ref sig .tc := ⟨.hbm, 135, rfl⟩
abbrev main_call3_v4 : Ref sig .tc := ⟨.hbm, 136, rfl⟩
abbrev main_call3_v5 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  reducesTo_S640000x3_S640000_d1 : S640000x3.ReducesTo [1] S640000
  h_S_ : 0 < S_.numel
  bcast_S_S640000x1 : S_.BroadcastsInDim S640000x1 (![] : Fin 0 → Fin S640000x1.rank)
  concatenates_S640000x128_S640000x128_S640000x1_S640000x16_S640000x273_d1 : Shape.Concatenates [S640000x128, S640000x128, S640000x1, S640000x16] S640000x273 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  bcast_S640000x1_S640000x3_0_1 : S640000x1.BroadcastsInDim S640000x3 (![0, 1] : Fin 2 → Fin S640000x3.rank)
  bcast_S_S20000x3 : S_.BroadcastsInDim S20000x3 (![] : Fin 0 → Fin S20000x3.rank)
  bcast_S20000_S20000x1_0 : S20000.BroadcastsInDim S20000x1 (![0] : Fin 1 → Fin S20000x1.rank)
  bcast_S20000x1_S20000x3_0_1 : S20000x1.BroadcastsInDim S20000x3 (![0, 1] : Fin 2 → Fin S20000x3.rank)
  bcast_S_S20000x128 : S_.BroadcastsInDim S20000x128 (![] : Fin 0 → Fin S20000x128.rank)
  concatenates_S20000x128_S20000x128_S20000x256_d1 : Shape.Concatenates [S20000x128, S20000x128] S20000x256 1
  bcast_S1x128_S20000x128_0_1 : S1x128.BroadcastsInDim S20000x128 (![0, 1] : Fin 2 → Fin S20000x128.rank)
  gather_S20000x3_S640000x1_S640000x3_1_0_n_n_0_1_13_wf : GatherDims.WF S20000x3 S640000x1 S640000x3 [1] [0] [] [0] [] 1 ![1, 3]
  gather_S20000x128_S640000x1_S640000x128_1_0_n_n_0_1_1128_wf : GatherDims.WF S20000x128 S640000x1 S640000x128 [1] [0] [] [0] [] 1 ![1, 128]
  dot_S640000x273_S273x128_S640000x128_1_0_0_1_n_n_wf : DotDims.WF S640000x273 S273x128 S640000x128 [1] [0] [0] [1] [] []
  dot_S640000x128_S128x128_S640000x128_1_0_0_1_n_n_wf : DotDims.WF S640000x128 S128x128 S640000x128 [1] [0] [0] [1] [] []
  dot_S640000x128_S128x1_S640000x1_1_0_0_1_n_n_wf : DotDims.WF S640000x128 S128x1 S640000x1 [1] [0] [0] [1] [] []
  scatter_S20000x3_S640000x1_S640000x3_1_0_0_1_wf : ScatterDims.WF S20000x3 S640000x1 S640000x3 [1] [0] [0] 1
  scatter_S20000x128_S640000x1_S640000x128_1_0_0_1_wf : ScatterDims.WF S20000x128 S640000x1 S640000x128 [1] [0] [0] 1
  dot_S20000x256_S256x128_S20000x128_1_0_0_1_n_n_wf : DotDims.WF S20000x256 S256x128 S20000x128 [1] [0] [0] [1] [] []
  dot_S20000x128_S128x128_S20000x128_1_0_0_1_n_n_wf : DotDims.WF S20000x128 S128x128 S20000x128 [1] [0] [0] [1] [] []

variable [Facts₀]

def gather_S20000x3_S640000x1_S640000x3_1_0_n_n_0_1_13 : GatherDims S20000x3 S640000x1 S640000x3 where
  offsetDims := [1]
  collapsedSliceDims := [0]
  operandBatchingDims := []
  startIndicesBatchingDims := []
  startIndexMap := [0]
  indexVectorDim := 1
  sliceSizes := ![1, 3]
  wf := gather_S20000x3_S640000x1_S640000x3_1_0_n_n_0_1_13_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S640000x273_S273x128_S640000x128_1_0_0_1_n_n : DotDims S640000x273 S273x128 S640000x128 where
  lhsContracting := [1]
  rhsContracting := [0]
  lhsNonContracting := [0]
  rhsNonContracting := [1]
  lhsBatch := []
  rhsBatch := []
  wf := dot_S640000x273_S273x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S640000x128_S128x1_S640000x1_1_0_0_1_n_n : DotDims S640000x128 S128x1 S640000x1 where
  lhsContracting := [1]
  rhsContracting := [0]
  lhsNonContracting := [0]
  rhsNonContracting := [1]
  lhsBatch := []
  rhsBatch := []
  wf := dot_S640000x128_S128x1_S640000x1_1_0_0_1_n_n_wf
def scatter_S20000x3_S640000x1_S640000x3_1_0_0_1 : ScatterDims S20000x3 S640000x1 S640000x3 where
  updateWindowDims := [1]
  insertedWindowDims := [0]
  scatterDimsToOperandDims := [0]
  indexVectorDim := 1
  wf := scatter_S20000x3_S640000x1_S640000x3_1_0_0_1_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf

class Facts : Prop extends Facts₀ where

variable [Facts]
-- ==== Proof.KernelRun.lean ====
/-
  The run of the idealized kernel program, with its two results named.

  The program is two launches of a kernel among two stretches of host operations. Its buffer contents at the four
  boundaries are a fold from the launch memory: `W1` after the first stretch, `W2` after the first launch (that
  launch's arrays at what its write-backs leave, every other buffer as entered), `W3` after the second stretch, `W4`
  after the second launch. Every weakly fair execution terminates without a fault, and the final memory agrees with
  `W4` on every unscoped buffer. Read at the seventeen argument buffers, that is the frame: no stretch and no launch
  writes an argument, so the fold walks back to the launch memory. Read at the two result buffers, it names the results:
  they are `W4` at those buffers, which is what the second launch's write-backs leave in its two output arrays.
-/
import proofs.«169153_j82772609728932_2_alg».proof.Proof.Gen.KernelIdeal.Frame

set_option maxRecDepth 16384

noncomputable section

namespace Cert.KernelIdeal.HostSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first result buffer is the second launch's output array 10: after the launch it holds what the write-backs of
    that window leave. -/
theorem W4_out0 (c : Dev nD) :
    W4 m ρ c (Proc.devRef .tc main_v57_0) = (dat1 (V3 m ρ) c).arrAt 10 cfg1.N :=
  W4_arr m ρ c 10

/-- The second result buffer is the second launch's output array 11. -/
theorem W4_out1 (c : Dev nD) :
    W4 m ρ c (Proc.devRef .tc main_v57_1) = (dat1 (V3 m ρ) c).arrAt 11 cfg1.N :=
  W4_arr m ρ c 11

-- the launch theorem's implicit arguments are found by unifying its conclusion with this one, which takes unfolding
-- plain definitions in a metavariable's type
set_option backward.isDefEq.respectTransparency.types false in
/-- Every weakly fair execution of the program from a memory with zero counters terminates, nothing faulting; the two
    result buffers end at the last boundary's contents `W4`, and the seventeen argument buffers end as launched. The
    final memory agrees with `W4` on every unscoped buffer; the results are read off at their own buffers, the
    arguments through the fold back to the launch memory. -/
theorem run_named : θ_run defs (onTc (τ := τ) (main (F := F))) ⟨m, fun _ => 0, ρ⟩ (fun r => ∀ c : Dev nD,
      r.2.mem ((c.tc : Thread nD τ).loc main_v57_0) = W4 m ρ c (Proc.devRef .tc main_v57_0)
      ∧ r.2.mem ((c.tc : Thread nD τ).loc main_v57_1) = W4 m ρ c (Proc.devRef .tc main_v57_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c (Proc.devRef .tc main_v57_0) (mem_uc main_v57_0 (by decide)),
       h c (Proc.devRef .tc main_v57_1) (mem_uc main_v57_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c)⟩)

end Cert.KernelIdeal.HostSide

end
-- ==== Proof.Spec.lean ====
/-
  The mathematics of one message-passing layer, over the extended reals.

  Per edge, from the two gathered feature rows `hs hd : Fin 128 → EReal`, the coordinate difference `d : Fin 3 → EReal`
  and the edge attributes `ea : Fin 16 → EReal`:
    the normalised squared distance  dn = (∑ c, d c * d c) · (1/100);
    the first layer, its 273-term contraction grouped as source rows, target rows, attribute rows and the one distance
    row:  s1 j = (((∑ hs·w1s + ∑ hd·w1d) + ∑ ea·w1a) + dn · w1n j) + b1 j;
    the message  m j = silu (∑ k, silu (s1 k) · w2 k j + b2 j);
    the coordinate weight  cw = tanh (∑ k, silu (∑ k', m k' · wx1 k' k + bx1 k) · wx2 k + bx2);
    the coordinate term  ct c = d c · cw.
  Per node, from its feature row `h`, its aggregated message row `msg` and the two halves of the first node weight:
    nh j = h j + (∑ k, silu ((∑ h·wa + ∑ msg·wb) + b1 k) · w2 k j + b2 j),   nx = x + cagg · mask.
  `silu x = x · logistic x`, and `logistic x` is by definition `1 / (1 + e^(-x))`, so the spelled-out quotient is the
  same term. Two laws about finite sums regroup a contraction over a concatenated axis into the contractions over its
  pieces: a sum over 273 = 128 + 128 + 1 + 16 indices, and a sum over 256 = 128 + 128 indices. They use only that
  addition of extended reals is commutative and associative, so no finiteness is needed anywhere.
-/
import Idealize.ShloMosaic.PureOps.Ideal

noncomputable section

open scoped BigOperators

namespace Cert.Egnn

open Idealize.ShloMosaic

/-! ## Constants -/

/-- The pattern of `1.0` denotes `1`. -/
theorem ofBits_one : Ideal.ofBits .f32 0x3F800000#32 = 1 := by
  simp [Ideal.ofBits, Ideal.ieee, -EReal.coe_mul]; norm_num

/-- The pattern of `100.0` denotes the real `100`. -/
theorem ofBits_100 : Ideal.ofBits .f32 0x42C80000#32 = ((100 : ℝ) : EReal) := by
  simp [Ideal.ofBits, Ideal.ieee, -EReal.coe_mul]; norm_num

/-- The pattern of `+0.0` denotes `0`. -/
theorem ofBits_zero : Ideal.ofBits .f32 0x00000000#32 = 0 := by
  simp [Ideal.ofBits, Ideal.ieee]

/-- A quotient by `100` is the product with `1/100`, on every extended real. -/
theorem div_100 (x : EReal) : Ideal.div x ((100 : ℝ) : EReal) = x * ((1 / 100 : ℝ) : EReal) :=
  Ideal.div_coe (by norm_num) x

/-! ## The activation -/

/-- `silu x = x · logistic x`. -/
def silu (x : EReal) : EReal := x * Ideal.logistic x

/-- The quotient form `x · (1 / (1 + e^(-x)))` is `silu x`: `logistic` is that quotient by definition. -/
theorem silu_quot (x : EReal) : x * Ideal.div 1 (1 + Ideal.exp (-x)) = silu x := rfl

/-! ## One edge -/

section Edge

variable (hs hd : Fin 128 → EReal) (d : Fin 3 → EReal) (ea : Fin 16 → EReal)
  (w1s w1d : Fin 128 → Fin 128 → EReal) (w1n : Fin 128 → EReal) (w1a : Fin 16 → Fin 128 → EReal) (b1 : Fin 128 → EReal)
  (w2 : Fin 128 → Fin 128 → EReal) (b2 : Fin 128 → EReal)
  (wx1 : Fin 128 → Fin 128 → EReal) (bx1 : Fin 128 → EReal) (wx2 : Fin 128 → EReal) (bx2 : EReal)

/-- The squared length of the coordinate difference, over `100`. -/
def dn : EReal := (∑ c : Fin 3, d c * d c) * ((1 / 100 : ℝ) : EReal)

/-- The first edge layer before its activation. -/
def s1 (j : Fin 128) : EReal :=
  ((((∑ k : Fin 128, hs k * w1s k j) + ∑ k : Fin 128, hd k * w1d k j) + ∑ k : Fin 16, ea k * w1a k j)
    + dn d * w1n j) + b1 j

/-- The message of the edge. -/
def m (j : Fin 128) : EReal :=
  silu ((∑ k : Fin 128, silu (s1 hs hd d ea w1s w1d w1n w1a b1 k) * w2 k j) + b2 j)

/-- The coordinate weight of the edge. -/
def cw : EReal :=
  Ideal.tanh ((∑ k : Fin 128,
      silu ((∑ k' : Fin 128, m hs hd d ea w1s w1d w1n w1a b1 w2 b2 k' * wx1 k' k) + bx1 k) * wx2 k) + bx2)

/-- The coordinate term of the edge. -/
def ct (c : Fin 3) : EReal := d c * cw hs hd d ea w1s w1d w1n w1a b1 w2 b2 wx1 bx1 wx2 bx2

end Edge

/-! ## One node -/

/-- The new feature row of a node. -/
def nh (h msg : Fin 128 → EReal) (wa wb : Fin 128 → Fin 128 → EReal) (b1 : Fin 128 → EReal)
    (w2 : Fin 128 → Fin 128 → EReal) (b2 : Fin 128 → EReal) (j : Fin 128) : EReal :=
  h j + ((∑ k : Fin 128,
      silu (((∑ k' : Fin 128, h k' * wa k' k) + ∑ k' : Fin 128, msg k' * wb k' k) + b1 k) * w2 k j) + b2 j)

/-- The new coordinate of a node: the old one plus the aggregated term where the node is free. -/
def nx (x cagg mk : EReal) : EReal := x + cagg * mk

/-! ## Rows of a concatenated axis -/

/-- Row `k` of the first 128 of 273. -/
abbrev r0 (k : Fin 128) : Fin 273 := ⟨k.val, by omega⟩
/-- Row `128 + k` of 273. -/
abbrev r1 (k : Fin 128) : Fin 273 := ⟨128 + k.val, by omega⟩
/-- Row `256` of 273. -/
abbrev r2 : Fin 273 := ⟨256, by omega⟩
/-- Row `257 + k` of 273. -/
abbrev r3 (k : Fin 16) : Fin 273 := ⟨257 + k.val, by omega⟩
/-- Row `k` of the first 128 of 256. -/
abbrev q0 (k : Fin 128) : Fin 256 := ⟨k.val, by omega⟩
/-- Row `128 + k` of 256. -/
abbrev q1 (k : Fin 128) : Fin 256 := ⟨128 + k.val, by omega⟩

/-- A sum over `a + b` indices is the sum over the first `a` plus the sum over the last `b`, the indices written by
    their values. -/
theorem sum_split {M : Type} [AddCommMonoid M] (a b n : Nat) (hn : a + b = n) (f : Fin n → M) :
    ∑ k : Fin n, f k
      = (∑ k : Fin a, f ⟨k.val, by omega⟩) + ∑ k : Fin b, f ⟨a + k.val, by omega⟩ := by
  subst hn
  rw [Fin.sum_univ_add]
  rfl

/-- A sum over 256 indices, as the two halves. -/
theorem sum_split256 (f : Fin 256 → EReal) :
    ∑ k : Fin 256, f k = (∑ k : Fin 128, f (q0 k)) + ∑ k : Fin 128, f (q1 k) :=
  sum_split 128 128 256 rfl f

/-- A sum over 273 indices, as 128 + 128 + 1 + 16. -/
theorem sum_split273 (f : Fin 273 → EReal) :
    ∑ k : Fin 273, f k
      = (((∑ k : Fin 128, f (r0 k)) + ∑ k : Fin 128, f (r1 k)) + f r2) + ∑ k : Fin 16, f (r3 k) := by
  rw [sum_split 256 17 273 rfl f, sum_split 128 128 256 rfl, sum_split 1 16 17 rfl, Fin.sum_univ_one, ← add_assoc]
  rfl

/-- The grouping "sources, targets, the distance row, attributes" of a 273-term contraction is the grouping
    "sources, targets, attributes, the distance row". -/
theorem regroup (A B D C b : EReal) : (((A + B) + D) + C) + b = (((A + B) + C) + D) + b := by
  rw [add_right_comm (A + B) D C]

end Cert.Egnn

end
-- ==== Proof.LibRowOps.lean ====
/-
  General lemmas about matrices of extended reals read entry by entry: a product of two matrices accumulated into zero, with
  the second operand contracted along its second axis (rows against rows) or along its first (the plain product), is the
  finite sum of the entries' products; a vector kept as a column (a unit second axis) and spread over the columns of a
  matrix reads its own row; and the sum, or the maximum, along the rows of a matrix is the finite sum, or the fold of max,
  over that row's entries.
-/
import Idealize.ShloMosaic.Lib.ValueLayout
import Idealize.ShloMosaic.PureOps.Ideal.Laws

noncomputable section
namespace Cert.KernelIdeal.Pay
open Idealize.ShloMosaic Idealize.ShloMosaic.ValueIdx

/-! ## A product of two matrices read at an entry -/

section Rows
variable (M K N : Nat)

/-- Contracting the second axis of both operands: the left index keeps the output's row on axis 0. -/
theorem rows_lhs0 (y : (⟨2, ![M, N]⟩ : Shape).Idx) (q : (DotDims.transposedRhs M K N).contr.Idx) :
    ((DotDims.transposedRhs M K N).lhsIdx y q 0).val = (y 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl
/-- … and the right index keeps the output's column on axis 0. -/
theorem rows_rhs0 (y : (⟨2, ![M, N]⟩ : Shape).Idx) (q : (DotDims.transposedRhs M K N).contr.Idx) :
    ((DotDims.transposedRhs M K N).rhsIdx y q 0).val = (y 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- `A` (M x K) against `B` (N x K), both contracted along their second axis, accumulated into zero: entry `(i, j)` is
    the dot product of row `i` of `A` and row `j` of `B`. -/
theorem matmul_rows_apply {φ₁ φ₂ : FTy} (prec : Option ContractPrecision)
    (A : FVec Ideal ⟨2, ![M, K]⟩ φ₁) (B : FVec Ideal ⟨2, ![N, K]⟩ φ₂) (i : Fin M) (j : Fin N) :
    matmul (DotDims.transposedRhs M K N) prec A B (constant ⟨2, ![M, N]⟩ .f32 0x00000000#32) (ix2 i j)
      = ∑ e : Fin K, A (ix2 i e) * B (ix2 j e) := by
  show FloatOps.matmul _ _ _ _ _ _ = _
  rw [Ideal.matmul_constant_zero_apply, ← Equiv.sum_comp (contrEquiv1 (DotDims.transposedRhs M K N) K rfl rfl).symm]
  refine Finset.sum_congr rfl fun e _ => ?_
  have he := contrEquiv1_symm_val (DotDims.transposedRhs M K N) K rfl rfl e
  have el : (DotDims.transposedRhs M K N).lhsIdx (ix2 i j) ((contrEquiv1 (DotDims.transposedRhs M K N) K rfl rfl).symm e) = ix2 i e :=
    funext fun a => Fin.ext (by
      match a with
      | ⟨0, _⟩ => exact rows_lhs0 M K N _ _
      | ⟨1, _⟩ => exact ((DotDims.transposedRhs M K N).lhsIdx_val_of_single rfl _ _).trans he)
  have er : (DotDims.transposedRhs M K N).rhsIdx (ix2 i j) ((contrEquiv1 (DotDims.transposedRhs M K N) K rfl rfl).symm e) = ix2 j e :=
    funext fun a => Fin.ext (by
      match a with
      | ⟨0, _⟩ => exact rows_rhs0 M K N _ _
      | ⟨1, _⟩ => exact ((DotDims.transposedRhs M K N).rhsIdx_val_of_single rfl _ _).trans he)
  rw [el, er]

end Rows

section Plain
variable (M K N : Nat)

/-- The plain product: the left index keeps the output's row on axis 0. -/
theorem plain_lhs0 (y : (⟨2, ![M, N]⟩ : Shape).Idx) (q : (DotDims.plain M K N).contr.Idx) :
    ((DotDims.plain M K N).lhsIdx y q 0).val = (y 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
/-- … and the right index keeps the output's column on axis 1. -/
theorem plain_rhs1 (y : (⟨2, ![M, N]⟩ : Shape).Idx) (q : (DotDims.plain M K N).contr.Idx) :
    ((DotDims.plain M K N).rhsIdx y q 1).val = (y 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- `A` (M x K) against `B` (K x N), the plain product accumulated into zero: entry `(i, j)` is the dot product of row
    `i` of `A` and column `j` of `B`. -/
theorem matmul_plain_apply {φ₁ φ₂ : FTy} (prec : Option ContractPrecision)
    (A : FVec Ideal ⟨2, ![M, K]⟩ φ₁) (B : FVec Ideal ⟨2, ![K, N]⟩ φ₂) (i : Fin M) (j : Fin N) :
    matmul (DotDims.plain M K N) prec A B (constant ⟨2, ![M, N]⟩ .f32 0x00000000#32) (ix2 i j)
      = ∑ e : Fin K, A (ix2 i e) * B (ix2 e j) := by
  show FloatOps.matmul _ _ _ _ _ _ = _
  rw [Ideal.matmul_constant_zero_apply, ← Equiv.sum_comp (contrEquiv1 (DotDims.plain M K N) K rfl rfl).symm]
  refine Finset.sum_congr rfl fun e _ => ?_
  have he := contrEquiv1_symm_val (DotDims.plain M K N) K rfl rfl e
  have el : (DotDims.plain M K N).lhsIdx (ix2 i j) ((contrEquiv1 (DotDims.plain M K N) K rfl rfl).symm e) = ix2 i e :=
    funext fun a => Fin.ext (by
      match a with
      | ⟨0, _⟩ => exact plain_lhs0 M K N _ _
      | ⟨1, _⟩ => exact ((DotDims.plain M K N).lhsIdx_val_of_single rfl _ _).trans he)
  have er : (DotDims.plain M K N).rhsIdx (ix2 i j) ((contrEquiv1 (DotDims.plain M K N) K rfl rfl).symm e) = ix2 e j :=
    funext fun a => Fin.ext (by
      match a with
      | ⟨0, _⟩ => exact ((DotDims.plain M K N).rhsIdx_val_of_single rfl _ _).trans he
      | ⟨1, _⟩ => exact plain_rhs1 M K N _ _)
  rw [el, er]

end Plain

/-! ## A column kept as a unit axis -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row statistic kept as a column and spread over `b` columns reads, at `(p, c)`, the statistic of row `p`. -/
theorem keepdims_apply {α : Type} {a b : ℕ} (x : (⟨1, ![a]⟩ : Shape).Idx → α)
    (h : (⟨1, ![a]⟩ : Shape).ShapeCasts ⟨2, ![a, 1]⟩) (h' : (⟨2, ![a, 1]⟩ : Shape).Broadcasts ⟨2, ![a, b]⟩)
    (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-! ## A reduction along the rows of a matrix -/

/-- The source index over row `p` with column `k` inserted. -/
theorem lift_row {a b : ℕ} (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- The sum along axis 1 of an `[a, b]` array, at row `p`, is the sum of that row's `b` entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  show ∑ k : Fin b, src (h.lift (ix1 p) k) = _
  exact Finset.sum_congr rfl fun k _ => congrArg src (lift_row h p k)

/-- The maximum along axis 1 of an `[a, b]` array, at row `p`, is the fold of `max` from the accumulator's value over
    that row's `b` entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  show (Finset.univ : Finset (Fin b)).fold max (Ideal.ofBits φ acc) (fun k => src (h.lift (ix1 p) k)) = _
  exact congrArg (fun f => (Finset.univ : Finset (Fin b)).fold max (Ideal.ofBits φ acc) f) (funext fun k => congrArg src (lift_row h p k))

end Cert.KernelIdeal.Pay
end
-- ==== Proof.EdgePay.lean ====
/-
  The edge kernel's arithmetic read at one element, over the extended reals.

  The body's three stored or carried values — the first layer before its bias, the message, the coordinate term — are
  matrix products into zero, row broadcasts, one lane sum and pointwise operations of the loaded blocks. Read at the
  element `(p, j)` of a block of 5120 edges they are the specification's functions of row `p` of each per-edge block and
  of the whole weight blocks: a product into zero is the finite sum of the entries' products, a change of float format is
  the identity, the named constant is the rational `1/100`, `x · logistic x` is `silu x`.
-/
import proofs.«169153_j82772609728932_2_alg».proof.Proof.Gen.KernelIdeal.Skeleton
import proofs.«169153_j82772609728932_2_alg».proof.Proof.Spec
import proofs.«169153_j82772609728932_2_alg».proof.Proof.LibRowOps
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

open scoped BigOperators

namespace Cert.KernelIdeal.EdgePay

open Cert.KernelIdeal Cert.KernelIdeal.Gen Idealize.ShloMosaic Idealize.ShloMosaic.ValueIdx Cert.KernelIdeal.Pay

/-- The kernel's named reciprocal denotes the rational `1/100`. -/
theorem inv_100 : Named.named (F := Ideal) Cert.KernelIdeal.κ "inv_100" (φ := .f32) 0x3C23D70A#32 = ((1 / 100 : ℝ) : EReal) :=
  IdealRules.named_const.ideal_named_scalar _ _ _ _ rfl

/-! ## The matrix products of the body, at an entry -/

theorem mm_128_128 (A : FVec Ideal S5120x128 .bf16) (B : FVec Ideal S128x128 .bf16) (p : Fin 5120) (j : Fin 128) :
    matmul (F := Ideal) dot_S5120x128_S128x128_S5120x128_1_0_0_1_n_n none A B (constant S5120x128 .f32 0x00000000#32) (ix2 p j)
      = ∑ k : Fin 128, A (ix2 p k) * B (ix2 k j) :=
  matmul_plain_apply 5120 128 128 none A B p j

theorem mm_16_128 (A : FVec Ideal S5120x16 .bf16) (B : FVec Ideal S16x128 .bf16) (p : Fin 5120) (j : Fin 128) :
    matmul (F := Ideal) dot_S5120x16_S16x128_S5120x128_1_0_0_1_n_n none A B (constant S5120x128 .f32 0x00000000#32) (ix2 p j)
      = ∑ k : Fin 16, A (ix2 p k) * B (ix2 k j) :=
  matmul_plain_apply 5120 16 128 none A B p j

theorem mm_128_1 (A : FVec Ideal S5120x128 .bf16) (B : FVec Ideal S128x1 .bf16) (p : Fin 5120) (u : Fin 1) :
    matmul (F := Ideal) dot_S5120x128_S128x1_S5120x1_1_0_0_1_n_n none A B (constant S5120x1 .f32 0x00000000#32) (ix2 p u)
      = ∑ k : Fin 128, A (ix2 p k) * B (ix2 k u) :=
  matmul_plain_apply 5120 128 1 none A B p u

/-! ## The first layer before its bias -/

/-- The squared length of row `p` of the difference block, times the named `1/100`, spread over the lanes. -/
theorem dist_apply (v4 : Vec Ideal S5120x3 .f32) (p : Fin 5120) (j : Fin 128) :
    broadcastTo S5120x128
        (mulf (shapeCast S5120x1
            (multiReduction (F := Ideal) .add [1] S5120 (mulf v4 v4) 0x00000000#32 reduces_S5120x3_S5120 (.inl rfl) rfl)
            shapeCasts_S5120_S5120x1)
          (broadcast S5120x1 (Named.named (F := Ideal) κ "inv_100" (φ := .f32) 0x3C23D70A#32)))
        broadcasts_S5120x1_S5120x128 (ix2 p j)
      = (∑ c : Fin 3, v4 (ix2 p c) * v4 (ix2 p c)) * ((1 / 100 : ℝ) : EReal) := by
  refine (broadcastTo_a1_ab_apply _ broadcasts_S5120x1_S5120x128 p j).trans ?_
  show shapeCast S5120x1 _ shapeCasts_S5120_S5120x1 (ix2 p (0 : Fin 1)) * Named.named (F := Ideal) κ "inv_100" (φ := .f32) 0x3C23D70A#32 = _
  rw [inv_100]
  refine congrArg (· * ((1 / 100 : ℝ) : EReal)) ?_
  refine (shapeCast_a_a1_apply _ shapeCasts_S5120_S5120x1 p 0).trans ?_
  exact rowSum_apply (mulf v4 v4) 0x00000000#32 reduces_S5120x3_S5120 (.inl rfl) rfl p

theorem pay5_apply (v0 v2 : Vec Ideal S5120x128 .bf16) (v4 : Vec Ideal S5120x3 .f32) (v6 : Vec Ideal S5120x16 .f32)
    (v12 v15 : Vec Ideal S128x128 .f32) (v18 : Vec Ideal S1x128 .f32) (v20 : Vec Ideal S16x128 .f32)
    (p : Fin 5120) (j : Fin 128) :
    k0_pay5 (F := Ideal) v0 v2 v4 v6 v12 v15 v18 v20 (ix2 p j)
      = (((∑ k : Fin 128, v0 (ix2 p k) * v12 (ix2 k j)) + ∑ k : Fin 128, v2 (ix2 p k) * v15 (ix2 k j))
          + ∑ k : Fin 16, v6 (ix2 p k) * v20 (ix2 k j))
        + ((∑ c : Fin 3, v4 (ix2 p c) * v4 (ix2 p c)) * ((1 / 100 : ℝ) : EReal)) * v18 (ix2 (0 : Fin 1) j) := by
  unfold k0_pay5 k0_pay4
  simp only [shapeCast_self]
  show ((_ + _) + _) + _ * _ = _
  refine congrArg₂ (· + ·) (congrArg₂ (· + ·) (congrArg₂ (· + ·) ?_ ?_) ?_) (congrArg₂ (· * ·) ?_ ?_)
  · exact mm_128_128 _ _ p j
  · exact mm_128_128 _ _ p j
  · exact mm_16_128 _ _ p j
  · exact dist_apply v4 p j
  · exact broadcastTo_1b_ab_apply _ broadcasts_S1x128_S5120x128 p j

/-- The first bias, spread over the 5120 rows. -/
theorem pay6_apply (v23 : Vec Ideal S1x128 .f32) (p : Fin 5120) (j : Fin 128) :
    k0_pay6 (F := Ideal) v23 (ix2 p j) = v23 (ix2 (0 : Fin 1) j) := by
  unfold k0_pay6
  simp only [shapeCast_self]
  exact broadcastTo_1b_ab_apply _ broadcasts_S1x128_S5120x128 p j

/-! ## The message -/

theorem pay1_apply (v34 v35 : FVec Ideal S5120x128 .f32) (v40 : Vec Ideal S128x128 .f32) (v42 : Vec Ideal S1x128 .f32)
    (p : Fin 5120) (j : Fin 128) :
    k0_pay1 (F := Ideal) v34 v35 v40 v42 (ix2 p j)
      = Cert.Egnn.silu ((∑ k : Fin 128, Cert.Egnn.silu (v34 (ix2 p k) + v35 (ix2 p k)) * v40 (ix2 k j))
          + v42 (ix2 (0 : Fin 1) j)) := by
  unfold k0_pay1
  simp only [shapeCast_self]
  show Cert.Egnn.silu (_ + _) = _
  refine congrArg Cert.Egnn.silu (congrArg₂ (· + ·) ?_ ?_)
  · exact mm_128_128 _ _ p j
  · exact broadcastTo_1b_ab_apply _ broadcasts_S1x128_S5120x128 p j

/-! ## The coordinate term -/

theorem pay3_apply (v5 : FVec Ideal S5120x3 .f32) (v34 v35 : FVec Ideal S5120x128 .f32) (v40 : Vec Ideal S128x128 .f32)
    (v42 : Vec Ideal S1x128 .f32) (v52 : Vec Ideal S128x128 .f32) (v54 : Vec Ideal S1x128 .f32)
    (v62 : Vec Ideal S128x1 .f32) (v64 : Vec Ideal S1x1 .f32) (p : Fin 5120) (c : Fin 3) :
    k0_pay3 (F := Ideal) v5 v34 v35 v40 v42 v52 v54 v62 v64 (ix2 p c)
      = v5 (ix2 p c) * Ideal.tanh ((∑ k : Fin 128,
          Cert.Egnn.silu ((∑ k' : Fin 128, k0_pay1 (F := Ideal) v34 v35 v40 v42 (ix2 p k') * v52 (ix2 k' k))
            + v54 (ix2 (0 : Fin 1) k)) * v62 (ix2 k (0 : Fin 1))) + v64 (ix2 (0 : Fin 1) (0 : Fin 1))) := by
  unfold k0_pay3
  simp only [shapeCast_self]
  show _ * _ = _
  refine congrArg (v5 (ix2 p c) * ·) ?_
  refine (broadcastTo_a1_ab_apply _ broadcasts_S5120x1_S5120x3 p c).trans ?_
  show Ideal.tanh (_ + _) = _
  refine congrArg Ideal.tanh (congrArg₂ (· + ·) ?_ ?_)
  · refine (mm_128_1 _ _ p 0).trans ?_
    refine Finset.sum_congr rfl fun k _ => ?_
    show Cert.Egnn.silu (_ + _) * _ = _
    refine congrArg (· * v62 (ix2 k (0 : Fin 1))) (congrArg Cert.Egnn.silu (congrArg₂ (· + ·) ?_ ?_))
    · exact mm_128_128 _ _ p k
    · exact broadcastTo_1b_ab_apply _ broadcasts_S1x128_S5120x128 p k
  · exact broadcastTo_1b_ab_apply _ broadcasts_S1x1_S5120x1 p 0

/-! ## A block of 5120 edges, in the specification's words -/

section Block

variable (x0 x1 : Vec Ideal S5120x128 .bf16) (x2 : Vec Ideal S5120x3 .f32) (x3 : Vec Ideal S5120x16 .f32)
  (x4 x5 : Vec Ideal S128x128 .f32) (x6 : Vec Ideal S1x128 .f32) (x7 : Vec Ideal S16x128 .f32) (x8 : Vec Ideal S1x128 .f32)
  (x9 : Vec Ideal S128x128 .f32) (x10 : Vec Ideal S1x128 .f32) (x11 : Vec Ideal S128x128 .f32) (x12 : Vec Ideal S1x128 .f32)
  (x13 : Vec Ideal S128x1 .f32) (x14 : Vec Ideal S1x1 .f32)

/-- The first layer of row `p`, bias included. -/
theorem s1_block (p : Fin 5120) (k : Fin 128) :
    k0_pay5 (F := Ideal) x0 x1 x2 x3 x4 x5 x6 x7 (ix2 p k) + k0_pay6 (F := Ideal) x8 (ix2 p k)
      = Cert.Egnn.s1 (fun k => x0 (ix2 p k)) (fun k => x1 (ix2 p k)) (fun c => x2 (ix2 p c)) (fun k => x3 (ix2 p k))
          (fun k j => x4 (ix2 k j)) (fun k j => x5 (ix2 k j)) (fun j => x6 (ix2 (0 : Fin 1) j)) (fun k j => x7 (ix2 k j))
          (fun j => x8 (ix2 (0 : Fin 1) j)) k := by
  rw [pay5_apply, pay6_apply]
  rfl

/-- The stored message block at `(p, j)` is the specification's message of row `p`. -/
theorem m_block (p : Fin 5120) (j : Fin 128) :
    k0_pay1 (F := Ideal) (k0_pay5 x0 x1 x2 x3 x4 x5 x6 x7) (k0_pay6 x8) x9 x10 (ix2 p j)
      = Cert.Egnn.m (fun k => x0 (ix2 p k)) (fun k => x1 (ix2 p k)) (fun c => x2 (ix2 p c)) (fun k => x3 (ix2 p k))
          (fun k j => x4 (ix2 k j)) (fun k j => x5 (ix2 k j)) (fun j => x6 (ix2 (0 : Fin 1) j)) (fun k j => x7 (ix2 k j))
          (fun j => x8 (ix2 (0 : Fin 1) j)) (fun k j => x9 (ix2 k j)) (fun j => x10 (ix2 (0 : Fin 1) j)) j := by
  rw [pay1_apply]
  unfold Cert.Egnn.m
  refine congrArg Cert.Egnn.silu (congrArg (· + x10 (ix2 (0 : Fin 1) j)) (Finset.sum_congr rfl fun k _ => ?_))
  exact congrArg (fun z => Cert.Egnn.silu z * x9 (ix2 k j)) (s1_block x0 x1 x2 x3 x4 x5 x6 x7 x8 p k)

/-- The same through the change of format the store applies. -/
theorem m_block_stored (p : Fin 5120) (j : Fin 128) :
    k0_pay2 (F := Ideal) (k0_pay5 x0 x1 x2 x3 x4 x5 x6 x7) (k0_pay6 x8) x9 x10 (ix2 p j)
      = Cert.Egnn.m (fun k => x0 (ix2 p k)) (fun k => x1 (ix2 p k)) (fun c => x2 (ix2 p c)) (fun k => x3 (ix2 p k))
          (fun k j => x4 (ix2 k j)) (fun k j => x5 (ix2 k j)) (fun j => x6 (ix2 (0 : Fin 1) j)) (fun k j => x7 (ix2 k j))
          (fun j => x8 (ix2 (0 : Fin 1) j)) (fun k j => x9 (ix2 k j)) (fun j => x10 (ix2 (0 : Fin 1) j)) j :=
  m_block x0 x1 x2 x3 x4 x5 x6 x7 x8 x9 x10 p j

/-- The stored coordinate-term block at `(p, c)` is the specification's coordinate term of row `p`. -/
theorem ct_block (p : Fin 5120) (c : Fin 3) :
    k0_pay3 (F := Ideal) (k0_pay4 x2) (k0_pay5 x0 x1 x2 x3 x4 x5 x6 x7) (k0_pay6 x8) x9 x10 x11 x12 x13 x14 (ix2 p c)
      = Cert.Egnn.ct (fun k => x0 (ix2 p k)) (fun k => x1 (ix2 p k)) (fun c => x2 (ix2 p c)) (fun k => x3 (ix2 p k))
          (fun k j => x4 (ix2 k j)) (fun k j => x5 (ix2 k j)) (fun j => x6 (ix2 (0 : Fin 1) j)) (fun k j => x7 (ix2 k j))
          (fun j => x8 (ix2 (0 : Fin 1) j)) (fun k j => x9 (ix2 k j)) (fun j => x10 (ix2 (0 : Fin 1) j))
          (fun k j => x11 (ix2 k j)) (fun j => x12 (ix2 (0 : Fin 1) j)) (fun k => x13 (ix2 k (0 : Fin 1)))
          (x14 (ix2 (0 : Fin 1) (0 : Fin 1))) c := by
  rw [pay3_apply]
  unfold Cert.Egnn.ct Cert.Egnn.cw
  have h4 : k0_pay4 (F := Ideal) x2 (ix2 p c) = x2 (ix2 p c) := by
    unfold k0_pay4; simp only [shapeCast_self]
  rw [h4]
  refine congrArg (x2 (ix2 p c) * ·) (congrArg Ideal.tanh (congrArg (· + x14 (ix2 (0 : Fin 1) (0 : Fin 1)))
    (Finset.sum_congr rfl fun k _ => ?_)))
  refine congrArg (fun z => Cert.Egnn.silu z * x13 (ix2 k (0 : Fin 1))) (congrArg (· + x12 (ix2 (0 : Fin 1) k))
    (Finset.sum_congr rfl fun k' _ => ?_))
  exact congrArg (· * x11 (ix2 k' k)) (m_block x0 x1 x2 x3 x4 x5 x6 x7 x8 x9 x10 p k')

end Block

end Cert.KernelIdeal.EdgePay

end
-- ==== Proof.EdgeValue.lean ====
/-
  The edge kernel's two result arrays, as whole-array functions of the arrays the region is entered with.

  The grid has 125 points; point `t` reads rows `5120·t … 5120·t + 5119` of the four per-edge arrays (gathered source and
  target features, coordinate differences, edge attributes) and the whole of the eleven weight and bias arrays, and writes
  back rows `5120·t …` of the message array and of the coordinate-term array. Row `e` of a per-edge array lies in block
  `e / 5120`, so the 125 blocks cover the 640000 edges, and entry `(e, j)` of the message array is the specification's
  message of the `e`-th rows; likewise the coordinate term.
-/
import proofs.«169153_j82772609728932_2_alg».proof.Proof.Gen.KernelIdeal.Frame
import proofs.«169153_j82772609728932_2_alg».proof.Proof.EdgePay
import Idealize.ShloMosaic.Lib.Pipeline.Value
import Idealize.ShloMosaic.Lib.Tactic

noncomputable section

open scoped BigOperators

namespace Cert.KernelIdeal.EdgeValue

open Cert.KernelIdeal Cert.KernelIdeal.Gen Idealize.ShloMosaic Idealize.ShloMosaic.TcCoe Idealize.SL.Sem
open Idealize.ShloMosaic.ValueIdx Cert.KernelIdeal.EdgePay
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The row of a rank-2 index, as a number below the first extent. -/
def rowOf {a b : Nat} (i : (⟨2, ![a, b]⟩ : Shape).Idx) : Fin a := ⟨(i 0).val, idx2_lt0 i⟩
/-- The column of a rank-2 index, as a number below the second extent. -/
def colOf {a b : Nat} (i : (⟨2, ![a, b]⟩ : Shape).Idx) : Fin b := ⟨(i 1).val, idx2_lt1 i⟩

/-! ## The index maps over the grid -/

/-- The per-edge windows (inputs 0–3, outputs 15 and 16) sit at block `(t, 0)` at point `t`. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_15.index t (0 : Fin 2) = t.val ∧ win0_15.index t (1 : Fin 2) = 0)
    ∧ (win0_16.index t (0 : Fin 2) = t.val ∧ win0_16.index t (1 : Fin 2) = 0) :=
  (by decide +kernel : ∀ t : Fin grid0.N, _)

/-- The weight and bias windows (inputs 4–14) sit at block `(0, 0)` at every point. -/
theorem idx_whole : ∀ t : Fin cfg0.N,
    (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0) :=
  (by decide +kernel : ∀ t : Fin grid0.N, _)

/-! ## Each input window's block, read off its array -/

theorem blk0_apply (c : Dev nD) (t : Fin cfg0.N) (x : S5120x128.Idx) (k : S640000x128.Idx)
    (hk0 : (k 0).val = 5120 * t.val + (x 0).val) (hk1 : (k 1).val = (x 1).val) :
    (iblk0 V c 0 t : Vec Ideal S5120x128 .bf16) x = (V c main_v11 : S640000x128.Idx → EReal) k := by
  have h := (idx_rows t).1
  unfold iblk0
  rw [View.read_apply]
  show V c main_v11 _ = V c main_v11 _
  refine congrArg (V c main_v11) (funext fun a => Fin.ext ?_)
  match a with
  | ⟨0, _⟩ => show win0_0.index t 0 * 5120 + 1 * (x 0).val = (k 0).val; rw [h.1, hk0]; omega
  | ⟨1, _⟩ => show win0_0.index t 1 * 128 + 1 * (x 1).val = (k 1).val; rw [h.2, hk1]; omega

theorem blk1_apply (c : Dev nD) (t : Fin cfg0.N) (x : S5120x128.Idx) (k : S640000x128.Idx)
    (hk0 : (k 0).val = 5120 * t.val + (x 0).val) (hk1 : (k 1).val = (x 1).val) :
    (iblk0 V c 1 t : Vec Ideal S5120x128 .bf16) x = (V c main_v18 : S640000x128.Idx → EReal) k := by
  have h := (idx_rows t).2.1
  unfold iblk0
  rw [View.read_apply]
  show V c main_v18 _ = V c main_v18 _
  refine congrArg (V c main_v18) (funext fun a => Fin.ext ?_)
  match a with
  | ⟨0, _⟩ => show win0_1.index t 0 * 5120 + 1 * (x 0).val = (k 0).val; rw [h.1, hk0]; omega
  | ⟨1, _⟩ => show win0_1.index t 1 * 128 + 1 * (x 1).val = (k 1).val; rw [h.2, hk1]; omega

theorem blk2_apply (c : Dev nD) (t : Fin cfg0.N) (x : S5120x3.Idx) (k : S640000x3.Idx)
    (hk0 : (k 0).val = 5120 * t.val + (x 0).val) (hk1 : (k 1).val = (x 1).val) :
    (iblk0 V c 2 t : Vec Ideal S5120x3 .f32) x = (V c main_v33 : S640000x3.Idx → EReal) k := by
  have h := (idx_rows t).2.2.1
  unfold iblk0
  rw [View.read_apply]
  show V c main_v33 _ = V c main_v33 _
  refine congrArg (V c main_v33) (funext fun a => Fin.ext ?_)
  match a with
  | ⟨0, _⟩ => show win0_2.index t 0 * 5120 + 1 * (x 0).val = (k 0).val; rw [h.1, hk0]; omega
  | ⟨1, _⟩ => show win0_2.index t 1 * 3 + 1 * (x 1).val = (k 1).val; rw [h.2, hk1]; omega

theorem blk3_apply (c : Dev nD) (t : Fin cfg0.N) (x : S5120x16.Idx) (k : S640000x16.Idx)
    (hk0 : (k 0).val = 5120 * t.val + (x 0).val) (hk1 : (k 1).val = (x 1).val) :
    (iblk0 V c 3 t : Vec Ideal S5120x16 .f32) x = (V c main_arg3 : S640000x16.Idx → EReal) k := by
  have h := (idx_rows t).2.2.2.1
  unfold iblk0
  rw [View.read_apply]
  show V c main_arg3 _ = V c main_arg3 _
  refine congrArg (V c main_arg3) (funext fun a => Fin.ext ?_)
  match a with
  | ⟨0, _⟩ => show win0_3.index t 0 * 5120 + 1 * (x 0).val = (k 0).val; rw [h.1, hk0]; omega
  | ⟨1, _⟩ => show win0_3.index t 1 * 16 + 1 * (x 1).val = (k 1).val; rw [h.2, hk1]; omega

theorem blk4_apply (c : Dev nD) (t : Fin cfg0.N) (x : S128x128.Idx) :
    (iblk0 V c 4 t : Vec Ideal S128x128 .f32) x = (V c main_v34 : S128x128.Idx → EReal) x := by
  have h := (idx_whole t).1
  unfold iblk0
  rw [View.read_apply]
  show V c main_v34 _ = V c main_v34 _
  refine congrArg (V c main_v34) (funext fun a => Fin.ext ?_)
  match a with
  | ⟨0, _⟩ => show win0_4.index t 0 * 128 + 1 * (x 0).val = (x 0).val; rw [h.1]; omega
  | ⟨1, _⟩ => show win0_4.index t 1 * 128 + 1 * (x 1).val = (x 1).val; rw [h.2]; omega

theorem blk5_apply (c : Dev nD) (t : Fin cfg0.N) (x : S128x128.Idx) :
    (iblk0 V c 5 t : Vec Ideal S128x128 .f32) x = (V c main_v35 : S128x128.Idx → EReal) x := by
  have h := (idx_whole t).2.1
  unfold iblk0
  rw [View.read_apply]
  show V c main_v35 _ = V c main_v35 _
  refine congrArg (V c main_v35) (funext fun a => Fin.ext ?_)
  match a with
  | ⟨0, _⟩ => show win0_5.index t 0 * 128 + 1 * (x 0).val = (x 0).val; rw [h.1]; omega
  | ⟨1, _⟩ => show win0_5.index t 1 * 128 + 1 * (x 1).val = (x 1).val; rw [h.2]; omega

theorem blk6_apply (c : Dev nD) (t : Fin cfg0.N) (x : S1x128.Idx) :
    (iblk0 V c 6 t : Vec Ideal S1x128 .f32) x = (V c main_v36 : S1x128.Idx → EReal) x := by
  have h := (idx_whole t).2.2.1
  unfold iblk0
  rw [View.read_apply]
  show V c main_v36 _ = V c main_v36 _
  refine congrArg (V c main_v36) (funext fun a => Fin.ext ?_)
  match a with
  | ⟨0, _⟩ => show win0_6.index t 0 * 1 + 1 * (x 0).val = (x 0).val; rw [h.1]; omega
  | ⟨1, _⟩ => show win0_6.index t 1 * 128 + 1 * (x 1).val = (x 1).val; rw [h.2]; omega

theorem blk7_apply (c : Dev nD) (t : Fin cfg0.N) (x : S16x128.Idx) :
    (iblk0 V c 7 t : Vec Ideal S16x128 .f32) x = (V c main_v37 : S16x128.Idx → EReal) x := by
  have h := (idx_whole t).2.2.2.1
  unfold iblk0
  rw [View.read_apply]
  show V c main_v37 _ = V c main_v37 _
  refine congrArg (V c main_v37) (funext fun a => Fin.ext ?_)
  match a with
  | ⟨0, _⟩ => show win0_7.index t 0 * 16 + 1 * (x 0).val = (x 0).val; rw [h.1]; omega
  | ⟨1, _⟩ => show win0_7.index t 1 * 128 + 1 * (x 1).val = (x 1).val; rw [h.2]; omega

theorem blk8_apply (c : Dev nD) (t : Fin cfg0.N) (x : S1x128.Idx) :
    (iblk0 V c 8 t : Vec Ideal S1x128 .f32) x = (V c main_v38 : S1x128.Idx → EReal) x := by
  have h := (idx_whole t).2.2.2.2.1
  unfold iblk0
  rw [View.read_apply]
  show V c main_v38 _ = V c main_v38 _
  refine congrArg (V c main_v38) (funext fun a => Fin.ext ?_)
  match a with
  | ⟨0, _⟩ => show win0_8.index t 0 * 1 + 1 * (x 0).val = (x 0).val; rw [h.1]; omega
  | ⟨1, _⟩ => show win0_8.index t 1 * 128 + 1 * (x 1).val = (x 1).val; rw [h.2]; omega

theorem blk9_apply (c : Dev nD) (t : Fin cfg0.N) (x : S128x128.Idx) :
    (iblk0 V c 9 t : Vec Ideal S128x128 .f32) x = (V c main_arg7 : S128x128.Idx → EReal) x := by
  have h := (idx_whole t).2.2.2.2.2.1
  unfold iblk0
  rw [View.read_apply]
  show V c main_arg7 _ = V c main_arg7 _
  refine congrArg (V c main_arg7) (funext fun a => Fin.ext ?_)
  match a with
  | ⟨0, _⟩ => show win0_9.index t 0 * 128 + 1 * (x 0).val = (x 0).val; rw [h.1]; omega
  | ⟨1, _⟩ => show win0_9.index t 1 * 128 + 1 * (x 1).val = (x 1).val; rw [h.2]; omega

theorem blk10_apply (c : Dev nD) (t : Fin cfg0.N) (x : S1x128.Idx) :
    (iblk0 V c 10 t : Vec Ideal S1x128 .f32) x = (V c main_v39 : S1x128.Idx → EReal) x := by
  have h := (idx_whole t).2.2.2.2.2.2.1
  unfold iblk0
  rw [View.read_apply]
  show V c main_v39 _ = V c main_v39 _
  refine congrArg (V c main_v39) (funext fun a => Fin.ext ?_)
  match a with
  | ⟨0, _⟩ => show win0_10.index t 0 * 1 + 1 * (x 0).val = (x 0).val; rw [h.1]; omega
  | ⟨1, _⟩ => show win0_10.index t 1 * 128 + 1 * (x 1).val = (x 1).val; rw [h.2]; omega

theorem blk11_apply (c : Dev nD) (t : Fin cfg0.N) (x : S128x128.Idx) :
    (iblk0 V c 11 t : Vec Ideal S128x128 .f32) x = (V c main_arg9 : S128x128.Idx → EReal) x := by
  have h := (idx_whole t).2.2.2.2.2.2.2.1
  unfold iblk0
  rw [View.read_apply]
  show V c main_arg9 _ = V c main_arg9 _
  refine congrArg (V c main_arg9) (funext fun a => Fin.ext ?_)
  match a with
  | ⟨0, _⟩ => show win0_11.index t 0 * 128 + 1 * (x 0).val = (x 0).val; rw [h.1]; omega
  | ⟨1, _⟩ => show win0_11.index t 1 * 128 + 1 * (x 1).val = (x 1).val; rw [h.2]; omega

theorem blk12_apply (c : Dev nD) (t : Fin cfg0.N) (x : S1x128.Idx) :
    (iblk0 V c 12 t : Vec Ideal S1x128 .f32) x = (V c main_v40 : S1x128.Idx → EReal) x := by
  have h := (idx_whole t).2.2.2.2.2.2.2.2.1
  unfold iblk0
  rw [View.read_apply]
  show V c main_v40 _ = V c main_v40 _
  refine congrArg (V c main_v40) (funext fun a => Fin.ext ?_)
  match a with
  | ⟨0, _⟩ => show win0_12.index t 0 * 1 + 1 * (x 0).val = (x 0).val; rw [h.1]; omega
  | ⟨1, _⟩ => show win0_12.index t 1 * 128 + 1 * (x 1).val = (x 1).val; rw [h.2]; omega

theorem blk13_apply (c : Dev nD) (t : Fin cfg0.N) (x : S128x1.Idx) :
    (iblk0 V c 13 t : Vec Ideal S128x1 .f32) x = (V c main_arg11 : S128x1.Idx → EReal) x := by
  have h := (idx_whole t).2.2.2.2.2.2.2.2.2.1
  unfold iblk0
  rw [View.read_apply]
  show V c main_arg11 _ = V c main_arg11 _
  refine congrArg (V c main_arg11) (funext fun a => Fin.ext ?_)
  match a with
  | ⟨0, _⟩ => show win0_13.index t 0 * 128 + 1 * (x 0).val = (x 0).val; rw [h.1]; omega
  | ⟨1, _⟩ => show win0_13.index t 1 * 1 + 1 * (x 1).val = (x 1).val; rw [h.2]; omega

theorem blk14_apply (c : Dev nD) (t : Fin cfg0.N) (x : S1x1.Idx) :
    (iblk0 V c 14 t : Vec Ideal S1x1 .f32) x = (V c main_v41 : S1x1.Idx → EReal) x := by
  have h := (idx_whole t).2.2.2.2.2.2.2.2.2.2
  unfold iblk0
  rw [View.read_apply]
  show V c main_v41 _ = V c main_v41 _
  refine congrArg (V c main_v41) (funext fun a => Fin.ext ?_)
  match a with
  | ⟨0, _⟩ => show win0_14.index t 0 * 1 + 1 * (x 0).val = (x 0).val; rw [h.1]; omega
  | ⟨1, _⟩ => show win0_14.index t 1 * 1 + 1 * (x 1).val = (x 1).val; rw [h.2]; omega

/-! ## The two result arrays as whole-array functions -/

/-- The message array: entry `i` is the message of edge `row i` at lane `column i`. -/
def mArr (c : Dev nD) : S640000x128.Idx → EReal := fun i =>
  Cert.Egnn.m (fun k => (V c main_v11 : S640000x128.Idx → EReal) (ix2 (rowOf i) k))
    (fun k => (V c main_v18 : S640000x128.Idx → EReal) (ix2 (rowOf i) k))
    (fun d => (V c main_v33 : S640000x3.Idx → EReal) (ix2 (rowOf i) d))
    (fun k => (V c main_arg3 : S640000x16.Idx → EReal) (ix2 (rowOf i) k))
    (fun k j => (V c main_v34 : S128x128.Idx → EReal) (ix2 k j))
    (fun k j => (V c main_v35 : S128x128.Idx → EReal) (ix2 k j))
    (fun j => (V c main_v36 : S1x128.Idx → EReal) (ix2 (0 : Fin 1) j))
    (fun k j => (V c main_v37 : S16x128.Idx → EReal) (ix2 k j))
    (fun j => (V c main_v38 : S1x128.Idx → EReal) (ix2 (0 : Fin 1) j))
    (fun k j => (V c main_arg7 : S128x128.Idx → EReal) (ix2 k j))
    (fun j => (V c main_v39 : S1x128.Idx → EReal) (ix2 (0 : Fin 1) j))
    (colOf i)

/-- The coordinate-term array: entry `i` is the coordinate term of edge `row i` at coordinate `column i`. -/
def ctArr (c : Dev nD) : S640000x3.Idx → EReal := fun i =>
  Cert.Egnn.ct (fun k => (V c main_v11 : S640000x128.Idx → EReal) (ix2 (rowOf i) k))
    (fun k => (V c main_v18 : S640000x128.Idx → EReal) (ix2 (rowOf i) k))
    (fun d => (V c main_v33 : S640000x3.Idx → EReal) (ix2 (rowOf i) d))
    (fun k => (V c main_arg3 : S640000x16.Idx → EReal) (ix2 (rowOf i) k))
    (fun k j => (V c main_v34 : S128x128.Idx → EReal) (ix2 k j))
    (fun k j => (V c main_v35 : S128x128.Idx → EReal) (ix2 k j))
    (fun j => (V c main_v36 : S1x128.Idx → EReal) (ix2 (0 : Fin 1) j))
    (fun k j => (V c main_v37 : S16x128.Idx → EReal) (ix2 k j))
    (fun j => (V c main_v38 : S1x128.Idx → EReal) (ix2 (0 : Fin 1) j))
    (fun k j => (V c main_arg7 : S128x128.Idx → EReal) (ix2 k j))
    (fun j => (V c main_v39 : S1x128.Idx → EReal) (ix2 (0 : Fin 1) j))
    (fun k j => (V c main_arg9 : S128x128.Idx → EReal) (ix2 k j))
    (fun j => (V c main_v40 : S1x128.Idx → EReal) (ix2 (0 : Fin 1) j))
    (fun k => (V c main_arg11 : S128x1.Idx → EReal) (ix2 k (0 : Fin 1)))
    ((V c main_v41 : S1x1.Idx → EReal) (ix2 (0 : Fin 1) (0 : Fin 1)))
    (colOf i)

/-! ## One element of what a point writes back -/

/-- The rows of the per-edge blocks at point `t`, block row `p`, are the arrays' rows `e = 5120·t + p`; the weight and bias
    blocks are the whole arrays. -/
theorem rows_eq (c : Dev nD) (t : Fin cfg0.N) (p : Fin 5120) (e : Fin 640000) (he : e.val = 5120 * t.val + p.val) :
    ((fun k : Fin 128 => (iblk0 V c 0 t : Vec Ideal S5120x128 .bf16) (ix2 p k))
        = fun k => (V c main_v11 : S640000x128.Idx → EReal) (ix2 e k))
    ∧ ((fun k : Fin 128 => (iblk0 V c 1 t : Vec Ideal S5120x128 .bf16) (ix2 p k))
        = fun k => (V c main_v18 : S640000x128.Idx → EReal) (ix2 e k))
    ∧ ((fun d : Fin 3 => (iblk0 V c 2 t : Vec Ideal S5120x3 .f32) (ix2 p d))
        = fun d => (V c main_v33 : S640000x3.Idx → EReal) (ix2 e d))
    ∧ ((fun k : Fin 16 => (iblk0 V c 3 t : Vec Ideal S5120x16 .f32) (ix2 p k))
        = fun k => (V c main_arg3 : S640000x16.Idx → EReal) (ix2 e k)) :=
  ⟨funext fun k => blk0_apply V c t (ix2 p k) (ix2 e k) he rfl,
   funext fun k => blk1_apply V c t (ix2 p k) (ix2 e k) he rfl,
   funext fun d => blk2_apply V c t (ix2 p d) (ix2 e d) he rfl,
   funext fun k => blk3_apply V c t (ix2 p k) (ix2 e k) he rfl⟩

theorem m_point (c : Dev nD) (t : Fin cfg0.N) (x : S5120x128.Idx) (i : S640000x128.Idx)
    (hi0 : (i 0).val = 5120 * t.val + (x 0).val) (hi1 : (i 1).val = (x 1).val) :
    k0_pay2 (F := Ideal)
        (k0_pay5 (iblk0 V c 0 t) (iblk0 V c 1 t) (iblk0 V c 2 t) (iblk0 V c 3 t) (iblk0 V c 4 t) (iblk0 V c 5 t)
          (iblk0 V c 6 t) (iblk0 V c 7 t))
        (k0_pay6 (iblk0 V c 8 t)) (iblk0 V c 9 t) (iblk0 V c 10 t) x
      = mArr V c i := by
  obtain ⟨p, j, rfl⟩ : ∃ (p : Fin 5120) (j : Fin 128), x = ix2 p j := ⟨x 0, x 1, eq_ix2 x⟩
  obtain ⟨e, j', rfl⟩ : ∃ (e : Fin 640000) (j' : Fin 128), i = ix2 e j' := ⟨i 0, i 1, eq_ix2 i⟩
  obtain rfl : j' = j := Fin.ext hi1
  refine (m_block_stored (iblk0 V c 0 t) (iblk0 V c 1 t) (iblk0 V c 2 t) (iblk0 V c 3 t) (iblk0 V c 4 t)
    (iblk0 V c 5 t) (iblk0 V c 6 t) (iblk0 V c 7 t) (iblk0 V c 8 t) (iblk0 V c 9 t) (iblk0 V c 10 t) p j').trans ?_
  obtain ⟨e0, e1, e2, e3⟩ := rows_eq V c t p e hi0
  rw [e0, e1, e2, e3]
  simp only [blk4_apply, blk5_apply, blk6_apply, blk7_apply, blk8_apply, blk9_apply, blk10_apply]
  rfl

theorem ct_point (c : Dev nD) (t : Fin cfg0.N) (x : S5120x3.Idx) (i : S640000x3.Idx)
    (hi0 : (i 0).val = 5120 * t.val + (x 0).val) (hi1 : (i 1).val = (x 1).val) :
    k0_pay3 (F := Ideal) (k0_pay4 (iblk0 V c 2 t))
        (k0_pay5 (iblk0 V c 0 t) (iblk0 V c 1 t) (iblk0 V c 2 t) (iblk0 V c 3 t) (iblk0 V c 4 t) (iblk0 V c 5 t)
          (iblk0 V c 6 t) (iblk0 V c 7 t))
        (k0_pay6 (iblk0 V c 8 t)) (iblk0 V c 9 t) (iblk0 V c 10 t) (iblk0 V c 11 t) (iblk0 V c 12 t) (iblk0 V c 13 t)
        (iblk0 V c 14 t) x
      = ctArr V c i := by
  obtain ⟨p, d, rfl⟩ : ∃ (p : Fin 5120) (d : Fin 3), x = ix2 p d := ⟨x 0, x 1, eq_ix2 x⟩
  obtain ⟨e, d', rfl⟩ : ∃ (e : Fin 640000) (d' : Fin 3), i = ix2 e d' := ⟨i 0, i 1, eq_ix2 i⟩
  obtain rfl : d' = d := Fin.ext hi1
  refine (ct_block (iblk0 V c 0 t) (iblk0 V c 1 t) (iblk0 V c 2 t) (iblk0 V c 3 t) (iblk0 V c 4 t)
    (iblk0 V c 5 t) (iblk0 V c 6 t) (iblk0 V c 7 t) (iblk0 V c 8 t) (iblk0 V c 9 t) (iblk0 V c 10 t) (iblk0 V c 11 t)
    (iblk0 V c 12 t) (iblk0 V c 13 t) (iblk0 V c 14 t) p d').trans ?_
  obtain ⟨e0, e1, e2, e3⟩ := rows_eq V c t p e hi0
  rw [e0, e1, e2, e3]
  simp only [blk4_apply, blk5_apply, blk6_apply, blk7_apply, blk8_apply, blk9_apply, blk10_apply, blk11_apply,
    blk12_apply, blk13_apply, blk14_apply]
  rfl

/-! ## What a point writes back, and the cover -/

/-- Point `t` writes back block `t` of the message array. -/
theorem flushed15_eq (c : Dev nD) (t : Fin cfg0.N) :
    (dat0 (F := Ideal) V c).flushed 15 t = ((cfg0.win 15).blk t).view.read (Elt Ideal) (mArr V c) := by
  have h := (idx_rows t).2.2.2.2.1
  show (cfg0.win 15).cut (grid0.coords t) ((dat0 V c).after 15 t) = _
  rw [after0_15]
  unfold out0_15
  rw [View.canon_unit_zero hz]
  simp only [View.ld_unit_zero (S := S5120x128) hz, View.ld_unit_zero (S := S5120x3) hz,
    View.ld_unit_zero (S := S5120x16) hz, View.ld_unit_zero (S := S128x128) hz, View.ld_unit_zero (S := S1x128) hz,
    View.ld_unit_zero (S := S16x128) hz]
  funext y
  rw [View.read_apply]
  show _ = mArr V c (((cfg0.win 15).blk t).view.emb y)
  refine m_point V c t y (((cfg0.win 15).blk t).view.emb y) ?_ ?_
  · show win0_15.index t 0 * 5120 + 1 * (y 0).val = 5120 * t.val + (y 0).val
    rw [h.1]; omega
  · show win0_15.index t 1 * 128 + 1 * (y 1).val = (y 1).val
    rw [h.2]; omega

/-- Point `t` writes back block `t` of the coordinate-term array. -/
theorem flushed16_eq (c : Dev nD) (t : Fin cfg0.N) :
    (dat0 (F := Ideal) V c).flushed 16 t = ((cfg0.win 16).blk t).view.read (Elt Ideal) (ctArr V c) := by
  have h := (idx_rows t).2.2.2.2.2
  show (cfg0.win 16).cut (grid0.coords t) ((dat0 V c).after 16 t) = _
  rw [after0_16]
  unfold out0_16
  rw [View.canon_unit_zero hz]
  simp only [View.ld_unit_zero (S := S5120x128) hz, View.ld_unit_zero (S := S5120x3) hz,
    View.ld_unit_zero (S := S5120x16) hz, View.ld_unit_zero (S := S128x128) hz, View.ld_unit_zero (S := S1x128) hz,
    View.ld_unit_zero (S := S16x128) hz, View.ld_unit_zero (S := S128x1) hz, View.ld_unit_zero (S := S1x1) hz]
  funext y
  rw [View.read_apply]
  show _ = ctArr V c (((cfg0.win 16).blk t).view.emb y)
  refine ct_point V c t y (((cfg0.win 16).blk t).view.emb y) ?_ ?_
  · show win0_16.index t 0 * 5120 + 1 * (y 0).val = 5120 * t.val + (y 0).val
    rw [h.1]; omega
  · show win0_16.index t 1 * 3 + 1 * (y 1).val = (y 1).val
    rw [h.2]; omega

/-- Edge `e` lies in block `e / 5120`. -/
def blockOf (r : Nat) (hr : r < 640000) : Fin cfg0.N := ⟨r / 5120, by rw [show cfg0.N = 125 from N_0]; omega⟩

theorem cover15 (i : S640000x128.Idx) :
    ∃ t : Fin cfg0.N, (cfg0.win 15).flush t = true ∧ i ∈ ((cfg0.win 15).blk t).view.set := by
  have hi0 : (i 0).val < 640000 := (i 0).isLt
  have hi1 : (i 1).val < 128 := (i 1).isLt
  refine ⟨blockOf (i 0).val hi0, flush0_15 _, ?_⟩
  have h := (idx_rows (blockOf (i 0).val hi0)).2.2.2.2.1
  have hv : (blockOf (i 0).val hi0).val = (i 0).val / 5120 := rfl
  show i ∈ ((View.whole main_v42_0).slice (win0_15.rect (blockOf (i 0).val hi0))).set
  rw [View.set_slice_whole, Rect.mem_set_unit]
  intro a
  match a with
  | ⟨0, _⟩ =>
    show win0_15.index (blockOf (i 0).val hi0) 0 * 5120 ≤ (i 0).val
      ∧ (i 0).val < win0_15.index (blockOf (i 0).val hi0) 0 * 5120 + 5120
    rw [h.1, hv]; omega
  | ⟨1, _⟩ =>
    show win0_15.index (blockOf (i 0).val hi0) 1 * 128 ≤ (i 1).val
      ∧ (i 1).val < win0_15.index (blockOf (i 0).val hi0) 1 * 128 + 128
    rw [h.2]; omega

theorem cover16 (i : S640000x3.Idx) :
    ∃ t : Fin cfg0.N, (cfg0.win 16).flush t = true ∧ i ∈ ((cfg0.win 16).blk t).view.set := by
  have hi0 : (i 0).val < 640000 := (i 0).isLt
  have hi1 : (i 1).val < 3 := (i 1).isLt
  refine ⟨blockOf (i 0).val hi0, flush0_16 _, ?_⟩
  have h := (idx_rows (blockOf (i 0).val hi0)).2.2.2.2.2
  have hv : (blockOf (i 0).val hi0).val = (i 0).val / 5120 := rfl
  show i ∈ ((View.whole main_v42_1).slice (win0_16.rect (blockOf (i 0).val hi0))).set
  rw [View.set_slice_whole, Rect.mem_set_unit]
  intro a
  match a with
  | ⟨0, _⟩ =>
    show win0_16.index (blockOf (i 0).val hi0) 0 * 5120 ≤ (i 0).val
      ∧ (i 0).val < win0_16.index (blockOf (i 0).val hi0) 0 * 5120 + 5120
    rw [h.1, hv]; omega
  | ⟨1, _⟩ =>
    show win0_16.index (blockOf (i 0).val hi0) 1 * 3 ≤ (i 1).val
      ∧ (i 1).val < win0_16.index (blockOf (i 0).val hi0) 1 * 3 + 3
    rw [h.2]; omega

/-! ## The arrays after the region -/

/-- The message array after the region. -/
theorem final15 (c : Dev nD) : (dat0 (F := Ideal) V c).arrAt 15 cfg0.N = mArr V c :=
  (dat0 (F := Ideal) V c).arrAt_eq_of_cover 15 (mArr V c) (fun t _ => flushed15_eq V c t) (cover15)

/-- The coordinate-term array after the region. -/
theorem final16 (c : Dev nD) : (dat0 (F := Ideal) V c).arrAt 16 cfg0.N = ctArr V c :=
  (dat0 (F := Ideal) V c).arrAt_eq_of_cover 16 (ctArr V c) (fun t _ => flushed16_eq V c t) (cover16)

end Cert.KernelIdeal.EdgeValue

end
-- ==== Proof.HostSide0.lean ====
/-
  The host side of the idealized kernel program before its first launch: what the edge kernel's windows find in their
  arrays.

  The program runs a stretch of host operations and then launches the edge kernel. A launch stages each window's blocks
  out of the window's array as the launch finds it, so the contents of those arrays at entry are what the kernel's
  arithmetic is applied to. Here each of the fifteen input arrays is written as a pure term of the launch memory:

  * the two gathered feature arrays: the rows of the node features, rounded to the narrow format, at the edges' first and
    second endpoints; and the difference of the coordinates gathered at the first endpoints and at the second. The
    integer chain that turns an endpoint row of the edge list into start indices (take the row and flatten it; where a
    node number is negative add the node count 20000; lay the vector out as a column) and the gather itself are kept as
    the operations' own terms and are never opened: both programs apply the same chain to the same arguments;
  * four row ranges of the first edge weight, read at an entry: rows 0–127, rows 128–255, row 256 and rows 257–272 of
    its 273 rows;
  * four bias vectors viewed as one-row matrices, read at an entry;
  * four arguments the kernel reads directly, as launched.
-/
import proofs.«169153_j82772609728932_2_alg».proof.Proof.Gen.KernelIdeal.Frame
import proofs.«169153_j82772609728932_2_alg».proof.Proof.Spec
import Idealize.ShloMosaic.Lib.ValueIdx
import Idealize.ShloMosaic.Lib.Pipeline.Value

set_option maxRecDepth 16384

noncomputable section

namespace Cert.KernelIdeal.HostSide

open Idealize.ShloMosaic Idealize.ShloMosaic.TcCoe Idealize.ShloMosaic.ValueIdx
open Idealize.SL Idealize.SL.Sem
open Cert.KernelIdeal Cert.KernelIdeal.Gen
open Cert.Egnn (r0 r1 r2 r3)

/-- An array of shape `s` and element type `e`, at the exact instance. -/
local notation "A⟦" s ", " e "⟧" => BufTy.Contents (Elt Ideal) (⟨s, e⟩ : BufTy)

/-! ## Layout operations at an entry -/

namespace Entry0

/-- Rows `off, off + 1, …` of a matrix, read at an entry: row `k` of the slice is row `off + k` of the matrix. -/
theorem rows_apply {N R C off : Nat} (x : (⟨2, ![N, C]⟩ : Shape).Idx → EReal)
    (h : (⟨2, ![N, C]⟩ : Shape).Slices ![off, 0] ⟨2, ![R, C]⟩) (k : Fin R) (j : Fin C) (k' : Fin N)
    (hk : k'.val = off + k.val) :
    extractStridedSlice ⟨2, ![R, C]⟩ ![off, 0] x h (ix2 k j) = x (ix2 k' j) :=
  extractStridedSlice_apply _ _ _ (ix2 k j) (ix2 k' j) fun a => match a with
    | ⟨0, _⟩ => hk
    | ⟨1, _⟩ => (Nat.zero_add _).symm

/-- A vector viewed as a one-row matrix reads its own entries. -/
theorem row_apply {n : Nat} (x : (⟨1, ![n]⟩ : Shape).Idx → EReal)
    (h : (⟨1, ![n]⟩ : Shape).ShapeCasts ⟨2, ![1, n]⟩) (j : Fin n) :
    shapeCast ⟨2, ![1, n]⟩ x h (ix2 (0 : Fin 1) j) = x (ix1 j) := by
  refine shapeCast_apply _ _ (ix2 (0 : Fin 1) j) (ix1 j) ?_
  rw [Shape.rowMajor_val_one, Shape.rowMajor_val_two]
  show j.val = 0 * n + j.val
  omega

end Entry0

open Entry0

/-! ## The three gathered arrays, as the operations' own terms -/

/-- The node features, rounded to the narrow format, gathered at the edges' first endpoints. -/
def hsK (x0 : A⟦S20000x128, .f32⟧) (x2 : A⟦S2x640000, .i32⟧) : A⟦S640000x128, .bf16⟧ :=
  Host.gather gather_S20000x128_S640000x1_S640000x128_1_0_n_n_0_1_1128
    ((truncf (F := Ideal) .bf16 · bitsLt_bf16_f32 : A⟦S20000x128, .f32⟧ → A⟦S20000x128, .bf16⟧) x0)
    ((broadcastInDim S640000x1 ![0] bcast_S640000_S640000x1_0 : A⟦S640000, .i32⟧ → A⟦S640000x1, .i32⟧)
      ((select : A⟦S640000, .i1⟧ → A⟦S640000, .i32⟧ → A⟦S640000, .i32⟧ → A⟦S640000, .i32⟧)
        ((cmpi .slt : A⟦S640000, .i32⟧ → A⟦S640000, .i32⟧ → A⟦S640000, .i1⟧)
          (shapeCast S640000 (extractStridedSlice S1x640000 ![0, 0] x2 slices_S2x640000_S1x640000_0_0) shapeCasts_S1x640000_S640000 : A⟦S640000, .i32⟧)
          ((broadcastInDim S640000 ![] bcast_S_S640000 : A⟦S_, .i32⟧ → A⟦S640000, .i32⟧) (constantI S_ 32 0#32)))
        ((addi : A⟦S640000, .i32⟧ → A⟦S640000, .i32⟧ → A⟦S640000, .i32⟧)
          (shapeCast S640000 (extractStridedSlice S1x640000 ![0, 0] x2 slices_S2x640000_S1x640000_0_0) shapeCasts_S1x640000_S640000 : A⟦S640000, .i32⟧)
          ((broadcastInDim S640000 ![] bcast_S_S640000 : A⟦S_, .i32⟧ → A⟦S640000, .i32⟧) (constantI S_ 32 20000#32)))
        (shapeCast S640000 (extractStridedSlice S1x640000 ![0, 0] x2 slices_S2x640000_S1x640000_0_0) shapeCasts_S1x640000_S640000 : A⟦S640000, .i32⟧)))

/-- The node features, rounded to the narrow format, gathered at the edges' second endpoints. -/
def hdK (x0 : A⟦S20000x128, .f32⟧) (x2 : A⟦S2x640000, .i32⟧) : A⟦S640000x128, .bf16⟧ :=
  Host.gather gather_S20000x128_S640000x1_S640000x128_1_0_n_n_0_1_1128
    ((truncf (F := Ideal) .bf16 · bitsLt_bf16_f32 : A⟦S20000x128, .f32⟧ → A⟦S20000x128, .bf16⟧) x0)
    ((broadcastInDim S640000x1 ![0] bcast_S640000_S640000x1_0 : A⟦S640000, .i32⟧ → A⟦S640000x1, .i32⟧)
      ((select : A⟦S640000, .i1⟧ → A⟦S640000, .i32⟧ → A⟦S640000, .i32⟧ → A⟦S640000, .i32⟧)
        ((cmpi .slt : A⟦S640000, .i32⟧ → A⟦S640000, .i32⟧ → A⟦S640000, .i1⟧)
          (shapeCast S640000 (extractStridedSlice S1x640000 ![1, 0] x2 slices_S2x640000_S1x640000_1_0) shapeCasts_S1x640000_S640000 : A⟦S640000, .i32⟧)
          ((broadcastInDim S640000 ![] bcast_S_S640000 : A⟦S_, .i32⟧ → A⟦S640000, .i32⟧) (constantI S_ 32 0#32)))
        ((addi : A⟦S640000, .i32⟧ → A⟦S640000, .i32⟧ → A⟦S640000, .i32⟧)
          (shapeCast S640000 (extractStridedSlice S1x640000 ![1, 0] x2 slices_S2x640000_S1x640000_1_0) shapeCasts_S1x640000_S640000 : A⟦S640000, .i32⟧)
          ((broadcastInDim S640000 ![] bcast_S_S640000 : A⟦S_, .i32⟧ → A⟦S640000, .i32⟧) (constantI S_ 32 20000#32)))
        (shapeCast S640000 (extractStridedSlice S1x640000 ![1, 0] x2 slices_S2x640000_S1x640000_1_0) shapeCasts_S1x640000_S640000 : A⟦S640000, .i32⟧)))

/-- The coordinates gathered at the first endpoints minus the coordinates gathered at the second. -/
def diffK (x1 : A⟦S20000x3, .f32⟧) (x2 : A⟦S2x640000, .i32⟧) : A⟦S640000x3, .f32⟧ :=
  (subf (F := Ideal) (s := S640000x3) (φ := .f32) : A⟦S640000x3, .f32⟧ → A⟦S640000x3, .f32⟧ → A⟦S640000x3, .f32⟧)
    (Host.gather gather_S20000x3_S640000x1_S640000x3_1_0_n_n_0_1_13 x1
    ((broadcastInDim S640000x1 ![0] bcast_S640000_S640000x1_0 : A⟦S640000, .i32⟧ → A⟦S640000x1, .i32⟧)
      ((select : A⟦S640000, .i1⟧ → A⟦S640000, .i32⟧ → A⟦S640000, .i32⟧ → A⟦S640000, .i32⟧)
        ((cmpi .slt : A⟦S640000, .i32⟧ → A⟦S640000, .i32⟧ → A⟦S640000, .i1⟧)
          (shapeCast S640000 (extractStridedSlice S1x640000 ![0, 0] x2 slices_S2x640000_S1x640000_0_0) shapeCasts_S1x640000_S640000 : A⟦S640000, .i32⟧)
          ((broadcastInDim S640000 ![] bcast_S_S640000 : A⟦S_, .i32⟧ → A⟦S640000, .i32⟧) (constantI S_ 32 0#32)))
        ((addi : A⟦S640000, .i32⟧ → A⟦S640000, .i32⟧ → A⟦S640000, .i32⟧)
          (shapeCast S640000 (extractStridedSlice S1x640000 ![0, 0] x2 slices_S2x640000_S1x640000_0_0) shapeCasts_S1x640000_S640000 : A⟦S640000, .i32⟧)
          ((broadcastInDim S640000 ![] bcast_S_S640000 : A⟦S_, .i32⟧ → A⟦S640000, .i32⟧) (constantI S_ 32 20000#32)))
        (shapeCast S640000 (extractStridedSlice S1x640000 ![0, 0] x2 slices_S2x640000_S1x640000_0_0) shapeCasts_S1x640000_S640000 : A⟦S640000, .i32⟧))))
    (Host.gather gather_S20000x3_S640000x1_S640000x3_1_0_n_n_0_1_13 x1
    ((broadcastInDim S640000x1 ![0] bcast_S640000_S640000x1_0 : A⟦S640000, .i32⟧ → A⟦S640000x1, .i32⟧)
      ((select : A⟦S640000, .i1⟧ → A⟦S640000, .i32⟧ → A⟦S640000, .i32⟧ → A⟦S640000, .i32⟧)
        ((cmpi .slt : A⟦S640000, .i32⟧ → A⟦S640000, .i32⟧ → A⟦S640000, .i1⟧)
          (shapeCast S640000 (extractStridedSlice S1x640000 ![1, 0] x2 slices_S2x640000_S1x640000_1_0) shapeCasts_S1x640000_S640000 : A⟦S640000, .i32⟧)
          ((broadcastInDim S640000 ![] bcast_S_S640000 : A⟦S_, .i32⟧ → A⟦S640000, .i32⟧) (constantI S_ 32 0#32)))
        ((addi : A⟦S640000, .i32⟧ → A⟦S640000, .i32⟧ → A⟦S640000, .i32⟧)
          (shapeCast S640000 (extractStridedSlice S1x640000 ![1, 0] x2 slices_S2x640000_S1x640000_1_0) shapeCasts_S1x640000_S640000 : A⟦S640000, .i32⟧)
          ((broadcastInDim S640000 ![] bcast_S_S640000 : A⟦S_, .i32⟧ → A⟦S640000, .i32⟧) (constantI S_ 32 20000#32)))
        (shapeCast S640000 (extractStridedSlice S1x640000 ![1, 0] x2 slices_S2x640000_S1x640000_1_0) shapeCasts_S1x640000_S640000 : A⟦S640000, .i32⟧))))

variable (m : (ℓ : Loc nD τ sig) → Buf (Elt Ideal) ℓ) (ρ : Dev nD → PrngReg)

/-! ## Before the edge kernel: the gathered arrays -/

set_option maxHeartbeats 1000000 in
theorem W1_v11 (c : Dev nD) : W1 m ρ c (Proc.devRef .tc main_v11)
    = hsK (m ((c : Thread nD τ).loc main_arg0)) (m ((c : Thread nD τ).loc main_arg2)) := by
  show StableHlo.after hostOps0 (W0 m ρ c) (Proc.devRef .tc main_v11) = _
  after_results <;> rfl

set_option maxHeartbeats 1000000 in
theorem W1_v18 (c : Dev nD) : W1 m ρ c (Proc.devRef .tc main_v18)
    = hdK (m ((c : Thread nD τ).loc main_arg0)) (m ((c : Thread nD τ).loc main_arg2)) := by
  show StableHlo.after hostOps0 (W0 m ρ c) (Proc.devRef .tc main_v18) = _
  after_results <;> rfl

set_option maxHeartbeats 2000000 in
theorem W1_v33 (c : Dev nD) : W1 m ρ c (Proc.devRef .tc main_v33)
    = diffK (m ((c : Thread nD τ).loc main_arg1)) (m ((c : Thread nD τ).loc main_arg2)) := by
  show StableHlo.after hostOps0 (W0 m ρ c) (Proc.devRef .tc main_v33) = _
  after_results_simp <;> rfl

/-! ## Before the edge kernel: arguments as launched -/

theorem W1_arg3 (c : Dev nD) : W1 m ρ c (Proc.devRef .tc main_arg3) = m ((c : Thread nD τ).loc main_arg3) := by
  show StableHlo.after hostOps0 (W0 m ρ c) (Proc.devRef .tc main_arg3) = _
  after_results <;> rfl

theorem W1_arg7 (c : Dev nD) : W1 m ρ c (Proc.devRef .tc main_arg7) = m ((c : Thread nD τ).loc main_arg7) := by
  show StableHlo.after hostOps0 (W0 m ρ c) (Proc.devRef .tc main_arg7) = _
  after_results <;> rfl

theorem W1_arg9 (c : Dev nD) : W1 m ρ c (Proc.devRef .tc main_arg9) = m ((c : Thread nD τ).loc main_arg9) := by
  show StableHlo.after hostOps0 (W0 m ρ c) (Proc.devRef .tc main_arg9) = _
  after_results <;> rfl

theorem W1_arg11 (c : Dev nD) : W1 m ρ c (Proc.devRef .tc main_arg11) = m ((c : Thread nD τ).loc main_arg11) := by
  show StableHlo.after hostOps0 (W0 m ρ c) (Proc.devRef .tc main_arg11) = _
  after_results <;> rfl

/-! ## Before the edge kernel: row ranges of the first edge weight, and the biases as one-row matrices -/

theorem W1_v34 (c : Dev nD) (k : Fin 128) (j : Fin 128) :
    (W1 m ρ c (Proc.devRef .tc main_v34) : S128x128.Idx → EReal) (ix2 k j)
      = (m ((c : Thread nD τ).loc main_arg5) : S273x128.Idx → EReal) (ix2 (r0 k) j) := by
  have e : (W1 m ρ c (Proc.devRef .tc main_v34) : S128x128.Idx → EReal)
      = extractStridedSlice S128x128 ![0, 0] (m ((c : Thread nD τ).loc main_arg5) : S273x128.Idx → EReal) slices_S273x128_S128x128_0_0 := by
    show StableHlo.after hostOps0 (W0 m ρ c) (Proc.devRef .tc main_v34) = _
    after_results <;> rfl
  exact (congrFun e _).trans (rows_apply _ _ k j (r0 k) (Nat.zero_add _).symm)

theorem W1_v35 (c : Dev nD) (k : Fin 128) (j : Fin 128) :
    (W1 m ρ c (Proc.devRef .tc main_v35) : S128x128.Idx → EReal) (ix2 k j)
      = (m ((c : Thread nD τ).loc main_arg5) : S273x128.Idx → EReal) (ix2 (r1 k) j) := by
  have e : (W1 m ρ c (Proc.devRef .tc main_v35) : S128x128.Idx → EReal)
      = extractStridedSlice S128x128 ![128, 0] (m ((c : Thread nD τ).loc main_arg5) : S273x128.Idx → EReal) slices_S273x128_S128x128_128_0 := by
    show StableHlo.after hostOps0 (W0 m ρ c) (Proc.devRef .tc main_v35) = _
    after_results <;> rfl
  exact (congrFun e _).trans (rows_apply _ _ k j (r1 k) rfl)

theorem W1_v36 (c : Dev nD) (j : Fin 128) :
    (W1 m ρ c (Proc.devRef .tc main_v36) : S1x128.Idx → EReal) (ix2 (0 : Fin 1) j)
      = (m ((c : Thread nD τ).loc main_arg5) : S273x128.Idx → EReal) (ix2 r2 j) := by
  have e : (W1 m ρ c (Proc.devRef .tc main_v36) : S1x128.Idx → EReal)
      = extractStridedSlice S1x128 ![256, 0] (m ((c : Thread nD τ).loc main_arg5) : S273x128.Idx → EReal) slices_S273x128_S1x128_256_0 := by
    show StableHlo.after hostOps0 (W0 m ρ c) (Proc.devRef .tc main_v36) = _
    after_results <;> rfl
  exact (congrFun e _).trans (rows_apply _ _ (0 : Fin 1) j r2 rfl)

theorem W1_v37 (c : Dev nD) (k : Fin 16) (j : Fin 128) :
    (W1 m ρ c (Proc.devRef .tc main_v37) : S16x128.Idx → EReal) (ix2 k j)
      = (m ((c : Thread nD τ).loc main_arg5) : S273x128.Idx → EReal) (ix2 (r3 k) j) := by
  have e : (W1 m ρ c (Proc.devRef .tc main_v37) : S16x128.Idx → EReal)
      = extractStridedSlice S16x128 ![257, 0] (m ((c : Thread nD τ).loc main_arg5) : S273x128.Idx → EReal) slices_S273x128_S16x128_257_0 := by
    show StableHlo.after hostOps0 (W0 m ρ c) (Proc.devRef .tc main_v37) = _
    after_results <;> rfl
  exact (congrFun e _).trans (rows_apply _ _ k j (r3 k) rfl)

theorem W1_v38 (c : Dev nD) (j : Fin 128) :
    (W1 m ρ c (Proc.devRef .tc main_v38) : S1x128.Idx → EReal) (ix2 (0 : Fin 1) j)
      = (m ((c : Thread nD τ).loc main_arg6) : S128.Idx → EReal) (ix1 j) := by
  have e : (W1 m ρ c (Proc.devRef .tc main_v38) : S1x128.Idx → EReal)
      = shapeCast S1x128 (m ((c : Thread nD τ).loc main_arg6) : S128.Idx → EReal) shapeCasts_S128_S1x128 := by
    show StableHlo.after hostOps0 (W0 m ρ c) (Proc.devRef .tc main_v38) = _
    after_results <;> rfl
  exact (congrFun e _).trans (row_apply _ _ j)

theorem W1_v39 (c : Dev nD) (j : Fin 128) :
    (W1 m ρ c (Proc.devRef .tc main_v39) : S1x128.Idx → EReal) (ix2 (0 : Fin 1) j)
      = (m ((c : Thread nD τ).loc main_arg8) : S128.Idx → EReal) (ix1 j) := by
  have e : (W1 m ρ c (Proc.devRef .tc main_v39) : S1x128.Idx → EReal)
      = shapeCast S1x128 (m ((c : Thread nD τ).loc main_arg8) : S128.Idx → EReal) shapeCasts_S128_S1x128 := by
    show StableHlo.after hostOps0 (W0 m ρ c) (Proc.devRef .tc main_v39) = _
    after_results <;> rfl
  exact (congrFun e _).trans (row_apply _ _ j)

theorem W1_v40 (c : Dev nD) (j : Fin 128) :
    (W1 m ρ c (Proc.devRef .tc main_v40) : S1x128.Idx → EReal) (ix2 (0 : Fin 1) j)
      = (m ((c : Thread nD τ).loc main_arg10) : S128.Idx → EReal) (ix1 j) := by
  have e : (W1 m ρ c (Proc.devRef .tc main_v40) : S1x128.Idx → EReal)
      = shapeCast S1x128 (m ((c : Thread nD τ).loc main_arg10) : S128.Idx → EReal) shapeCasts_S128_S1x128 := by
    show StableHlo.after hostOps0 (W0 m ρ c) (Proc.devRef .tc main_v40) = _
    after_results <;> rfl
  exact (congrFun e _).trans (row_apply _ _ j)

theorem W1_v41 (c : Dev nD) :
    (W1 m ρ c (Proc.devRef .tc main_v41) : S1x1.Idx → EReal) (ix2 (0 : Fin 1) (0 : Fin 1))
      = (m ((c : Thread nD τ).loc main_arg12) : S1.Idx → EReal) (ix1 (0 : Fin 1)) := by
  have e : (W1 m ρ c (Proc.devRef .tc main_v41) : S1x1.Idx → EReal)
      = shapeCast S1x1 (m ((c : Thread nD τ).loc main_arg12) : S1.Idx → EReal) shapeCasts_S1_S1x1 := by
    show StableHlo.after hostOps0 (W0 m ρ c) (Proc.devRef .tc main_v41) = _
    after_results <;> rfl
  exact (congrFun e _).trans (row_apply _ _ (0 : Fin 1))

end Cert.KernelIdeal.HostSide

end
-- ==== Proof.HostSide1.lean ====
/-
  What the node kernel's region finds in the buffers it reads.

  Between the two regions the program runs sixteen host operations on what the edge region left. Of the twelve arrays
  the node region stages, three are arguments that nothing has written (the node features, the coordinates and the
  second node weight): they hold their launch contents. The aggregated messages are the edge region's first output,
  widened to f32, added into a zero [20000,128] array at the edges' target nodes; the aggregated coordinate terms are its
  second output added into a zero [20000,3] array at the same targets. The target of an edge is row 1 of the edge index,
  taken as a vector before the edge region and kept as a column. These two arrays are stated as one term each
  (`msgK`, `caggK`) of the edge index and of the edge region's output, and never opened. The remaining five are read
  entry by entry: the mask column at node `n` is the negated fixed-mask bit of `n` as a float; the two halves of the
  first node weight are rows `0 … 127` and `128 … 255` of the [256,128] argument; the two bias rows are the two bias
  vectors with a unit axis in front.
-/
import proofs.«169153_j82772609728932_2_alg».proof.Proof.Spec
import proofs.«169153_j82772609728932_2_alg».proof.Proof.Gen.KernelIdeal.Frame
import Idealize.ShloMosaic.Lib.Pipeline.Value
import Idealize.ShloMosaic.Lib.ValueLayout

noncomputable section

open Idealize.ShloMosaic Idealize.ShloMosaic.TcCoe Idealize.SL.Sem Idealize.ShloMosaic.ValueIdx

namespace Cert.KernelIdeal.HostSide1

open Cert.KernelIdeal Cert.KernelIdeal.Gen

variable {F : FTy → Type} [FloatOps F] [Named F]
variable (m : (ℓ : Loc nD τ sig) → Buf (Elt F) ℓ) (ρ : Dev nD → PrngReg)

/-- No operation of the first stretch of host operations writes the buffer in the goal. -/
local macro "no_write0" : tactic => `(tactic| (
  refine List.forall_iff_forall_mem.mp ?_
  simp only [hostOps0, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- No operation of the second stretch of host operations writes the buffer in the goal. -/
local macro "no_write1" : tactic => `(tactic| (
  refine List.forall_iff_forall_mem.mp ?_
  simp only [hostOps1, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## The argument buffers -/

/-- Argument 0 at the first region's exit is as launched: no host operation before it and no window of that region writes it. -/
theorem W2_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (by no_write0)
    _ = m ((c : Thread nD τ).loc main_arg0) := rfl

/-- Argument 1 at the first region's exit is as launched: no host operation before it and no window of that region writes it. -/
theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (by no_write0)
    _ = m ((c : Thread nD τ).loc main_arg1) := rfl

/-- Argument 15 at the first region's exit is as launched: no host operation before it and no window of that region writes it. -/
theorem W2_arg15 (c : Dev nD) : W2 m ρ c (Proc.devRef .tc main_arg15) = m ((c : Thread nD τ).loc main_arg15) :=
  calc W2 m ρ c (Proc.devRef .tc main_arg15)
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (by no_write0)
    _ = m ((c : Thread nD τ).loc main_arg15) := rfl

/-- Argument 4 at the first region's exit is as launched: no host operation before it and no window of that region writes it. -/
theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (by no_write0)
    _ = m ((c : Thread nD τ).loc main_arg4) := rfl

/-- Argument 13 at the first region's exit is as launched: no host operation before it and no window of that region writes it. -/
theorem W2_arg13 (c : Dev nD) : W2 m ρ c (Proc.devRef .tc main_arg13) = m ((c : Thread nD τ).loc main_arg13) :=
  calc W2 m ρ c (Proc.devRef .tc main_arg13)
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (by no_write0)
    _ = m ((c : Thread nD τ).loc main_arg13) := rfl

/-- Argument 14 at the first region's exit is as launched: no host operation before it and no window of that region writes it. -/
theorem W2_arg14 (c : Dev nD) : W2 m ρ c (Proc.devRef .tc main_arg14) = m ((c : Thread nD τ).loc main_arg14) :=
  calc W2 m ρ c (Proc.devRef .tc main_arg14)
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (by no_write0)
    _ = m ((c : Thread nD τ).loc main_arg14) := rfl

/-- Argument 16 at the first region's exit is as launched: no host operation before it and no window of that region writes it. -/
theorem W2_arg16 (c : Dev nD) : W2 m ρ c (Proc.devRef .tc main_arg16) = m ((c : Thread nD τ).loc main_arg16) :=
  calc W2 m ρ c (Proc.devRef .tc main_arg16)
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (by no_write0)
    _ = m ((c : Thread nD τ).loc main_arg16) := rfl

/-- Argument 0 at the second region's entry is as launched. -/
theorem W3_arg0 (c : Dev nD) : W3 m ρ c (Proc.devRef .tc main_arg0) = m ((c : Thread nD τ).loc main_arg0) :=
  (StableHlo.after_of_forall_not_mem (b := Proc.devRef .tc main_arg0) _ _ (by no_write1)).trans (W2_arg0 m ρ c)

/-- Argument 1 at the second region's entry is as launched. -/
theorem W3_arg1 (c : Dev nD) : W3 m ρ c (Proc.devRef .tc main_arg1) = m ((c : Thread nD τ).loc main_arg1) :=
  (StableHlo.after_of_forall_not_mem (b := Proc.devRef .tc main_arg1) _ _ (by no_write1)).trans (W2_arg1 m ρ c)

/-- Argument 15 at the second region's entry is as launched. -/
theorem W3_arg15 (c : Dev nD) : W3 m ρ c (Proc.devRef .tc main_arg15) = m ((c : Thread nD τ).loc main_arg15) :=
  (StableHlo.after_of_forall_not_mem (b := Proc.devRef .tc main_arg15) _ _ (by no_write1)).trans (W2_arg15 m ρ c)

/-! ## The aggregated arrays -/

/-- The edges' target nodes: row 1 of the edge index, as a vector. -/
def tgtRow (x2 : (⟨S2x640000, .i32⟩ : BufTy).Contents (Elt F)) : (⟨S640000, .i32⟩ : BufTy).Contents (Elt F) :=
  shapeCast S640000 (extractStridedSlice S1x640000 ![1, 0] x2 slices_S2x640000_S1x640000_1_0) shapeCasts_S1x640000_S640000

/-- The target-node vector is computed before the first region and nothing writes it afterwards. -/
theorem W2_v3 (c : Dev nD) : W2 m ρ c (Proc.devRef .tc main_v3) = tgtRow (F := F) (m ((c : Thread nD τ).loc main_arg2)) := by
  refine (W2_of_ne m ρ c main_v3 (by decide)).trans ?_
  show StableHlo.after hostOps0 (W0 m ρ c) (Proc.devRef .tc main_v3) = _
  after_results_simp
  rfl

/-- The per-edge messages (widened to f32) added into a zero [20000,128] array at the edges' target nodes. -/
def msgK (x2 : (⟨S2x640000, .i32⟩ : BufTy).Contents (Elt F)) (M : (⟨S640000x128, .bf16⟩ : BufTy).Contents (Elt F)) :
    (⟨S20000x128, .f32⟩ : BufTy).Contents (Elt F) :=
  Host.scatterAdd scatter_S20000x128_S640000x1_S640000x128_1_0_0_1
    (broadcastInDim S20000x128 ![] bcast_S_S20000x128 (constant (F := F) S_ .f32 0x00000000#32))
    (broadcastInDim S640000x1 ![0] bcast_S640000_S640000x1_0 (tgtRow (F := F) x2))
    (extf .f32 M bitsLt_bf16_f32)

/-- The per-edge coordinate terms added into a zero [20000,3] array at the edges' target nodes. -/
def caggK (x2 : (⟨S2x640000, .i32⟩ : BufTy).Contents (Elt F)) (C : (⟨S640000x3, .f32⟩ : BufTy).Contents (Elt F)) :
    (⟨S20000x3, .f32⟩ : BufTy).Contents (Elt F) :=
  Host.scatterAdd scatter_S20000x3_S640000x1_S640000x3_1_0_0_1
    (broadcastInDim S20000x3 ![] bcast_S_S20000x3 (constant (F := F) S_ .f32 0x00000000#32))
    (broadcastInDim S640000x1 ![0] bcast_S640000_S640000x1_0 (tgtRow (F := F) x2))
    C

theorem W3_v49 (c : Dev nD) :
    W3 m ρ c (Proc.devRef .tc main_v49)
      = msgK (F := F) (m ((c : Thread nD τ).loc main_arg2)) (W2 m ρ c (Proc.devRef .tc main_v42_0)) := by
  show StableHlo.after hostOps1 (W2 m ρ c) (Proc.devRef .tc main_v49) = _
  after_results
  rw [W2_v3 m ρ c]
  rfl

theorem W3_v45 (c : Dev nD) :
    W3 m ρ c (Proc.devRef .tc main_v45)
      = caggK (F := F) (m ((c : Thread nD τ).loc main_arg2)) (W2 m ρ c (Proc.devRef .tc main_v42_1)) := by
  show StableHlo.after hostOps1 (W2 m ρ c) (Proc.devRef .tc main_v45) = _
  after_results
  rw [W2_v3 m ρ c]
  rfl

theorem W2_out0 (c : Dev nD) : W2 m ρ c (Proc.devRef .tc main_v42_0) = (dat0 (V1 m ρ) c).arrAt 15 cfg0.N := W2_arr m ρ c 15
theorem W2_out1 (c : Dev nD) : W2 m ρ c (Proc.devRef .tc main_v42_1) = (dat0 (V1 m ρ) c).arrAt 16 cfg0.N := W2_arr m ρ c 16

/-! ## The mask column, the two halves of the first node weight, the two bias rows -/

/-- The mask column at node `n`: the negated fixed-mask bit of the node, as a float. -/
theorem W3_v52 (c : Dev nD) (n : Fin 20000) :
    (W3 m ρ c (Proc.devRef .tc main_v52) : (⟨S20000x1, .f32⟩ : BufTy).Contents (Elt F)) (ix2 n (0 : Fin 1))
      = uitofp (F := F) .f32 (noti (m ((c : Thread nD τ).loc main_arg4) : (⟨S20000, .i1⟩ : BufTy).Contents (Elt F))) (ix1 n) := by
  have e : W3 m ρ c (Proc.devRef .tc main_v52)
      = broadcastInDim S20000x1 ![0] bcast_S20000_S20000x1_0
          (uitofp (F := F) .f32 (noti (W2 m ρ c (Proc.devRef .tc main_arg4) : (⟨S20000, .i1⟩ : BufTy).Contents (Elt F)))) := by
    show StableHlo.after hostOps1 (W2 m ρ c) (Proc.devRef .tc main_v52) = _
    after_results
  rw [e, W2_arg4 m ρ c]
  exact broadcastInDim_apply ![0] bcast_S20000_S20000x1_0 _ (ix2 n (0 : Fin 1)) (ix1 n) (fun a => match a with
    | ⟨0, _⟩ => by show n.val = if (20000 : Nat) = 1 then 0 else n.val; rw [if_neg (by decide)])

/-- The first half of the first node weight: rows `0 … 127` of the [256,128] argument. -/
theorem W3_v53 (c : Dev nD) (k j : Fin 128) :
    (W3 m ρ c (Proc.devRef .tc main_v53) : (⟨S128x128, .f32⟩ : BufTy).Contents (Elt F)) (ix2 k j)
      = (m ((c : Thread nD τ).loc main_arg13) : (⟨S256x128, .f32⟩ : BufTy).Contents (Elt F)) (ix2 (Cert.Egnn.q0 k) j) := by
  have e : W3 m ρ c (Proc.devRef .tc main_v53)
      = extractStridedSlice S128x128 ![0, 0] (W2 m ρ c (Proc.devRef .tc main_arg13) : (⟨S256x128, .f32⟩ : BufTy).Contents (Elt F)) slices_S256x128_S128x128_0_0 := by
    show StableHlo.after hostOps1 (W2 m ρ c) (Proc.devRef .tc main_v53) = _
    after_results
  rw [e, W2_arg13 m ρ c]
  exact slice2_axis0_apply 0 _ slices_S256x128_S128x128_0_0 k j (Cert.Egnn.q0 k) (Nat.zero_add _).symm

/-- The second half: rows `128 … 255`. -/
theorem W3_v54 (c : Dev nD) (k j : Fin 128) :
    (W3 m ρ c (Proc.devRef .tc main_v54) : (⟨S128x128, .f32⟩ : BufTy).Contents (Elt F)) (ix2 k j)
      = (m ((c : Thread nD τ).loc main_arg13) : (⟨S256x128, .f32⟩ : BufTy).Contents (Elt F)) (ix2 (Cert.Egnn.q1 k) j) := by
  have e : W3 m ρ c (Proc.devRef .tc main_v54)
      = extractStridedSlice S128x128 ![128, 0] (W2 m ρ c (Proc.devRef .tc main_arg13) : (⟨S256x128, .f32⟩ : BufTy).Contents (Elt F)) slices_S256x128_S128x128_128_0 := by
    show StableHlo.after hostOps1 (W2 m ρ c) (Proc.devRef .tc main_v54) = _
    after_results
  rw [e, W2_arg13 m ρ c]
  exact slice2_axis0_apply 128 _ slices_S256x128_S128x128_128_0 k j (Cert.Egnn.q1 k) rfl

/-- The first bias as a row. -/
theorem W3_v55 (c : Dev nD) (j : Fin 128) :
    (W3 m ρ c (Proc.devRef .tc main_v55) : (⟨S1x128, .f32⟩ : BufTy).Contents (Elt F)) (ix2 (0 : Fin 1) j)
      = (m ((c : Thread nD τ).loc main_arg14) : (⟨S128, .f32⟩ : BufTy).Contents (Elt F)) (ix1 j) := by
  have e : W3 m ρ c (Proc.devRef .tc main_v55)
      = shapeCast S1x128 (W2 m ρ c (Proc.devRef .tc main_arg14) : (⟨S128, .f32⟩ : BufTy).Contents (Elt F)) shapeCasts_S128_S1x128 := by
    show StableHlo.after hostOps1 (W2 m ρ c) (Proc.devRef .tc main_v55) = _
    after_results
    rfl
  rw [e, W2_arg14 m ρ c]
  exact shapeCast_a_1a_apply _ shapeCasts_S128_S1x128 (0 : Fin 1) j

/-- The second bias as a row. -/
theorem W3_v56 (c : Dev nD) (j : Fin 128) :
    (W3 m ρ c (Proc.devRef .tc main_v56) : (⟨S1x128, .f32⟩ : BufTy).Contents (Elt F)) (ix2 (0 : Fin 1) j)
      = (m ((c : Thread nD τ).loc main_arg16) : (⟨S128, .f32⟩ : BufTy).Contents (Elt F)) (ix1 j) := by
  have e : W3 m ρ c (Proc.devRef .tc main_v56)
      = shapeCast S1x128 (W2 m ρ c (Proc.devRef .tc main_arg16) : (⟨S128, .f32⟩ : BufTy).Contents (Elt F)) shapeCasts_S128_S1x128 := by
    show StableHlo.after hostOps1 (W2 m ρ c) (Proc.devRef .tc main_v56) = _
    after_results
    rfl
  rw [e, W2_arg16 m ρ c]
  exact shapeCast_a_1a_apply _ shapeCasts_S128_S1x128 (0 : Fin 1) j

end Cert.KernelIdeal.HostSide1

end
-- ==== Proof.NodeValue.lean ====
/-
  The node kernel's two output arrays after its region, entry by entry.

  The region runs over ten grid points; point `t` stages rows `2000 t … 2000 t + 1999` of the five row-blocked inputs
  (the node features, the aggregated messages, the coordinates, the aggregated coordinate terms and the mask column),
  the whole of the five weight and bias arrays, and writes back rows `2000 t … 2000 t + 1999` of the two outputs.
  Inside a block the body is row-wise: row `p` of the feature output is the node update of row `p` of the feature and
  message blocks (two matrix products into zero accumulators, a bias row spread over the rows, `x · logistic x`, a third
  product, a second bias row, and the residual), and entry `(p, d)` of the coordinate output is the old coordinate plus
  the aggregated term times the row's mask entry (a column spread over the three axes). A change of float format is the
  identity on extended reals, so the narrowed operands of the products are the operands themselves.
  Hence what point `t` writes back is block `t` of ONE function of the arrays the region reads (`Gh`, `Gx`); row `r` of an
  output lies in the block of point `r / 2000`, so the ten blocks cover each output and the array ends holding that function.
  Nothing here needs the inputs to be finite.
-/
import proofs.«169153_j82772609728932_2_alg».proof.Proof.Spec
import proofs.«169153_j82772609728932_2_alg».proof.Proof.LibRowOps
import proofs.«169153_j82772609728932_2_alg».proof.Proof.Gen.KernelIdeal.Frame
import Idealize.ShloMosaic.Lib.Pipeline.Value
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.NodeValue

open Cert.KernelIdeal Cert.KernelIdeal.Gen

variable (V : (c : Dev nD) → (b : Ref sig .tc) → Buf (Elt Ideal) ((c : Thread nD τ).loc b))

/-- The zero offsets of a whole-buffer access, however they are spelt. -/
theorem hz : (![0, 0] : Fin 2 → Nat) = fun _ => 0 := funext fun a => by fin_cases a <;> rfl

/-! ## The coordinate output (window 11) -/

/-- The coordinate payload at row `p`, axis `d`: the old coordinate plus the aggregated term times the row's mask. -/
theorem pay1_ix (x2 x3 : Vec Ideal S2000x3 .f32) (x4 : Vec Ideal S2000x1 .f32) (p : Fin 2000) (d : Fin 3) :
    k1_pay1 (F := Ideal) x2 (k1_pay3 x3) x4 (ix2 p d)
      = Cert.Egnn.nx (x2 (ix2 p d)) (x3 (ix2 p d)) (x4 (ix2 p (0 : Fin 1))) := by
  unfold k1_pay1 k1_pay3
  dsimp only
  rw [addf_apply, mulf_apply, shapeCast_self, shapeCast_self, Pay.broadcastTo_a1_ab_apply]
  rfl

/-- The same at any index of the block. -/
theorem pay1_apply (x2 x3 : Vec Ideal S2000x3 .f32) (x4 : Vec Ideal S2000x1 .f32) (y : S2000x3.Idx) :
    k1_pay1 (F := Ideal) x2 (k1_pay3 x3) x4 y
      = Cert.Egnn.nx (x2 y) (x3 y) (x4 (ix2 (⟨(y 0).val, idx2_lt0 y⟩ : Fin 2000) (0 : Fin 1))) := by
  obtain ⟨p, d, rfl⟩ : ∃ (p : Fin 2000) (d : Fin 3), y = ix2 p d := ⟨y 0, y 1, eq_ix2 y⟩
  exact pay1_ix x2 x3 x4 p d

/-- The printed index maps over the grid: every row-blocked window's block index at point `t` is `(t, 0)`. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_10.index t (0 : Fin 2) = t.val ∧ win1_10.index t (1 : Fin 2) = 0)
    ∧ (win1_11.index t (0 : Fin 2) = t.val ∧ win1_11.index t (1 : Fin 2) = 0) :=
  (by decide +kernel : ∀ t : Fin grid1.N, _)

/-- The whole-array windows' block index is `(0, 0)` at every point. -/
theorem idx_facts_w : ∀ t : Fin cfg1.N,
    (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0) :=
  (by decide +kernel : ∀ t : Fin grid1.N, _)

/-- The coordinate array the region leaves, as one function of the arrays it reads. -/
def Gx (a1 a3 : S20000x3.Idx → EReal) (a4 : S20000x1.Idx → EReal) : S20000x3.Idx → EReal :=
  fun i => Cert.Egnn.nx (a1 i) (a3 i) (a4 (ix2 (⟨(i 0).val, idx2_lt0 i⟩ : Fin 20000) (0 : Fin 1)))

/-- What point `t` writes back to the coordinate array is block `t` of `Gx`. -/
theorem flushed11_eq (c : Dev nD) (t : Fin cfg1.N) :
    (dat1 (F := Ideal) V c).flushed 11 t
      = ((cfg1.win 11).blk t).view.read (Elt Ideal) (Gx (V c main_arg1) (V c main_v45) (V c main_v52)) := by
  show (cfg1.win 11).cut (grid1.coords t) ((dat1 V c).after 11 t) = _
  rw [after1_11]
  unfold out1_11
  rw [View.canon_unit_zero hz]
  simp only [View.ld_unit_zero (S := S2000x3) hz, View.ld_unit_zero (S := S2000x1) hz]
  obtain ⟨-, -, ⟨e20, e21⟩, ⟨e30, e31⟩, ⟨e40, e41⟩, -, ⟨eo0, eo1⟩⟩ := idx_facts t
  funext y
  show k1_pay1 (F := Ideal) (iblk1 V c 2 t) (k1_pay3 (iblk1 V c 3 t)) (iblk1 V c 4 t) y
    = Gx (V c main_arg1) (V c main_v45) (V c main_v52) (((cfg1.win 11).blk t).view.emb y)
  refine (pay1_apply (iblk1 V c 2 t) (iblk1 V c 3 t) (iblk1 V c 4 t) y).trans ?_
  unfold Gx
  have h2 : ((cfg1.win 2).blk t).view.emb y = ((cfg1.win 11).blk t).view.emb y := by
    funext a; apply Fin.ext
    match a with
    | ⟨0, _⟩ => show win1_2.index t (0 : Fin 2) * 2000 + 1 * (y 0).val = win1_11.index t (0 : Fin 2) * 2000 + 1 * (y 0).val; omega
    | ⟨1, _⟩ => show win1_2.index t (1 : Fin 2) * 3 + 1 * (y 1).val = win1_11.index t (1 : Fin 2) * 3 + 1 * (y 1).val; omega
  have h3 : ((cfg1.win 3).blk t).view.emb y = ((cfg1.win 11).blk t).view.emb y := by
    funext a; apply Fin.ext
    match a with
    | ⟨0, _⟩ => show win1_3.index t (0 : Fin 2) * 2000 + 1 * (y 0).val = win1_11.index t (0 : Fin 2) * 2000 + 1 * (y 0).val; omega
    | ⟨1, _⟩ => show win1_3.index t (1 : Fin 2) * 3 + 1 * (y 1).val = win1_11.index t (1 : Fin 2) * 3 + 1 * (y 1).val; omega
  have h4 : ((cfg1.win 4).blk t).view.emb (ix2 (⟨(y 0).val, idx2_lt0 y⟩ : Fin 2000) (0 : Fin 1))
      = ix2 (⟨((((cfg1.win 11).blk t).view.emb y) 0).val, idx2_lt0 _⟩ : Fin 20000) (0 : Fin 1) := by
    funext a; apply Fin.ext
    match a with
    | ⟨0, _⟩ => show win1_4.index t (0 : Fin 2) * 2000 + 1 * (y 0).val = win1_11.index t (0 : Fin 2) * 2000 + 1 * (y 0).val; omega
    | ⟨1, _⟩ => show win1_4.index t (1 : Fin 2) * 1 + 1 * 0 = 0; omega
  show Cert.Egnn.nx (V c main_arg1 (((cfg1.win 2).blk t).view.emb y)) (V c main_v45 (((cfg1.win 3).blk t).view.emb y))
      (V c main_v52 (((cfg1.win 4).blk t).view.emb (ix2 (⟨(y 0).val, idx2_lt0 y⟩ : Fin 2000) (0 : Fin 1)))) = _
  rw [h2, h3, h4]

/-- An index of the coordinate array is in point `t`'s block iff each coordinate is in the block's range on its axis. -/
theorem mem_blk11 (t : Fin cfg1.N) (i : S20000x3.Idx) :
    i ∈ ((cfg1.win 11).blk t).view.set ↔ ∀ a : Fin 2, win1_11.index t a * S2000x3.size a ≤ (i a).val ∧ (i a).val < win1_11.index t a * S2000x3.size a + S2000x3.size a := by
  show i ∈ ((View.whole main_v57_1).slice (win1_11.rect t)).set ↔ _
  rw [View.set_slice_whole, Rect.mem_set_unit]
  exact Iff.rfl

/-- Row `r` of the coordinate array is in the block of point `r / 2000`. -/
theorem cover11 (i : S20000x3.Idx) :
    ∃ t : Fin cfg1.N, (cfg1.win 11).flush t = true ∧ i ∈ ((cfg1.win 11).blk t).view.set := by
  have hi0 : (i 0).val < 20000 := idx2_lt0 i
  have hi1 : (i 1).val < 3 := idx2_lt1 i
  have hN : cfg1.N = 10 := N_1
  refine ⟨⟨(i 0).val / 2000, by rw [hN]; omega⟩, flush1_11 _, ?_⟩
  obtain ⟨-, -, -, -, -, -, ⟨eo0, eo1⟩⟩ := idx_facts ⟨(i 0).val / 2000, by rw [hN]; omega⟩
  rw [mem_blk11]
  intro a
  match a with
  | ⟨0, _⟩ =>
    show win1_11.index _ (0 : Fin 2) * 2000 ≤ (i 0).val ∧ (i 0).val < win1_11.index _ (0 : Fin 2) * 2000 + 2000
    rw [eo0]; show (i 0).val / 2000 * 2000 ≤ (i 0).val ∧ (i 0).val < (i 0).val / 2000 * 2000 + 2000; omega
  | ⟨1, _⟩ =>
    show win1_11.index _ (1 : Fin 2) * 3 ≤ (i 1).val ∧ (i 1).val < win1_11.index _ (1 : Fin 2) * 3 + 3
    rw [eo1]; omega

/-- The coordinate array after the region is `Gx` of the arrays the region reads. -/
theorem final11 (c : Dev nD) :
    (dat1 (F := Ideal) V c).arrAt 11 cfg1.N = Gx (V c main_arg1) (V c main_v45) (V c main_v52) :=
  (dat1 V c).arrAt_eq_of_cover 11 (Gx (V c main_arg1) (V c main_v45) (V c main_v52)) (fun t _ => flushed11_eq V c t) cover11

/-- THE COORDINATE OUTPUT, entry by entry. -/
theorem node_x (c : Dev nD) (n : Fin 20000) (c' : Fin 3) :
    ((dat1 (F := Ideal) V c).arrAt 11 cfg1.N : S20000x3.Idx → EReal) (ix2 n c')
      = Cert.Egnn.nx (V c main_arg1 (ix2 n c')) (V c main_v45 (ix2 n c')) (V c main_v52 (ix2 n (0 : Fin 1))) :=
  (congrFun (final11 V c) (ix2 n c')).trans rfl

/-! ## The feature output (window 10) -/

/-- The kernel's matrix product into a zero accumulator, read at row `p` and column `q`: the dot product of row `p`
    of the left operand and column `q` of the right one (its dimension numbers are the plain product's). -/
theorem matmul_ix {φ₁ φ₂ : FTy} (a : FVec Ideal S2000x128 φ₁) (b : FVec Ideal S128x128 φ₂) (p : Fin 2000) (q : Fin 128) :
    matmul dot_S2000x128_S128x128_S2000x128_1_0_0_1_n_n none a b (constant (F := Ideal) S2000x128 .f32 0x00000000#32) (ix2 p q)
      = ∑ k : Fin 128, a (ix2 p k) * b (ix2 k q) :=
  Pay.matmul_plain_apply 2000 128 128 none a b p q

/-- The logistic function of a vector, read at an index. -/
theorem logistic_apply {s : Shape} {φ : FTy} (a : FVec Ideal s φ) (i : s.Idx) : logistic a i = Ideal.logistic (a i) := rfl

/-- The feature payload at row `p`, column `j`: the node's new feature. -/
theorem pay2_ix (x0 x1 : Vec Ideal S2000x128 .f32) (x5 x6 : Vec Ideal S128x128 .f32) (x7 : Vec Ideal S1x128 .f32)
    (x8 : Vec Ideal S128x128 .f32) (x9 : Vec Ideal S1x128 .f32) (p : Fin 2000) (j : Fin 128) :
    k1_pay2 (F := Ideal) x0 x1 x5 x6 x7 x8 x9 (ix2 p j)
      = Cert.Egnn.nh (fun k => x0 (ix2 p k)) (fun k => x1 (ix2 p k)) (fun k j => x5 (ix2 k j)) (fun k j => x6 (ix2 k j))
          (fun j => x7 (ix2 (0 : Fin 1) j)) (fun k j => x8 (ix2 k j)) (fun j => x9 (ix2 (0 : Fin 1) j)) j := by
  unfold k1_pay2 Cert.Egnn.nh
  dsimp only
  simp only [shapeCast_self]
  rw [addf_apply, addf_apply, matmul_ix, broadcastTo_1b_ab_apply]
  refine congrArg (x0 (ix2 p j) + ·) (congrArg (· + x9 (ix2 (0 : Fin 1) j)) (Finset.sum_congr rfl fun k _ => ?_))
  rw [truncf_apply, truncf_apply, mulf_apply, logistic_apply, addf_apply, addf_apply, matmul_ix, matmul_ix,
    broadcastTo_1b_ab_apply]
  rfl

/-- The same at any index of the block. -/
theorem pay2_apply (x0 x1 : Vec Ideal S2000x128 .f32) (x5 x6 : Vec Ideal S128x128 .f32) (x7 : Vec Ideal S1x128 .f32)
    (x8 : Vec Ideal S128x128 .f32) (x9 : Vec Ideal S1x128 .f32) (y : S2000x128.Idx) :
    k1_pay2 (F := Ideal) x0 x1 x5 x6 x7 x8 x9 y
      = Cert.Egnn.nh (fun k => x0 (ix2 (⟨(y 0).val, idx2_lt0 y⟩ : Fin 2000) k)) (fun k => x1 (ix2 (⟨(y 0).val, idx2_lt0 y⟩ : Fin 2000) k))
          (fun k j => x5 (ix2 k j)) (fun k j => x6 (ix2 k j))
          (fun j => x7 (ix2 (0 : Fin 1) j)) (fun k j => x8 (ix2 k j)) (fun j => x9 (ix2 (0 : Fin 1) j)) (⟨(y 1).val, idx2_lt1 y⟩ : Fin 128) := by
  obtain ⟨p, d, rfl⟩ : ∃ (p : Fin 2000) (d : Fin 128), y = ix2 p d := ⟨y 0, y 1, eq_ix2 y⟩
  exact pay2_ix x0 x1 x5 x6 x7 x8 x9 p d

/-- The feature array the region leaves, as one function of the arrays it reads. -/
def Gh (a0 a1 : S20000x128.Idx → EReal) (a5 a6 : S128x128.Idx → EReal) (a7 : S1x128.Idx → EReal)
    (a8 : S128x128.Idx → EReal) (a9 : S1x128.Idx → EReal) : S20000x128.Idx → EReal :=
  fun i => Cert.Egnn.nh (fun k => a0 (ix2 (⟨(i 0).val, idx2_lt0 i⟩ : Fin 20000) k)) (fun k => a1 (ix2 (⟨(i 0).val, idx2_lt0 i⟩ : Fin 20000) k))
    (fun k j => a5 (ix2 k j)) (fun k j => a6 (ix2 k j)) (fun j => a7 (ix2 (0 : Fin 1) j))
    (fun k j => a8 (ix2 k j)) (fun j => a9 (ix2 (0 : Fin 1) j)) (⟨(i 1).val, idx2_lt1 i⟩ : Fin 128)

/-- A row-blocked input window's block at point `t`, at row `r` and column `k`, is the array at row `2000 t + r`. -/
theorem iblk0_ix (c : Dev nD) (t : Fin cfg1.N) (r : Fin 2000) (k : Fin 128) (R : Fin 20000) (hR : R.val = t.val * 2000 + r.val) :
    (iblk1 V c 0 t : Vec Ideal S2000x128 .f32) (ix2 r k) = (V c main_arg0 : S20000x128.Idx → EReal) (ix2 R k) := by
  obtain ⟨⟨e0, e1⟩, -⟩ := idx_facts t
  show V c main_arg0 (((cfg1.win 0).blk t).view.emb (ix2 r k)) = V c main_arg0 (ix2 R k)
  refine congrArg (V c main_arg0) (funext fun a => Fin.ext ?_)
  match a with
  | ⟨0, _⟩ => show win1_0.index t (0 : Fin 2) * 2000 + 1 * r.val = R.val; omega
  | ⟨1, _⟩ => show win1_0.index t (1 : Fin 2) * 128 + 1 * k.val = k.val; omega

theorem iblk1_ix (c : Dev nD) (t : Fin cfg1.N) (r : Fin 2000) (k : Fin 128) (R : Fin 20000) (hR : R.val = t.val * 2000 + r.val) :
    (iblk1 V c 1 t : Vec Ideal S2000x128 .f32) (ix2 r k) = (V c main_v49 : S20000x128.Idx → EReal) (ix2 R k) := by
  obtain ⟨-, ⟨e0, e1⟩, -⟩ := idx_facts t
  show V c main_v49 (((cfg1.win 1).blk t).view.emb (ix2 r k)) = V c main_v49 (ix2 R k)
  refine congrArg (V c main_v49) (funext fun a => Fin.ext ?_)
  match a with
  | ⟨0, _⟩ => show win1_1.index t (0 : Fin 2) * 2000 + 1 * r.val = R.val; omega
  | ⟨1, _⟩ => show win1_1.index t (1 : Fin 2) * 128 + 1 * k.val = k.val; omega

/-- A whole-array input window's block at any point is the array. -/
theorem iblk5_ix (c : Dev nD) (t : Fin cfg1.N) (k j : Fin 128) :
    (iblk1 V c 5 t : Vec Ideal S128x128 .f32) (ix2 k j) = (V c main_v53 : S128x128.Idx → EReal) (ix2 k j) := by
  obtain ⟨⟨e0, e1⟩, -⟩ := idx_facts_w t
  show V c main_v53 (((cfg1.win 5).blk t).view.emb (ix2 k j)) = V c main_v53 (ix2 k j)
  refine congrArg (V c main_v53) (funext fun a => Fin.ext ?_)
  match a with
  | ⟨0, _⟩ => show win1_5.index t (0 : Fin 2) * 128 + 1 * k.val = k.val; omega
  | ⟨1, _⟩ => show win1_5.index t (1 : Fin 2) * 128 + 1 * j.val = j.val; omega

theorem iblk6_ix (c : Dev nD) (t : Fin cfg1.N) (k j : Fin 128) :
    (iblk1 V c 6 t : Vec Ideal S128x128 .f32) (ix2 k j) = (V c main_v54 : S128x128.Idx → EReal) (ix2 k j) := by
  obtain ⟨-, ⟨e0, e1⟩, -⟩ := idx_facts_w t
  show V c main_v54 (((cfg1.win 6).blk t).view.emb (ix2 k j)) = V c main_v54 (ix2 k j)
  refine congrArg (V c main_v54) (funext fun a => Fin.ext ?_)
  match a with
  | ⟨0, _⟩ => show win1_6.index t (0 : Fin 2) * 128 + 1 * k.val = k.val; omega
  | ⟨1, _⟩ => show win1_6.index t (1 : Fin 2) * 128 + 1 * j.val = j.val; omega

theorem iblk7_ix (c : Dev nD) (t : Fin cfg1.N) (j : Fin 128) :
    (iblk1 V c 7 t : Vec Ideal S1x128 .f32) (ix2 (0 : Fin 1) j) = (V c main_v55 : S1x128.Idx → EReal) (ix2 (0 : Fin 1) j) := by
  obtain ⟨-, -, ⟨e0, e1⟩, -⟩ := idx_facts_w t
  show V c main_v55 (((cfg1.win 7).blk t).view.emb (ix2 (0 : Fin 1) j)) = V c main_v55 (ix2 (0 : Fin 1) j)
  refine congrArg (V c main_v55) (funext fun a => Fin.ext ?_)
  match a with
  | ⟨0, _⟩ => show win1_7.index t (0 : Fin 2) * 1 + 1 * 0 = 0; omega
  | ⟨1, _⟩ => show win1_7.index t (1 : Fin 2) * 128 + 1 * j.val = j.val; omega

theorem iblk8_ix (c : Dev nD) (t : Fin cfg1.N) (k j : Fin 128) :
    (iblk1 V c 8 t : Vec Ideal S128x128 .f32) (ix2 k j) = (V c main_arg15 : S128x128.Idx → EReal) (ix2 k j) := by
  obtain ⟨-, -, -, ⟨e0, e1⟩, -⟩ := idx_facts_w t
  show V c main_arg15 (((cfg1.win 8).blk t).view.emb (ix2 k j)) = V c main_arg15 (ix2 k j)
  refine congrArg (V c main_arg15) (funext fun a => Fin.ext ?_)
  match a with
  | ⟨0, _⟩ => show win1_8.index t (0 : Fin 2) * 128 + 1 * k.val = k.val; omega
  | ⟨1, _⟩ => show win1_8.index t (1 : Fin 2) * 128 + 1 * j.val = j.val; omega

theorem iblk9_ix (c : Dev nD) (t : Fin cfg1.N) (j : Fin 128) :
    (iblk1 V c 9 t : Vec Ideal S1x128 .f32) (ix2 (0 : Fin 1) j) = (V c main_v56 : S1x128.Idx → EReal) (ix2 (0 : Fin 1) j) := by
  obtain ⟨-, -, -, -, ⟨e0, e1⟩⟩ := idx_facts_w t
  show V c main_v56 (((cfg1.win 9).blk t).view.emb (ix2 (0 : Fin 1) j)) = V c main_v56 (ix2 (0 : Fin 1) j)
  refine congrArg (V c main_v56) (funext fun a => Fin.ext ?_)
  match a with
  | ⟨0, _⟩ => show win1_9.index t (0 : Fin 2) * 1 + 1 * 0 = 0; omega
  | ⟨1, _⟩ => show win1_9.index t (1 : Fin 2) * 128 + 1 * j.val = j.val; omega

/-- What point `t` writes back to the feature array is block `t` of `Gh`. -/
theorem flushed10_eq (c : Dev nD) (t : Fin cfg1.N) :
    (dat1 (F := Ideal) V c).flushed 10 t
      = ((cfg1.win 10).blk t).view.read (Elt Ideal)
          (Gh (V c main_arg0) (V c main_v49) (V c main_v53) (V c main_v54) (V c main_v55) (V c main_arg15) (V c main_v56)) := by
  show (cfg1.win 10).cut (grid1.coords t) ((dat1 V c).after 10 t) = _
  rw [after1_10]
  unfold out1_10
  rw [View.canon_unit_zero hz]
  simp only [View.ld_unit_zero (S := S2000x128) hz, View.ld_unit_zero (S := S128x128) hz, View.ld_unit_zero (S := S1x128) hz]
  obtain ⟨-, -, -, -, -, ⟨eo0, eo1⟩, -⟩ := idx_facts t
  funext y
  show k1_pay2 (F := Ideal) (iblk1 V c 0 t) (iblk1 V c 1 t) (iblk1 V c 5 t) (iblk1 V c 6 t) (iblk1 V c 7 t) (iblk1 V c 8 t) (iblk1 V c 9 t) y
    = Gh (V c main_arg0) (V c main_v49) (V c main_v53) (V c main_v54) (V c main_v55) (V c main_arg15) (V c main_v56)
        (((cfg1.win 10).blk t).view.emb y)
  refine (pay2_apply (iblk1 V c 0 t) (iblk1 V c 1 t) (iblk1 V c 5 t) (iblk1 V c 6 t) (iblk1 V c 7 t) (iblk1 V c 8 t) (iblk1 V c 9 t) y).trans ?_
  unfold Gh
  have hy0 : (y 0).val < 2000 := idx2_lt0 y
  have hR : ((((cfg1.win 10).blk t).view.emb y) 0).val = t.val * 2000 + (y 0).val := by
    show win1_10.index t (0 : Fin 2) * 2000 + 1 * (y 0).val = _; omega
  have hC : ((((cfg1.win 10).blk t).view.emb y) 1).val = (y 1).val := by
    show win1_10.index t (1 : Fin 2) * 128 + 1 * (y 1).val = _; omega
  have hj : (⟨(y 1).val, idx2_lt1 y⟩ : Fin 128) = ⟨((((cfg1.win 10).blk t).view.emb y) 1).val, idx2_lt1 _⟩ := Fin.ext hC.symm
  rw [← hj]
  congr 1
  · funext k; exact iblk0_ix V c t ⟨(y 0).val, idx2_lt0 y⟩ k ⟨_, idx2_lt0 _⟩ hR
  · funext k; exact iblk1_ix V c t ⟨(y 0).val, idx2_lt0 y⟩ k ⟨_, idx2_lt0 _⟩ hR
  · funext k j; exact iblk5_ix V c t k j
  · funext k j; exact iblk6_ix V c t k j
  · funext j; exact iblk7_ix V c t j
  · funext k j; exact iblk8_ix V c t k j
  · funext j; exact iblk9_ix V c t j

/-- An index of the feature array is in point `t`'s block iff each coordinate is in the block's range on its axis. -/
theorem mem_blk10 (t : Fin cfg1.N) (i : S20000x128.Idx) :
    i ∈ ((cfg1.win 10).blk t).view.set ↔ ∀ a : Fin 2, win1_10.index t a * S2000x128.size a ≤ (i a).val ∧ (i a).val < win1_10.index t a * S2000x128.size a + S2000x128.size a := by
  show i ∈ ((View.whole main_v57_0).slice (win1_10.rect t)).set ↔ _
  rw [View.set_slice_whole, Rect.mem_set_unit]
  exact Iff.rfl

/-- Row `r` of the feature array is in the block of point `r / 2000`. -/
theorem cover10 (i : S20000x128.Idx) :
    ∃ t : Fin cfg1.N, (cfg1.win 10).flush t = true ∧ i ∈ ((cfg1.win 10).blk t).view.set := by
  have hi0 : (i 0).val < 20000 := idx2_lt0 i
  have hi1 : (i 1).val < 128 := idx2_lt1 i
  have hN : cfg1.N = 10 := N_1
  refine ⟨⟨(i 0).val / 2000, by rw [hN]; omega⟩, flush1_10 _, ?_⟩
  obtain ⟨-, -, -, -, -, ⟨eo0, eo1⟩, -⟩ := idx_facts ⟨(i 0).val / 2000, by rw [hN]; omega⟩
  rw [mem_blk10]
  intro a
  match a with
  | ⟨0, _⟩ =>
    show win1_10.index _ (0 : Fin 2) * 2000 ≤ (i 0).val ∧ (i 0).val < win1_10.index _ (0 : Fin 2) * 2000 + 2000
    rw [eo0]; show (i 0).val / 2000 * 2000 ≤ (i 0).val ∧ (i 0).val < (i 0).val / 2000 * 2000 + 2000; omega
  | ⟨1, _⟩ =>
    show win1_10.index _ (1 : Fin 2) * 128 ≤ (i 1).val ∧ (i 1).val < win1_10.index _ (1 : Fin 2) * 128 + 128
    rw [eo1]; omega

/-- The feature array after the region is `Gh` of the arrays the region reads. -/
theorem final10 (c : Dev nD) :
    (dat1 (F := Ideal) V c).arrAt 10 cfg1.N
      = Gh (V c main_arg0) (V c main_v49) (V c main_v53) (V c main_v54) (V c main_v55) (V c main_arg15) (V c main_v56) :=
  (dat1 V c).arrAt_eq_of_cover 10 _ (fun t _ => flushed10_eq V c t) cover10

/-- THE FEATURE OUTPUT, entry by entry. -/
theorem node_h (c : Dev nD) (n : Fin 20000) (j : Fin 128) :
    ((dat1 (F := Ideal) V c).arrAt 10 cfg1.N : S20000x128.Idx → EReal) (ix2 n j)
      = Cert.Egnn.nh (fun k => V c main_arg0 (ix2 n k)) (fun k => V c main_v49 (ix2 n k)) (fun k j => V c main_v53 (ix2 k j))
          (fun k j => V c main_v54 (ix2 k j)) (fun j => V c main_v55 (ix2 (0 : Fin 1) j)) (fun k j => V c main_arg15 (ix2 k j))
          (fun j => V c main_v56 (ix2 (0 : Fin 1) j)) j :=
  (congrFun (final10 V c) (ix2 n j)).trans rfl

end Cert.KernelIdeal.NodeValue

end
-- ==== Proof.KerNode.lean ====
/-
  The kernel program's two results, entry by entry, in the specification's words.

  The node region's outputs are the new features and the new coordinates of the nodes. Row `n` of the new features is the
  node update of row `n` of the features and of row `n` of the aggregated messages, with the weights read off the
  arguments: the two halves of the first node weight are rows `0 … 127` and `128 … 255` of the [256,128] argument, the
  bias rows are the bias vectors. Entry `(n, d)` of the new coordinates is the old coordinate plus the aggregated
  coordinate term times the node's mask, the negated fixed-mask bit as a float. The two aggregated arrays are left as
  the buffers the region finds; every other operand is an argument at its launch contents.
-/
import proofs.«169153_j82772609728932_2_alg».proof.Proof.Spec
import proofs.«169153_j82772609728932_2_alg».proof.Proof.NodeValue
import proofs.«169153_j82772609728932_2_alg».proof.Proof.HostSide1
import proofs.«169153_j82772609728932_2_alg».proof.Proof.KernelRun

noncomputable section

open Idealize.ShloMosaic Idealize.ShloMosaic.TcCoe Idealize.SL.Sem Idealize.ShloMosaic.ValueIdx

namespace Cert.KernelIdeal.KerNode

open Cert.KernelIdeal Cert.KernelIdeal.Gen

variable (m : (ℓ : Loc nD τ sig) → Buf (Elt Ideal) ℓ) (ρ : Dev nD → PrngReg)

/-- THE NEW FEATURES, entry by entry. -/
theorem ker_h (c : Dev nD) (n : Fin 20000) (j : Fin 128) :
    (W4 m ρ c (Proc.devRef .tc main_v57_0) : S20000x128.Idx → EReal) (ix2 n j)
      = Cert.Egnn.nh (fun k => (m ((c : Thread nD τ).loc main_arg0) : S20000x128.Idx → EReal) (ix2 n k))
          (fun k => (W3 m ρ c (Proc.devRef .tc main_v49) : S20000x128.Idx → EReal) (ix2 n k))
          (fun k j => (m ((c : Thread nD τ).loc main_arg13) : S256x128.Idx → EReal) (ix2 (Cert.Egnn.q0 k) j))
          (fun k j => (m ((c : Thread nD τ).loc main_arg13) : S256x128.Idx → EReal) (ix2 (Cert.Egnn.q1 k) j))
          (fun j => (m ((c : Thread nD τ).loc main_arg14) : S128.Idx → EReal) (ix1 j))
          (fun k j => (m ((c : Thread nD τ).loc main_arg15) : S128x128.Idx → EReal) (ix2 k j))
          (fun j => (m ((c : Thread nD τ).loc main_arg16) : S128.Idx → EReal) (ix1 j)) j := by
  rw [HostSide.W4_out0 m ρ c]
  refine (NodeValue.node_h (V3 m ρ) c n j).trans ?_
  show Cert.Egnn.nh (fun k => W3 m ρ c (Proc.devRef .tc main_arg0) (ix2 n k))
      (fun k => W3 m ρ c (Proc.devRef .tc main_v49) (ix2 n k))
      (fun k j => W3 m ρ c (Proc.devRef .tc main_v53) (ix2 k j))
      (fun k j => W3 m ρ c (Proc.devRef .tc main_v54) (ix2 k j))
      (fun j => W3 m ρ c (Proc.devRef .tc main_v55) (ix2 (0 : Fin 1) j))
      (fun k j => W3 m ρ c (Proc.devRef .tc main_arg15) (ix2 k j))
      (fun j => W3 m ρ c (Proc.devRef .tc main_v56) (ix2 (0 : Fin 1) j)) j = _
  rw [HostSide1.W3_arg0 m ρ c, HostSide1.W3_arg15 m ρ c]
  congr 1
  · funext k j; exact HostSide1.W3_v53 m ρ c k j
  · funext k j; exact HostSide1.W3_v54 m ρ c k j
  · funext j; exact HostSide1.W3_v55 m ρ c j
  · funext j; exact HostSide1.W3_v56 m ρ c j

/-- THE NEW COORDINATES, entry by entry. -/
theorem ker_x (c : Dev nD) (n : Fin 20000) (d : Fin 3) :
    (W4 m ρ c (Proc.devRef .tc main_v57_1) : S20000x3.Idx → EReal) (ix2 n d)
      = Cert.Egnn.nx ((m ((c : Thread nD τ).loc main_arg1) : S20000x3.Idx → EReal) (ix2 n d))
          ((W3 m ρ c (Proc.devRef .tc main_v45) : S20000x3.Idx → EReal) (ix2 n d))
          (uitofp (F := Ideal) .f32 (noti (m ((c : Thread nD τ).loc main_arg4) : (⟨S20000, .i1⟩ : BufTy).Contents (Elt Ideal))) (ix1 n)) := by
  rw [HostSide.W4_out1 m ρ c]
  refine (NodeValue.node_x (V3 m ρ) c n d).trans ?_
  show Cert.Egnn.nx (W3 m ρ c (Proc.devRef .tc main_arg1) (ix2 n d)) (W3 m ρ c (Proc.devRef .tc main_v45) (ix2 n d))
      (W3 m ρ c (Proc.devRef .tc main_v52) (ix2 n (0 : Fin 1))) = _
  rw [HostSide1.W3_arg1 m ρ c, HostSide1.W3_v52 m ρ c n]

end Cert.KernelIdeal.KerNode

end
-- ==== Proof.RefValue.lean ====
/-
  The reference program read at an index.

  The reference computes, for every edge `e`, the message row `m` and the coordinate term `ct` of the edge from the
  gathered rows of the edge's two end points, and, for every node `n`, the new feature row `nh` and the new coordinate
  `nx` from the node's own row and the rows the two scatter-adds aggregated. The gathered arrays and the aggregated
  arrays are carried as they are: no statement here opens a gather or a scatter-add.

  Each dense layer is a contraction read as a finite sum over its one contracted axis, plus a bias row broadcast over
  the rows. The first edge layer contracts over a row that is the concatenation of four pieces — the source row, the
  target row, the one normalised squared distance and the edge attributes — so its 273-term sum is split into the four
  sums over the pieces, each read off its piece; the first node layer contracts over the concatenation of the node's
  row and its aggregated message row, two sums of 128 terms. The activation `x · (1 / (1 + e^(-x)))` is `silu x`.
  Only commutativity and associativity of the sum of extended reals are used.
-/
import proofs.«169153_j82772609728932_2_alg».proof.Proof.Spec
import proofs.«169153_j82772609728932_2_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Egnn (silu r0 r1 r2 r3 q0 q1)

variable (x0 : (⟨S20000x128, .f32⟩ : BufTy).Contents (Elt Ideal))
  (x1 : (⟨S20000x3, .f32⟩ : BufTy).Contents (Elt Ideal))
  (x2 : (⟨S2x640000, .i32⟩ : BufTy).Contents (Elt Ideal))
  (x3 : (⟨S640000x16, .f32⟩ : BufTy).Contents (Elt Ideal))
  (x4 : (⟨S20000, .i1⟩ : BufTy).Contents (Elt Ideal))
  (x5 : (⟨S273x128, .f32⟩ : BufTy).Contents (Elt Ideal))
  (x6 : (⟨S128, .f32⟩ : BufTy).Contents (Elt Ideal))
  (x7 : (⟨S128x128, .f32⟩ : BufTy).Contents (Elt Ideal))
  (x8 : (⟨S128, .f32⟩ : BufTy).Contents (Elt Ideal))
  (x9 : (⟨S128x128, .f32⟩ : BufTy).Contents (Elt Ideal))
  (x10 : (⟨S128, .f32⟩ : BufTy).Contents (Elt Ideal))
  (x11 : (⟨S128x1, .f32⟩ : BufTy).Contents (Elt Ideal))
  (x12 : (⟨S1, .f32⟩ : BufTy).Contents (Elt Ideal))
  (x13 : (⟨S256x128, .f32⟩ : BufTy).Contents (Elt Ideal))
  (x14 : (⟨S128, .f32⟩ : BufTy).Contents (Elt Ideal))
  (x15 : (⟨S128x128, .f32⟩ : BufTy).Contents (Elt Ideal))
  (x16 : (⟨S128, .f32⟩ : BufTy).Contents (Elt Ideal))

/-! ## The activation -/

/-- The reference's activation, as its operations spell it on one element, is `silu`. -/
theorem silu_stage (t : Ideal .f32) :
    FloatOps.mulf t (FloatOps.hostDivf (FloatOps.ofBits (F := Ideal) .f32 0x3F800000#32)
      (FloatOps.addf (FloatOps.ofBits (F := Ideal) .f32 0x3F800000#32) (FloatOps.hostUnary .exp (FloatOps.hostNegf t))))
      = silu t := by
  simp only [Ideal.mulf_def, Ideal.hostDivf_def, Ideal.ofBits_def, Ideal.addf_def, Ideal.hostUnary_exp_def,
    Ideal.hostNegf_def, Ideal.negf_def, Cert.Egnn.ofBits_one]
  exact Cert.Egnn.silu_quot t

/-! ## The node side -/

/-- The new coordinate of node `n`: the old one plus the aggregated coordinate term times the node's mask value. -/
theorem ref_x (n : Fin 20000) (c : Fin 3) :
    val_main_v83 (F := Ideal) x0 x1 x2 x3 x4 x5 x6 x7 x8 x9 x10 x11 x12 (ix2 n c)
      = Cert.Egnn.nx (x1 (ix2 n c)) (val_main_v63 (F := Ideal) x0 x1 x2 x3 x5 x6 x7 x8 x9 x10 x11 x12 (ix2 n c)) (val_main_v65 (F := Ideal) x4 (ix1 n)) := by
  have e : idx_main_v66 (idx_main_v67 (ix2 n c)) = ix1 n := funext fun a => Fin.ext (by match a with | ⟨0, _⟩ => rfl)
  rw [val_main_v83_apply, val_main_v68_apply, val_main_v67_apply, val_main_v66_apply, e] <;> rfl

/-- The concatenated node row, on its first half: the node's own row. -/
theorem v72_left (n : Fin 20000) (k : Fin 128) :
    val_main_v72 (F := Ideal) x0 x1 x2 x3 x5 x6 x7 x8 (ix2 n (q0 k)) = x0 (ix2 n k) := by
  unfold val_main_v72
  generalize val_main_v71 (F := Ideal) x0 x1 x2 x3 x5 x6 x7 x8 = y
  exact concatenate_pair_apply_left _ x0 y _ (ix2 n (q0 k)) rfl (ix2 n k)
    (fun a => by match a with | ⟨0, _⟩ => rfl | ⟨1, _⟩ => rfl)

/-- The concatenated node row, on its second half: the aggregated message row. -/
theorem v72_right (n : Fin 20000) (k : Fin 128) :
    val_main_v72 (F := Ideal) x0 x1 x2 x3 x5 x6 x7 x8 (ix2 n (q1 k)) = val_main_v71 (F := Ideal) x0 x1 x2 x3 x5 x6 x7 x8 (ix2 n k) := by
  unfold val_main_v72
  generalize val_main_v71 (F := Ideal) x0 x1 x2 x3 x5 x6 x7 x8 = y
  exact concatenate_pair_apply_right _ x0 y _ (ix2 n (q1 k)) rfl rfl (ix2 n k)
    (fun a ha => by match a, ha with | ⟨0, _⟩, _ => rfl | ⟨1, _⟩, ha => exact absurd (Fin.ext rfl) ha)
    (by show k.val + 128 = 128 + k.val; omega)

/-- The first node layer's contraction, split over the two halves of the concatenated row. -/
theorem v73_at (n : Fin 20000) (k : Fin 128) :
    val_main_v73 (F := Ideal) x0 x1 x2 x3 x5 x6 x7 x8 x13 (ix2 n k)
      = (∑ k' : Fin 128, x0 (ix2 n k') * x13 (ix2 (q0 k') k))
        + ∑ k' : Fin 128, val_main_v71 (F := Ideal) x0 x1 x2 x3 x5 x6 x7 x8 (ix2 n k') * x13 (ix2 (q1 k') k) := by
  have el : ∀ q : Fin 256, lidx_main_v73 (ix2 n k) q = ix2 n q := fun q => funext fun a => Fin.ext (by match a with | ⟨0, _⟩ => rfl | ⟨1, _⟩ => rfl)
  have er : ∀ q : Fin 256, ridx_main_v73 (ix2 n k) q = ix2 q k := fun q => funext fun a => Fin.ext (by match a with | ⟨0, _⟩ => rfl | ⟨1, _⟩ => rfl)
  rw [val_main_v73_apply, Cert.Egnn.sum_split256]
  refine congrArg₂ (· + ·) (Finset.sum_congr rfl fun k' _ => ?_) (Finset.sum_congr rfl fun k' _ => ?_)
  · rw [el, er, v72_left]
  · rw [el, er, v72_right]

/-- The first node layer before its activation. -/
theorem v76_at (n : Fin 20000) (k : Fin 128) :
    val_main_v76 (F := Ideal) x0 x1 x2 x3 x5 x6 x7 x8 x13 x14 (ix2 n k)
      = ((∑ k' : Fin 128, x0 (ix2 n k') * x13 (ix2 (q0 k') k))
        + ∑ k' : Fin 128, val_main_v71 (F := Ideal) x0 x1 x2 x3 x5 x6 x7 x8 (ix2 n k') * x13 (ix2 (q1 k') k)) + x14 (ix1 k) := by
  have e : idx_main_v74 (idx_main_v75 (ix2 n k)) = ix1 k := funext fun a => Fin.ext (by match a with | ⟨0, _⟩ => rfl)
  rw [val_main_v76_apply, v73_at, val_main_v75_apply, val_main_v74_apply, e] <;> rfl

/-- The node layer's activation. -/
theorem v77_at (i : S20000x128.Idx) :
    val_main_v77 (F := Ideal) x0 x1 x2 x3 x5 x6 x7 x8 x13 x14 i = silu (val_main_v76 (F := Ideal) x0 x1 x2 x3 x5 x6 x7 x8 x13 x14 i) := by
  rw [val_main_v77_apply, val_main_call3_v5_apply, val_main_call3_v4_apply, val_main_call3_cst_0_apply, val_main_call3_v3_apply, val_main_call3_v2_apply, val_main_call3_cst_apply, val_main_call3_v1_apply, val_main_call3_v0_apply]
  exact silu_stage _

/-- The new feature row of node `n`. -/
theorem ref_h (n : Fin 20000) (j : Fin 128) :
    val_main_v82 (F := Ideal) x0 x1 x2 x3 x5 x6 x7 x8 x13 x14 x15 x16 (ix2 n j)
      = Cert.Egnn.nh (fun k => x0 (ix2 n k)) (fun k => val_main_v71 (F := Ideal) x0 x1 x2 x3 x5 x6 x7 x8 (ix2 n k))
          (fun k j => x13 (ix2 (q0 k) j)) (fun k j => x13 (ix2 (q1 k) j)) (fun j => x14 (ix1 j))
          (fun k j => x15 (ix2 k j)) (fun j => x16 (ix1 j)) j := by
  have e : idx_main_v80 (idx_main_v81 (ix2 n j)) = ix1 j := funext fun a => Fin.ext (by match a with | ⟨0, _⟩ => rfl)
  have el : ∀ k : Fin 128, lidx_main_v78 (ix2 n j) k = ix2 n k := fun k => funext fun a => Fin.ext (by match a with | ⟨0, _⟩ => rfl | ⟨1, _⟩ => rfl)
  have er : ∀ k : Fin 128, ridx_main_v78 (ix2 n j) k = ix2 k j := fun k => funext fun a => Fin.ext (by match a with | ⟨0, _⟩ => rfl | ⟨1, _⟩ => rfl)
  rw [val_main_v82_apply, val_main_v79_apply, val_main_v81_apply, val_main_v80_apply, e, val_main_v78_apply,
    Ideal.addf_def, Ideal.addf_def]
  refine (add_assoc _ _ _).trans ?_
  refine congrArg₂ (· + ·) rfl (congrArg₂ (· + ·) (Finset.sum_congr rfl fun k _ => ?_) rfl)
  rw [el, er, v77_at, v76_at]

/-! ## The edge side -/

/-- The concatenated edge row on its first piece: the gathered source row. -/
theorem v38_r0 (e : Fin 640000) (k : Fin 128) :
    val_main_v38 (F := Ideal) x0 x1 x2 x3 (ix2 e (r0 k)) = val_main_v30 (F := Ideal) x0 x2 (ix2 e k) := by
  unfold val_main_v38
  generalize val_main_v30 (F := Ideal) x0 x2 = y0
  generalize val_main_v37 (F := Ideal) x0 x2 = y1
  generalize val_main_v23 (F := Ideal) x1 x2 = y2
  exact concatenate_apply_piece _ _ _ (ix2 e (r0 k)) 0 (by show (0 : Nat) < 4; omega) S640000x128 y0 rfl rfl 0 rfl (ix2 e k)
    (fun a ha => by match a, ha with | ⟨0, _⟩, _ => rfl | ⟨1, _⟩, ha => exact absurd (Fin.ext rfl) ha)
    (by show 0 + k.val = k.val; omega)

/-- The concatenated edge row on its second piece: the gathered target row. -/
theorem v38_r1 (e : Fin 640000) (k : Fin 128) :
    val_main_v38 (F := Ideal) x0 x1 x2 x3 (ix2 e (r1 k)) = val_main_v37 (F := Ideal) x0 x2 (ix2 e k) := by
  unfold val_main_v38
  generalize val_main_v30 (F := Ideal) x0 x2 = y0
  generalize val_main_v37 (F := Ideal) x0 x2 = y1
  generalize val_main_v23 (F := Ideal) x1 x2 = y2
  exact concatenate_apply_piece _ _ _ (ix2 e (r1 k)) 1 (by show (1 : Nat) < 4; omega) S640000x128 y1 rfl rfl 128 rfl (ix2 e k)
    (fun a ha => by match a, ha with | ⟨0, _⟩, _ => rfl | ⟨1, _⟩, ha => exact absurd (Fin.ext rfl) ha)
    (by show 128 + k.val = 128 + k.val; rfl)

/-- The concatenated edge row on its third piece: the one normalised squared distance. -/
theorem v38_r2 (e : Fin 640000) :
    val_main_v38 (F := Ideal) x0 x1 x2 x3 (ix2 e r2) = val_main_v23 (F := Ideal) x1 x2 (ix2 e (0 : Fin 1)) := by
  unfold val_main_v38
  generalize val_main_v30 (F := Ideal) x0 x2 = y0
  generalize val_main_v37 (F := Ideal) x0 x2 = y1
  generalize val_main_v23 (F := Ideal) x1 x2 = y2
  exact concatenate_apply_piece _ _ _ (ix2 e r2) 2 (by show (2 : Nat) < 4; omega) S640000x1 y2 rfl rfl 256 rfl (ix2 e (0 : Fin 1))
    (fun a ha => by match a, ha with | ⟨0, _⟩, _ => rfl | ⟨1, _⟩, ha => exact absurd (Fin.ext rfl) ha)
    (by show 256 + 0 = 256; rfl)

/-- The concatenated edge row on its fourth piece: the edge attributes. -/
theorem v38_r3 (e : Fin 640000) (k : Fin 16) :
    val_main_v38 (F := Ideal) x0 x1 x2 x3 (ix2 e (r3 k)) = x3 (ix2 e k) := by
  unfold val_main_v38
  generalize val_main_v30 (F := Ideal) x0 x2 = y0
  generalize val_main_v37 (F := Ideal) x0 x2 = y1
  generalize val_main_v23 (F := Ideal) x1 x2 = y2
  exact concatenate_apply_piece _ _ _ (ix2 e (r3 k)) 3 (by show (3 : Nat) < 4; omega) S640000x16 x3 rfl rfl 257 rfl (ix2 e k)
    (fun a ha => by match a, ha with | ⟨0, _⟩, _ => rfl | ⟨1, _⟩, ha => exact absurd (Fin.ext rfl) ha)
    (by show 257 + k.val = 257 + k.val; rfl)

/-- The normalised squared distance of edge `e`: the squared length of the coordinate difference, over 100. -/
theorem v23_at (e : Fin 640000) :
    val_main_v23 (F := Ideal) x1 x2 (ix2 e (0 : Fin 1))
      = Cert.Egnn.dn (fun c => val_main_v10 (F := Ideal) x1 x2 (ix2 e c) - val_main_v17 (F := Ideal) x1 x2 (ix2 e c)) := by
  have ei : ∀ c : Fin 3, idx_main_v20 (idx_main_v21 (ix2 e (0 : Fin 1))) c = ix2 e c :=
    fun c => funext fun a => Fin.ext (by match a with | ⟨0, _⟩ => rfl | ⟨1, _⟩ => rfl)
  rw [val_main_v23_apply, val_main_v21_apply, val_main_v22_apply, val_main_cst_3_apply, val_main_v20_apply,
    val_main_cst_apply]
  simp only [Ideal.hostDivf_def, Ideal.ofBits_def, Cert.Egnn.ofBits_100, Cert.Egnn.div_100, Cert.Egnn.ofBits_zero,
    zero_add]
  unfold Cert.Egnn.dn
  refine congrArg (· * _) (Finset.sum_congr rfl fun c _ => ?_)
  rw [ei, val_main_v19_apply, val_main_v18_apply] <;> rfl

/-- The first edge layer's contraction, split over the four pieces of the concatenated row. -/
theorem v39_at (e : Fin 640000) (k : Fin 128) :
    val_main_v39 (F := Ideal) x0 x1 x2 x3 x5 (ix2 e k)
      = (((∑ k' : Fin 128, val_main_v30 (F := Ideal) x0 x2 (ix2 e k') * x5 (ix2 (r0 k') k))
          + ∑ k' : Fin 128, val_main_v37 (F := Ideal) x0 x2 (ix2 e k') * x5 (ix2 (r1 k') k))
          + val_main_v23 (F := Ideal) x1 x2 (ix2 e (0 : Fin 1)) * x5 (ix2 r2 k))
        + ∑ k' : Fin 16, x3 (ix2 e k') * x5 (ix2 (r3 k') k) := by
  have el : ∀ q : Fin 273, lidx_main_v39 (ix2 e k) q = ix2 e q := fun q => funext fun a => Fin.ext (by match a with | ⟨0, _⟩ => rfl | ⟨1, _⟩ => rfl)
  have er : ∀ q : Fin 273, ridx_main_v39 (ix2 e k) q = ix2 q k := fun q => funext fun a => Fin.ext (by match a with | ⟨0, _⟩ => rfl | ⟨1, _⟩ => rfl)
  rw [val_main_v39_apply, Cert.Egnn.sum_split273]
  refine congrArg₂ (· + ·) (congrArg₂ (· + ·) (congrArg₂ (· + ·) (Finset.sum_congr rfl fun k' _ => ?_)
    (Finset.sum_congr rfl fun k' _ => ?_)) ?_) (Finset.sum_congr rfl fun k' _ => ?_)
  · rw [el, er, v38_r0]
  · rw [el, er, v38_r1]
  · rw [el, er, v38_r2]
  · rw [el, er, v38_r3]

/-- The first edge layer before its activation. -/
theorem v42_at (e : Fin 640000) (k : Fin 128) :
    val_main_v42 (F := Ideal) x0 x1 x2 x3 x5 x6 (ix2 e k) = Cert.Egnn.s1 (fun k => val_main_v30 (F := Ideal) x0 x2 (ix2 e k)) (fun k => val_main_v37 (F := Ideal) x0 x2 (ix2 e k))
      (fun c => val_main_v10 (F := Ideal) x1 x2 (ix2 e c) - val_main_v17 (F := Ideal) x1 x2 (ix2 e c)) (fun k => x3 (ix2 e k))
      (fun k j => x5 (ix2 (r0 k) j)) (fun k j => x5 (ix2 (r1 k) j)) (fun j => x5 (ix2 r2 j)) (fun k j => x5 (ix2 (r3 k) j))
      (fun j => x6 (ix1 j)) k := by
  have eb : idx_main_v40 (idx_main_v41 (ix2 e k)) = ix1 k := funext fun a => Fin.ext (by match a with | ⟨0, _⟩ => rfl)
  rw [val_main_v42_apply, v39_at, val_main_v41_apply, val_main_v40_apply, eb, v23_at, Ideal.addf_def]
  exact Cert.Egnn.regroup _ _ _ _ _

/-- The first edge layer's activation. -/
theorem v43_at (i : S640000x128.Idx) :
    val_main_v43 (F := Ideal) x0 x1 x2 x3 x5 x6 i = silu (val_main_v42 (F := Ideal) x0 x1 x2 x3 x5 x6 i) := by
  rw [val_main_v43_apply, val_main_call0_v5_apply, val_main_call0_v4_apply, val_main_call0_cst_0_apply, val_main_call0_v3_apply, val_main_call0_v2_apply, val_main_call0_cst_apply, val_main_call0_v1_apply, val_main_call0_v0_apply]
  exact silu_stage _

/-- The second edge layer before its activation. -/
theorem v47_at (e : Fin 640000) (j : Fin 128) :
    val_main_v47 (F := Ideal) x0 x1 x2 x3 x5 x6 x7 x8 (ix2 e j)
      = (∑ k : Fin 128, silu (val_main_v42 (F := Ideal) x0 x1 x2 x3 x5 x6 (ix2 e k)) * x7 (ix2 k j)) + x8 (ix1 j) := by
  have eb : idx_main_v45 (idx_main_v46 (ix2 e j)) = ix1 j := funext fun a => Fin.ext (by match a with | ⟨0, _⟩ => rfl)
  have el : ∀ k : Fin 128, lidx_main_v44 (ix2 e j) k = ix2 e k := fun k => funext fun a => Fin.ext (by match a with | ⟨0, _⟩ => rfl | ⟨1, _⟩ => rfl)
  have er : ∀ k : Fin 128, ridx_main_v44 (ix2 e j) k = ix2 k j := fun k => funext fun a => Fin.ext (by match a with | ⟨0, _⟩ => rfl | ⟨1, _⟩ => rfl)
  rw [val_main_v47_apply, val_main_v44_apply, val_main_v46_apply, val_main_v45_apply, eb, Ideal.addf_def]
  refine congrArg₂ (· + ·) (Finset.sum_congr rfl fun k _ => ?_) rfl
  rw [el, er, v43_at]

/-- The message's activation. -/
theorem v48_at (i : S640000x128.Idx) :
    val_main_v48 (F := Ideal) x0 x1 x2 x3 x5 x6 x7 x8 i = silu (val_main_v47 (F := Ideal) x0 x1 x2 x3 x5 x6 x7 x8 i) := by
  rw [val_main_v48_apply, val_main_call1_v5_apply, val_main_call1_v4_apply, val_main_call1_cst_0_apply, val_main_call1_v3_apply, val_main_call1_v2_apply, val_main_call1_cst_apply, val_main_call1_v1_apply, val_main_call1_v0_apply]
  exact silu_stage _

/-- The message row of edge `e`. -/
theorem ref_m (e : Fin 640000) (j : Fin 128) :
    val_main_v48 (F := Ideal) x0 x1 x2 x3 x5 x6 x7 x8 (ix2 e j) = Cert.Egnn.m (fun k => val_main_v30 (F := Ideal) x0 x2 (ix2 e k)) (fun k => val_main_v37 (F := Ideal) x0 x2 (ix2 e k))
      (fun c => val_main_v10 (F := Ideal) x1 x2 (ix2 e c) - val_main_v17 (F := Ideal) x1 x2 (ix2 e c)) (fun k => x3 (ix2 e k))
      (fun k j => x5 (ix2 (r0 k) j)) (fun k j => x5 (ix2 (r1 k) j)) (fun j => x5 (ix2 r2 j)) (fun k j => x5 (ix2 (r3 k) j))
      (fun j => x6 (ix1 j)) (fun k j => x7 (ix2 k j)) (fun j => x8 (ix1 j)) j := by
  rw [v48_at, v47_at]
  unfold Cert.Egnn.m
  refine congrArg silu (congrArg₂ (· + ·) (Finset.sum_congr rfl fun k _ => ?_) rfl)
  rw [v42_at]

/-- The first coordinate layer's activation. -/
theorem v53_at (i : S640000x128.Idx) :
    val_main_v53 (F := Ideal) x0 x1 x2 x3 x5 x6 x7 x8 x9 x10 i = silu (val_main_v52 (F := Ideal) x0 x1 x2 x3 x5 x6 x7 x8 x9 x10 i) := by
  rw [val_main_v53_apply, val_main_call2_v5_apply, val_main_call2_v4_apply, val_main_call2_cst_0_apply, val_main_call2_v3_apply, val_main_call2_v2_apply, val_main_call2_cst_apply, val_main_call2_v1_apply, val_main_call2_v0_apply]
  exact silu_stage _

/-- The first coordinate layer before its activation. -/
theorem v52_at (e : Fin 640000) (k : Fin 128) :
    val_main_v52 (F := Ideal) x0 x1 x2 x3 x5 x6 x7 x8 x9 x10 (ix2 e k)
      = (∑ k' : Fin 128, Cert.Egnn.m (fun k => val_main_v30 (F := Ideal) x0 x2 (ix2 e k)) (fun k => val_main_v37 (F := Ideal) x0 x2 (ix2 e k))
      (fun c => val_main_v10 (F := Ideal) x1 x2 (ix2 e c) - val_main_v17 (F := Ideal) x1 x2 (ix2 e c)) (fun k => x3 (ix2 e k))
      (fun k j => x5 (ix2 (r0 k) j)) (fun k j => x5 (ix2 (r1 k) j)) (fun j => x5 (ix2 r2 j)) (fun k j => x5 (ix2 (r3 k) j))
      (fun j => x6 (ix1 j)) (fun k j => x7 (ix2 k j)) (fun j => x8 (ix1 j)) k' * x9 (ix2 k' k)) + x10 (ix1 k) := by
  have eb : idx_main_v50 (idx_main_v51 (ix2 e k)) = ix1 k := funext fun a => Fin.ext (by match a with | ⟨0, _⟩ => rfl)
  have el : ∀ q : Fin 128, lidx_main_v49 (ix2 e k) q = ix2 e q := fun q => funext fun a => Fin.ext (by match a with | ⟨0, _⟩ => rfl | ⟨1, _⟩ => rfl)
  have er : ∀ q : Fin 128, ridx_main_v49 (ix2 e k) q = ix2 q k := fun q => funext fun a => Fin.ext (by match a with | ⟨0, _⟩ => rfl | ⟨1, _⟩ => rfl)
  rw [val_main_v52_apply, val_main_v49_apply, val_main_v51_apply, val_main_v50_apply, eb, Ideal.addf_def]
  refine congrArg₂ (· + ·) (Finset.sum_congr rfl fun q _ => ?_) rfl
  rw [el, er, ref_m]

/-- The coordinate weight of edge `e`, before the hyperbolic tangent. -/
theorem v57_at (e : Fin 640000) :
    val_main_v57 (F := Ideal) x0 x1 x2 x3 x5 x6 x7 x8 x9 x10 x11 x12 (ix2 e (0 : Fin 1))
      = (∑ k : Fin 128, silu (val_main_v52 (F := Ideal) x0 x1 x2 x3 x5 x6 x7 x8 x9 x10 (ix2 e k)) * x11 (ix2 k (0 : Fin 1))) + x12 (ix1 (0 : Fin 1)) := by
  have eb : idx_main_v55 (idx_main_v56 (ix2 e (0 : Fin 1))) = ix1 (0 : Fin 1) := funext fun a => Fin.ext (by match a with | ⟨0, _⟩ => rfl)
  have el : ∀ q : Fin 128, lidx_main_v54 (ix2 e (0 : Fin 1)) q = ix2 e q := fun q => funext fun a => Fin.ext (by match a with | ⟨0, _⟩ => rfl | ⟨1, _⟩ => rfl)
  have er : ∀ q : Fin 128, ridx_main_v54 (ix2 e (0 : Fin 1)) q = ix2 q (0 : Fin 1) := fun q => funext fun a => Fin.ext (by match a with | ⟨0, _⟩ => rfl | ⟨1, _⟩ => rfl)
  rw [val_main_v57_apply, val_main_v54_apply, val_main_v56_apply, val_main_v55_apply, eb, Ideal.addf_def]
  refine congrArg₂ (· + ·) (Finset.sum_congr rfl fun q _ => ?_) rfl
  rw [el, er, v53_at]

/-- The coordinate term of edge `e`. -/
theorem ref_ct (e : Fin 640000) (c : Fin 3) :
    val_main_v60 (F := Ideal) x0 x1 x2 x3 x5 x6 x7 x8 x9 x10 x11 x12 (ix2 e c)
      = Cert.Egnn.ct (fun k => val_main_v30 (F := Ideal) x0 x2 (ix2 e k)) (fun k => val_main_v37 (F := Ideal) x0 x2 (ix2 e k))
      (fun c => val_main_v10 (F := Ideal) x1 x2 (ix2 e c) - val_main_v17 (F := Ideal) x1 x2 (ix2 e c)) (fun k => x3 (ix2 e k))
      (fun k j => x5 (ix2 (r0 k) j)) (fun k j => x5 (ix2 (r1 k) j)) (fun j => x5 (ix2 r2 j)) (fun k j => x5 (ix2 (r3 k) j))
      (fun j => x6 (ix1 j)) (fun k j => x7 (ix2 k j)) (fun j => x8 (ix1 j))
          (fun k j => x9 (ix2 k j)) (fun j => x10 (ix1 j)) (fun k => x11 (ix2 k (0 : Fin 1))) (x12 (ix1 (0 : Fin 1))) c := by
  have ei : idx_main_v59 (ix2 e c) = ix2 e (0 : Fin 1) := funext fun a => Fin.ext (by match a with | ⟨0, _⟩ => rfl | ⟨1, _⟩ => rfl)
  rw [val_main_v60_apply, val_main_v18_apply, val_main_v59_apply, ei, val_main_v58_apply, v57_at,
    Ideal.mulf_def, Ideal.subf_def, Ideal.hostUnary_tanh_def]
  unfold Cert.Egnn.ct Cert.Egnn.cw
  refine congrArg₂ (· * ·) rfl (congrArg Ideal.tanh (congrArg₂ (· + ·) (Finset.sum_congr rfl fun k _ => ?_) rfl))
  rw [v52_at]

end Cert.ReferenceIdeal.RefValue

end
-- ==== Proof.Assemble.lean ====
/-
  The two programs' results are one function of the arguments.

  The arrays the edge kernel is entered with are the reference's own intermediate arrays: the same gathers through the same
  index arithmetic (the rounding of the node features before the gather is the identity over the extended reals), the same
  difference of gathered coordinates, and the rows of the first edge weight that the reference reaches through its
  concatenated contraction. So the kernel's message array is the reference's message array and its coordinate-term array
  the reference's; both programs add them into the target nodes by one and the same scatter-add; and the node kernel's two
  result arrays, read entry by entry, are the reference's two results.
-/
import proofs.«169153_j82772609728932_2_alg».proof.Defs
import proofs.«169153_j82772609728932_2_alg».proof.Proof.Gen.KernelIdeal.Frame
import proofs.«169153_j82772609728932_2_alg».proof.Proof.Gen.ReferenceIdeal.Read
import proofs.«169153_j82772609728932_2_alg».proof.Proof.Spec
import proofs.«169153_j82772609728932_2_alg».proof.Proof.EdgeValue
import proofs.«169153_j82772609728932_2_alg».proof.Proof.HostSide0
import proofs.«169153_j82772609728932_2_alg».proof.Proof.HostSide1
import proofs.«169153_j82772609728932_2_alg».proof.Proof.KerNode
import proofs.«169153_j82772609728932_2_alg».proof.Proof.RefValue

noncomputable section

namespace Cert.Proof.Bridge

open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ) (ρ : Dev Cert.KernelIdeal.nD → PrngReg)

/-! ## Congruence of the specification's functions in their row and weight arguments -/

theorem m_congr {hs hs' hd hd' : Fin 128 → EReal} {d d' : Fin 3 → EReal} {ea ea' : Fin 16 → EReal}
    {w1s w1s' w1d w1d' : Fin 128 → Fin 128 → EReal} {w1n w1n' : Fin 128 → EReal} {w1a w1a' : Fin 16 → Fin 128 → EReal}
    {b1 b1' : Fin 128 → EReal} {w2 w2' : Fin 128 → Fin 128 → EReal} {b2 b2' : Fin 128 → EReal} (j : Fin 128)
    (e0 : hs = hs') (e1 : hd = hd') (e2 : d = d') (e3 : ea = ea') (e4 : w1s = w1s') (e5 : w1d = w1d') (e6 : w1n = w1n')
    (e7 : w1a = w1a') (e8 : b1 = b1') (e9 : w2 = w2') (e10 : b2 = b2') :
    Cert.Egnn.m hs hd d ea w1s w1d w1n w1a b1 w2 b2 j = Cert.Egnn.m hs' hd' d' ea' w1s' w1d' w1n' w1a' b1' w2' b2' j := by
  subst e0 e1 e2 e3 e4 e5 e6 e7 e8 e9 e10; rfl

theorem ct_congr {hs hs' hd hd' : Fin 128 → EReal} {d d' : Fin 3 → EReal} {ea ea' : Fin 16 → EReal}
    {w1s w1s' w1d w1d' : Fin 128 → Fin 128 → EReal} {w1n w1n' : Fin 128 → EReal} {w1a w1a' : Fin 16 → Fin 128 → EReal}
    {b1 b1' : Fin 128 → EReal} {w2 w2' : Fin 128 → Fin 128 → EReal} {b2 b2' : Fin 128 → EReal}
    {wx1 wx1' : Fin 128 → Fin 128 → EReal} {bx1 bx1' : Fin 128 → EReal} {wx2 wx2' : Fin 128 → EReal} {bx2 bx2' : EReal}
    (c : Fin 3)
    (e0 : hs = hs') (e1 : hd = hd') (e2 : d = d') (e3 : ea = ea') (e4 : w1s = w1s') (e5 : w1d = w1d') (e6 : w1n = w1n')
    (e7 : w1a = w1a') (e8 : b1 = b1') (e9 : w2 = w2') (e10 : b2 = b2') (e11 : wx1 = wx1') (e12 : bx1 = bx1')
    (e13 : wx2 = wx2') (e14 : bx2 = bx2') :
    Cert.Egnn.ct hs hd d ea w1s w1d w1n w1a b1 w2 b2 wx1 bx1 wx2 bx2 c
      = Cert.Egnn.ct hs' hd' d' ea' w1s' w1d' w1n' w1a' b1' w2' b2' wx1' bx1' wx2' bx2' c := by
  subst e0 e1 e2 e3 e4 e5 e6 e7 e8 e9 e10 e11 e12 e13 e14; rfl

/-! ## The gathered arrays are the reference's -/

/-- The source features the edge kernel is entered with are the reference's gathered source features. -/
theorem hs_eq (c : Dev Cert.KernelIdeal.nD) :
    Cert.KernelIdeal.HostSide.hsK (m ((c : Thread Cert.KernelIdeal.nD Cert.KernelIdeal.τ).loc Cert.KernelIdeal.main_arg0)) (m ((c : Thread Cert.KernelIdeal.nD Cert.KernelIdeal.τ).loc Cert.KernelIdeal.main_arg2)) = Cert.ReferenceIdeal.Read.val_main_v30 (F := Ideal) (m ((c : Thread Cert.KernelIdeal.nD Cert.KernelIdeal.τ).loc Cert.KernelIdeal.main_arg0)) (m ((c : Thread Cert.KernelIdeal.nD Cert.KernelIdeal.τ).loc Cert.KernelIdeal.main_arg2)) := by
  unfold Cert.KernelIdeal.HostSide.hsK Cert.ReferenceIdeal.Read.val_main_v30 Cert.ReferenceIdeal.Read.val_main_v29 Cert.ReferenceIdeal.Read.val_main_v28 Cert.ReferenceIdeal.Read.val_main_v27
    Cert.ReferenceIdeal.Read.val_main_v26 Cert.ReferenceIdeal.Read.val_main_v25 Cert.ReferenceIdeal.Read.val_main_v24 Cert.ReferenceIdeal.Read.val_main_c_5 Cert.ReferenceIdeal.Read.val_main_c_4
    Cert.ReferenceIdeal.Read.val_main_v1 Cert.ReferenceIdeal.Read.val_main_v0
  rfl

/-- The target features likewise. -/
theorem hd_eq (c : Dev Cert.KernelIdeal.nD) :
    Cert.KernelIdeal.HostSide.hdK (m ((c : Thread Cert.KernelIdeal.nD Cert.KernelIdeal.τ).loc Cert.KernelIdeal.main_arg0)) (m ((c : Thread Cert.KernelIdeal.nD Cert.KernelIdeal.τ).loc Cert.KernelIdeal.main_arg2)) = Cert.ReferenceIdeal.Read.val_main_v37 (F := Ideal) (m ((c : Thread Cert.KernelIdeal.nD Cert.KernelIdeal.τ).loc Cert.KernelIdeal.main_arg0)) (m ((c : Thread Cert.KernelIdeal.nD Cert.KernelIdeal.τ).loc Cert.KernelIdeal.main_arg2)) := by
  unfold Cert.KernelIdeal.HostSide.hdK Cert.ReferenceIdeal.Read.val_main_v37 Cert.ReferenceIdeal.Read.val_main_v36 Cert.ReferenceIdeal.Read.val_main_v35 Cert.ReferenceIdeal.Read.val_main_v34
    Cert.ReferenceIdeal.Read.val_main_v33 Cert.ReferenceIdeal.Read.val_main_v32 Cert.ReferenceIdeal.Read.val_main_v31 Cert.ReferenceIdeal.Read.val_main_c_7 Cert.ReferenceIdeal.Read.val_main_c_6
    Cert.ReferenceIdeal.Read.val_main_v3 Cert.ReferenceIdeal.Read.val_main_v2
  rfl

/-- The coordinate differences likewise, entry by entry. -/
theorem diff_eq (c : Dev Cert.KernelIdeal.nD) (i : Cert.KernelIdeal.S640000x3.Idx) :
    Cert.KernelIdeal.HostSide.diffK (m ((c : Thread Cert.KernelIdeal.nD Cert.KernelIdeal.τ).loc Cert.KernelIdeal.main_arg1)) (m ((c : Thread Cert.KernelIdeal.nD Cert.KernelIdeal.τ).loc Cert.KernelIdeal.main_arg2)) i
      = Cert.ReferenceIdeal.Read.val_main_v10 (F := Ideal) (m ((c : Thread Cert.KernelIdeal.nD Cert.KernelIdeal.τ).loc Cert.KernelIdeal.main_arg1)) (m ((c : Thread Cert.KernelIdeal.nD Cert.KernelIdeal.τ).loc Cert.KernelIdeal.main_arg2)) i - Cert.ReferenceIdeal.Read.val_main_v17 (F := Ideal) (m ((c : Thread Cert.KernelIdeal.nD Cert.KernelIdeal.τ).loc Cert.KernelIdeal.main_arg1)) (m ((c : Thread Cert.KernelIdeal.nD Cert.KernelIdeal.τ).loc Cert.KernelIdeal.main_arg2)) i := by
  unfold Cert.KernelIdeal.HostSide.diffK Cert.ReferenceIdeal.Read.val_main_v10 Cert.ReferenceIdeal.Read.val_main_v17 Cert.ReferenceIdeal.Read.val_main_v9 Cert.ReferenceIdeal.Read.val_main_v16
    Cert.ReferenceIdeal.Read.val_main_v8 Cert.ReferenceIdeal.Read.val_main_v15 Cert.ReferenceIdeal.Read.val_main_v7 Cert.ReferenceIdeal.Read.val_main_v14 Cert.ReferenceIdeal.Read.val_main_v6
    Cert.ReferenceIdeal.Read.val_main_v13 Cert.ReferenceIdeal.Read.val_main_v5 Cert.ReferenceIdeal.Read.val_main_v12 Cert.ReferenceIdeal.Read.val_main_v4 Cert.ReferenceIdeal.Read.val_main_v11
    Cert.ReferenceIdeal.Read.val_main_c Cert.ReferenceIdeal.Read.val_main_c_0 Cert.ReferenceIdeal.Read.val_main_c_1 Cert.ReferenceIdeal.Read.val_main_c_2
    Cert.ReferenceIdeal.Read.val_main_v1 Cert.ReferenceIdeal.Read.val_main_v0 Cert.ReferenceIdeal.Read.val_main_v3 Cert.ReferenceIdeal.Read.val_main_v2
  rfl

/-! ## The edge kernel's two arrays are the reference's -/

/-- The message array after the edge kernel is the reference's message array. -/
theorem edge_m (c : Dev Cert.KernelIdeal.nD) :
    ((Cert.KernelIdeal.Gen.dat0 (F := Ideal) (Cert.KernelIdeal.Gen.V1 m ρ) c).arrAt 15 Cert.KernelIdeal.cfg0.N : Cert.KernelIdeal.S640000x128.Idx → EReal)
      = Cert.ReferenceIdeal.Read.val_main_v48 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) := by
  funext i
  obtain ⟨e, j, rfl⟩ : ∃ (e : Fin 640000) (j : Fin 128), i = ix2 e j := ⟨i 0, i 1, eq_ix2 i⟩
  rw [Cert.ReferenceIdeal.RefValue.ref_m, Cert.KernelIdeal.EdgeValue.final15]
  unfold Cert.KernelIdeal.EdgeValue.mArr
  exact m_congr j
    (funext fun k => congrFun ((Cert.KernelIdeal.HostSide.W1_v11 m ρ c).trans (hs_eq m c)) (ix2 e k))
    (funext fun k => congrFun ((Cert.KernelIdeal.HostSide.W1_v18 m ρ c).trans (hd_eq m c)) (ix2 e k))
    (funext fun d' => (congrFun (Cert.KernelIdeal.HostSide.W1_v33 m ρ c) (ix2 e d')).trans (diff_eq m c (ix2 e d')))
    (funext fun k => congrFun (Cert.KernelIdeal.HostSide.W1_arg3 m ρ c) (ix2 e k))
    (funext fun k => funext fun j' => Cert.KernelIdeal.HostSide.W1_v34 m ρ c k j')
    (funext fun k => funext fun j' => Cert.KernelIdeal.HostSide.W1_v35 m ρ c k j')
    (funext fun j' => Cert.KernelIdeal.HostSide.W1_v36 m ρ c j')
    (funext fun k => funext fun j' => Cert.KernelIdeal.HostSide.W1_v37 m ρ c k j')
    (funext fun j' => Cert.KernelIdeal.HostSide.W1_v38 m ρ c j')
    (funext fun k => funext fun j' => congrFun (Cert.KernelIdeal.HostSide.W1_arg7 m ρ c) (ix2 k j'))
    (funext fun j' => Cert.KernelIdeal.HostSide.W1_v39 m ρ c j')

/-- The coordinate-term array after the edge kernel is the reference's. -/
theorem edge_ct (c : Dev Cert.KernelIdeal.nD) :
    ((Cert.KernelIdeal.Gen.dat0 (F := Ideal) (Cert.KernelIdeal.Gen.V1 m ρ) c).arrAt 16 Cert.KernelIdeal.cfg0.N : Cert.KernelIdeal.S640000x3.Idx → EReal)
      = Cert.ReferenceIdeal.Read.val_main_v60 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) := by
  funext i
  obtain ⟨e, d, rfl⟩ : ∃ (e : Fin 640000) (d : Fin 3), i = ix2 e d := ⟨i 0, i 1, eq_ix2 i⟩
  rw [Cert.ReferenceIdeal.RefValue.ref_ct, Cert.KernelIdeal.EdgeValue.final16]
  unfold Cert.KernelIdeal.EdgeValue.ctArr
  exact ct_congr d
    (funext fun k => congrFun ((Cert.KernelIdeal.HostSide.W1_v11 m ρ c).trans (hs_eq m c)) (ix2 e k))
    (funext fun k => congrFun ((Cert.KernelIdeal.HostSide.W1_v18 m ρ c).trans (hd_eq m c)) (ix2 e k))
    (funext fun d' => (congrFun (Cert.KernelIdeal.HostSide.W1_v33 m ρ c) (ix2 e d')).trans (diff_eq m c (ix2 e d')))
    (funext fun k => congrFun (Cert.KernelIdeal.HostSide.W1_arg3 m ρ c) (ix2 e k))
    (funext fun k => funext fun j' => Cert.KernelIdeal.HostSide.W1_v34 m ρ c k j')
    (funext fun k => funext fun j' => Cert.KernelIdeal.HostSide.W1_v35 m ρ c k j')
    (funext fun j' => Cert.KernelIdeal.HostSide.W1_v36 m ρ c j')
    (funext fun k => funext fun j' => Cert.KernelIdeal.HostSide.W1_v37 m ρ c k j')
    (funext fun j' => Cert.KernelIdeal.HostSide.W1_v38 m ρ c j')
    (funext fun k => funext fun j' => congrFun (Cert.KernelIdeal.HostSide.W1_arg7 m ρ c) (ix2 k j'))
    (funext fun j' => Cert.KernelIdeal.HostSide.W1_v39 m ρ c j')
    (funext fun k => funext fun j' => congrFun (Cert.KernelIdeal.HostSide.W1_arg9 m ρ c) (ix2 k j'))
    (funext fun j' => Cert.KernelIdeal.HostSide.W1_v40 m ρ c j')
    (funext fun k => congrFun (Cert.KernelIdeal.HostSide.W1_arg11 m ρ c) (ix2 k (0 : Fin 1)))
    (Cert.KernelIdeal.HostSide.W1_v41 m ρ c)

/-! ## The aggregated arrays the node kernel is entered with are the reference's -/

/-- The aggregated messages: the same scatter-add of the same array. -/
theorem ker_msg (c : Dev Cert.KernelIdeal.nD) :
    (Cert.KernelIdeal.Gen.W3 m ρ c (Proc.devRef .tc Cert.KernelIdeal.main_v49) : Cert.KernelIdeal.S20000x128.Idx → EReal)
      = Cert.ReferenceIdeal.Read.val_main_v71 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) := by
  rw [Cert.KernelIdeal.HostSide1.W3_v49, Cert.KernelIdeal.HostSide1.W2_out0]
  unfold Cert.KernelIdeal.HostSide1.msgK Cert.ReferenceIdeal.Read.val_main_v71
  have e : (extf (F := Ideal) .f32 ((Cert.KernelIdeal.Gen.dat0 (F := Ideal) (Cert.KernelIdeal.Gen.V1 m ρ) c).arrAt 15 Cert.KernelIdeal.cfg0.N) Cert.KernelIdeal.Gen.bitsLt_bf16_f32
      : Cert.KernelIdeal.S640000x128.Idx → EReal) = Cert.ReferenceIdeal.Read.val_main_v48 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) := edge_m m ρ c
  rw [e]
  unfold Cert.KernelIdeal.HostSide1.tgtRow Cert.ReferenceIdeal.Read.val_main_v69 Cert.ReferenceIdeal.Read.val_main_v70 Cert.ReferenceIdeal.Read.val_main_cst_9
    Cert.ReferenceIdeal.Read.val_main_v3 Cert.ReferenceIdeal.Read.val_main_v2
  rfl

/-- The aggregated coordinate terms likewise. -/
theorem ker_cagg (c : Dev Cert.KernelIdeal.nD) :
    (Cert.KernelIdeal.Gen.W3 m ρ c (Proc.devRef .tc Cert.KernelIdeal.main_v45) : Cert.KernelIdeal.S20000x3.Idx → EReal)
      = Cert.ReferenceIdeal.Read.val_main_v63 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) := by
  rw [Cert.KernelIdeal.HostSide1.W3_v45, Cert.KernelIdeal.HostSide1.W2_out1]
  unfold Cert.KernelIdeal.HostSide1.caggK Cert.ReferenceIdeal.Read.val_main_v63
  rw [edge_ct m ρ c]
  unfold Cert.KernelIdeal.HostSide1.tgtRow Cert.ReferenceIdeal.Read.val_main_v61 Cert.ReferenceIdeal.Read.val_main_v62 Cert.ReferenceIdeal.Read.val_main_cst_8
    Cert.ReferenceIdeal.Read.val_main_v3 Cert.ReferenceIdeal.Read.val_main_v2
  rfl

/-! ## The results -/

variable (m' : (ℓ : Loc Cert.ReferenceIdeal.nD Cert.ReferenceIdeal.τ Cert.ReferenceIdeal.sig) → Buf (Elt Ideal) ℓ)
  (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))

include hagree

/-- The new node features. -/
theorem out_h (c : Dev Cert.KernelIdeal.nD) :
    Cert.KernelIdeal.Gen.W4 m ρ c (Proc.devRef .tc Cert.KernelIdeal.main_v57_0) = Cert.ReferenceIdeal.Value.res_main_v82 m' c := by
  obtain ⟨h0, h1, h2, h3, h4, h5, h6, h7, h8, h9, h10, h11, h12, h13, h14, h15, h16⟩ := hagree c
  rw [Cert.ReferenceIdeal.Read.val_main_v82_eq, h0, h1, h2, h3, h5, h6, h7, h8, h13, h14, h15, h16]
  show (_ : Cert.KernelIdeal.S20000x128.Idx → EReal) = _
  funext i
  obtain ⟨n, j, rfl⟩ : ∃ (n : Fin 20000) (j : Fin 128), i = ix2 n j := ⟨i 0, i 1, eq_ix2 i⟩
  rw [Cert.KernelIdeal.KerNode.ker_h, Cert.ReferenceIdeal.RefValue.ref_h, ker_msg]

/-- The new node coordinates. -/
theorem out_x (c : Dev Cert.KernelIdeal.nD) :
    Cert.KernelIdeal.Gen.W4 m ρ c (Proc.devRef .tc Cert.KernelIdeal.main_v57_1) = Cert.ReferenceIdeal.Value.res_main_v83 m' c := by
  obtain ⟨h0, h1, h2, h3, h4, h5, h6, h7, h8, h9, h10, h11, h12, h13, h14, h15, h16⟩ := hagree c
  rw [Cert.ReferenceIdeal.Read.val_main_v83_eq, h0, h1, h2, h3, h4, h5, h6, h7, h8, h9, h10, h11, h12]
  show (_ : Cert.KernelIdeal.S20000x3.Idx → EReal) = _
  funext i
  obtain ⟨n, d, rfl⟩ : ∃ (n : Fin 20000) (d : Fin 3), i = ix2 n d := ⟨i 0, i 1, eq_ix2 i⟩
  rw [Cert.KernelIdeal.KerNode.ker_x, Cert.ReferenceIdeal.RefValue.ref_x, ker_cagg]
  unfold Cert.ReferenceIdeal.Read.val_main_v65 Cert.ReferenceIdeal.Read.val_main_v64
  rfl

end Cert.Proof.Bridge

end
-- ==== Proof.lean ====
/-
  The certificate of one message-passing layer: the Pallas program (an edge kernel over 125 blocks of 5120 edges, host
  scatter-adds, a node kernel over 10 blocks of 2000 nodes) against its plain reference, over the extended reals.

  The three frames are the generated ones (the reference's is its generated run with the results dropped). The one
  rewrite the idealization made — the literal `0.01` read as the rational `1/100` — is the ledger's entry. The value
  claim: both programs gather the same rows of the node features and coordinates through the same index arithmetic, compute
  per edge the same message and coordinate term (the kernel contracts the four parts of the concatenated edge input
  separately and multiplies by `1/100` where the reference contracts the concatenation and divides by `100`; a change of
  float format is the identity), add them into the target nodes by the same scatter-add, and compute per node the same new
  features and coordinates (again a concatenated contraction against its two halves, and one regrouping of a sum of three).
  Only commutativity and associativity of addition are used, so the precondition is never opened.
-/
import proofs.«169153_j82772609728932_2_alg».proof.Defs
import proofs.«169153_j82772609728932_2_alg».proof.Proof.Gen.Kernel
import proofs.«169153_j82772609728932_2_alg».proof.Proof.Gen.Kernel.Skeleton
import proofs.«169153_j82772609728932_2_alg».proof.Proof.Gen.Kernel.Launch
import proofs.«169153_j82772609728932_2_alg».proof.Proof.Gen.Kernel.Points
import proofs.«169153_j82772609728932_2_alg».proof.Proof.Gen.Kernel.Frame
import proofs.«169153_j82772609728932_2_alg».proof.Proof.Gen.KernelIdeal
import proofs.«169153_j82772609728932_2_alg».proof.Proof.Gen.KernelIdeal.Skeleton
import proofs.«169153_j82772609728932_2_alg».proof.Proof.Gen.KernelIdeal.Launch
import proofs.«169153_j82772609728932_2_alg».proof.Proof.Gen.KernelIdeal.Points
import proofs.«169153_j82772609728932_2_alg».proof.Proof.Gen.KernelIdeal.Frame
import proofs.«169153_j82772609728932_2_alg».proof.Proof.Gen.ReferenceIdeal
import proofs.«169153_j82772609728932_2_alg».proof.Proof.Gen.Pre_finite_inputs
import proofs.«169153_j82772609728932_2_alg».proof.Proof.Gen.ReferenceIdeal.Run
import proofs.«169153_j82772609728932_2_alg».proof.Proof.Gen.ReferenceIdeal.Read
import proofs.«169153_j82772609728932_2_alg».proof.Proof.KernelRun
import proofs.«169153_j82772609728932_2_alg».proof.Proof.Assemble
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ledger's one entry: the table gives `"inv_100"` the value `1/100`. -/
theorem preserves : Cert.preserves_Kernel_KernelIdeal :=
  IdealRules.named_const.statement Cert.KernelIdeal.κ "inv_100" .f32 0x3C23D70A#32 ((1 / 100 : ℝ) : EReal) rfl

/-- Both programs end with the same two arrays: the kernel program's run names its results at the last boundary's
    contents, the reference's at its composed term, and the two are one function of the arguments (`Bridge.out_h`,
    `Bridge.out_x`). -/
theorem algebraic : Cert.algebraic_KernelIdeal_ReferenceIdeal := by
  intro m ρ m' ρ' _ hagree
  refine ⟨fun c => Cert.KernelIdeal.Gen.W4 m ρ c (Proc.devRef .tc Cert.KernelIdeal.main_v57_0),
    fun c => Cert.KernelIdeal.Gen.W4 m ρ c (Proc.devRef .tc Cert.KernelIdeal.main_v57_1),
    Cert.KernelIdeal.HostSide.run_named m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · exact (Cert.Proof.Bridge.out_h m ρ m' hagree c).symm
  · exact (Cert.Proof.Bridge.out_x m ρ m' hagree c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
